-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 99999#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S100000x128 : Shape := ⟨2, ![100000, 128]⟩
abbrev S32x200x128 : Shape := ⟨3, ![32, 200, 128]⟩
abbrev S819200x128 : Shape := ⟨2, ![819200, 128]⟩
abbrev S200x128 : Shape := ⟨2, ![200, 128]⟩
abbrev S512x128 : Shape := ⟨2, ![512, 128]⟩
abbrev S_ : Shape := ⟨0, ![]⟩
abbrev S1x200x128 : Shape := ⟨3, ![1, 200, 128]⟩
abbrev S256x128 : Shape := ⟨2, ![256, 128]⟩
abbrev S128x128 : Shape := ⟨2, ![128, 128]⟩
abbrev S1x128 : Shape := ⟨2, ![1, 128]⟩
abbrev S128 : Shape := ⟨1, ![128]⟩
abbrev S4096x200x128 : Shape := ⟨3, ![4096, 200, 128]⟩

abbrev nBuf : Table → Nat
  | .hbm => 5
  | .local .scVector .vmem => 2
  | _ => 0

abbrev bufTy : (tb : Table) → Fin (nBuf tb) → BufTy
  | .hbm, ⟨0, _⟩ => ⟨S4096x200, .i32⟩
  | .hbm, ⟨1, _⟩ => ⟨S100000x128, .f32⟩
  | .hbm, ⟨2, _⟩ => ⟨S32x200x128, .i32⟩
  | .hbm, ⟨3, _⟩ => ⟨S819200x128, .f32⟩
  | .hbm, ⟨4, _⟩ => ⟨S4096x200x128, .f32⟩
  | .local .scVector .vmem, ⟨0, _⟩ => ⟨S200x128, .i32⟩
  | .local .scVector .vmem, ⟨1, _⟩ => ⟨S512x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_13_r0 : BitVec 32 := 0#32
  let c0_i32_14_r0 : BitVec 32 := 0#32
  ![v1.toNat, 0, 0]
@[reducible] def k0_t1_loop : Scf.Loop 32 :=
  let c0_i32_0 : BitVec 32 := 0#32
  let c50_i32 : BitVec 32 := 50#32
  let v3 : BitVec 32 := Scalar.addi c0_i32_0 c50_i32
  let c1_i32 : BitVec 32 := 1#32
  ⟨c0_i32_0, v3, c1_i32⟩
def k0_cond1 (k0_t1 : Fin k0_t1_loop.trips) : BitVec 1 :=
  let c0_i32_0 : BitVec 32 := 0#32
  let c1_i32 : BitVec 32 := 1#32
  let arg15 : BitVec 32 := Scf.iv c0_i32_0 c1_i32 k0_t1
  let c0_i32_13 : BitVec 32 := 0#32
  let v15 : BitVec 1 := Scalar.cmpi .sgt arg15 c0_i32_13
  let v16 : BitVec 32 := Scalar.extui v15
  let c0_i32_14 : BitVec 32 := 0#32
  let v17 : BitVec 1 := Scalar.cmpi .ne v16 c0_i32_14
  v17

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_0 : BitVec 32 := 0#32
  let c1_i32 : BitVec 32 := 1#32
  let arg15 : BitVec 32 := Scf.iv c0_i32_0 c1_i32 k0_t1
  let c4_i32 : BitVec 32 := 4#32
  let v14 : BitVec 32 := Scalar.muli arg15 c4_i32
  let c0_i32_80 : BitVec 32 := 0#32
  let v77 : BitVec 32 := Scalar.addi v14 c0_i32_80
  let c4_i32_81 : BitVec 32 := 4#32
  let v78 : BitVec 32 := Scalar.subi v77 c4_i32_81
  let c128_i32_82 : BitVec 32 := 128#32
  let v79 : BitVec 32 := Scalar.muli v78 c128_i32_82
  let v80 : BitVec 32 := Scalar.addi v2 v79
  let c0_i32_85 : BitVec 32 := 0#32
  ![v80.toNat, 0]
def k0_off3 (k0_t1 : Fin k0_t1_loop.trips) (c0_i32_15 : BitVec 32) : Fin 2 → Nat :=
  let c0_i32_0 : BitVec 32 := 0#32
  let c1_i32 : BitVec 32 := 1#32
  let arg15 : BitVec 32 := Scf.iv c0_i32_0 c1_i32 k0_t1
  let c4_i32 : BitVec 32 := 4#32
  let v14 : BitVec 32 := Scalar.muli arg15 c4_i32
  let v18 : BitVec 32 := Scalar.addi v14 c0_i32_15
  let c0_i32_18 : BitVec 32 := 0#32
  ![v18.toNat, 0]
def k0_cond2 (k0_t1 : Fin k0_t1_loop.trips) : BitVec 1 :=
  let c0_i32_0 : BitVec 32 := 0#32
  let c1_i32 : BitVec 32 := 1#32
  let arg15 : BitVec 32 := Scf.iv c0_i32_0 c1_i32 k0_t1
  let c0_i32_26 : BitVec 32 := 0#32
  let v28 : BitVec 1 := Scalar.cmpi .sgt arg15 c0_i32_26
  let v29 : BitVec 32 := Scalar.extui v28
  let c0_i32_27 : BitVec 32 := 0#32
  let v30 : BitVec 1 := Scalar.cmpi .ne v29 c0_i32_27
  v30

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_0 : BitVec 32 := 0#32
  let c1_i32 : BitVec 32 := 1#32
  let arg15 : BitVec 32 := Scf.iv c0_i32_0 c1_i32 k0_t1
  let c4_i32 : BitVec 32 := 4#32
  let v14 : BitVec 32 := Scalar.muli arg15 c4_i32
  let c2_i32_80 : BitVec 32 := 2#32
  let v77 : BitVec 32 := Scalar.addi v14 c2_i32_80
  let c4_i32_81 : BitVec 32 := 4#32
  let v78 : BitVec 32 := Scalar.subi v77 c4_i32_81
  let c128_i32_82 : BitVec 32 := 128#32
  let v79 : BitVec 32 := Scalar.muli v78 c128_i32_82
  let v80 : BitVec 32 := Scalar.addi v2 v79
  let c0_i32_85 : BitVec 32 := 0#32
  ![v80.toNat, 0]
def k0_off5 (i : grid0.Coords) (k0_t1 : Fin k0_t1_loop.trips) (c1_i32_50 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_0 : BitVec 32 := 0#32
  let c1_i32 : BitVec 32 := 1#32
  let arg15 : BitVec 32 := Scf.iv c0_i32_0 c1_i32 k0_t1
  let c4_i32 : BitVec 32 := 4#32
  let v14 : BitVec 32 := Scalar.muli arg15 c4_i32
  let v51 : BitVec 32 := Scalar.addi v14 c1_i32_50
  let c1_i32_51 : BitVec 32 := 1#32
  let v52 : BitVec 32 := Scalar.subi v51 c1_i32_51
  let c128_i32_52 : BitVec 32 := 128#32
  let v53 : BitVec 32 := Scalar.muli v52 c128_i32_52
  let v54 : BitVec 32 := Scalar.addi v2 v53
  let c0_i32_55 : BitVec 32 := 0#32
  ![v54.toNat, 0]
def k0_off6 (i : grid0.Coords) (c25088_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v4 : BitVec 32 := Scalar.addi v2 c25088_i32
  let c0_i32_4 : BitVec 32 := 0#32
  ![v4.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200_S32x200x128 : S4096x200.ShapeCasts S32x200x128
  squeezes_S1x200x128_S200x128 : S1x200x128.Squeezes S200x128
  inb_S512x128_S256x128_0_0 : ∀ a, (![0, 0] : Fin 2 → Nat) a + S256x128.size a ≤ S512x128.size a
  inb_S512x128_S128x128_0_0 : ∀ a, (![0, 0] : Fin 2 → Nat) a + S128x128.size a ≤ S512x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S512x128_S128x128_128_0 : ∀ a, (![128, 0] : Fin 2 → Nat) a + S128x128.size a ≤ S512x128.size a
  inb_S512x128_S256x128_256_0 : ∀ a, (![256, 0] : Fin 2 → Nat) a + S256x128.size a ≤ S512x128.size a
  inb_S512x128_S128x128_256_0 : ∀ a, (![256, 0] : Fin 2 → Nat) a + S128x128.size a ≤ S512x128.size a
  inb_S512x128_S128x128_384_0 : ∀ a, (![384, 0] : Fin 2 → Nat) a + S128x128.size a ≤ S512x128.size a
  shapeCasts_S819200x128_S4096x200x128 : S819200x128.ShapeCasts S4096x200x128
  hcc0_scratch2 : 0 + S_.numel ≤ 9
  hcc0_scratch3 : 1 + S_.numel ≤ 9
  hcc0_scratch4 : 2 + S_.numel ≤ 9
  hcc0_scratch5 : 3 + S_.numel ≤ 9
  hcc0_scratch6 : 4 + S_.numel ≤ 9
  hcc0_scratch7 : 5 + S_.numel ≤ 9
  hcc0_scratch8 : 6 + S_.numel ≤ 9
  hcc0_scratch9 : 7 + S_.numel ≤ 9
  hcc0_scoped0 : 8 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x200x128.size a ≤ S32x200x128.size a
  k0_t1_ok : k0_t1_loop.OK
  k0_off2_inb : ∀ (i : grid0.Coords) (k0_t1 : Fin k0_t1_loop.trips), ∀ (k0_h1 : k0_cond1 k0_t1 = 1#1), ∀ a, (k0_off2 i k0_t1) a + S256x128.size a ≤ S819200x128.size a
  k0_off3_inb : ∀ k0_t1 : Fin k0_t1_loop.trips, ∀ (r : Fin 4), ∀ a, (k0_off3 k0_t1 (BitVec.ofNat 32 r.val)) a + S1x128.size a ≤ S200x128.size a
  k0_off4_inb : ∀ (i : grid0.Coords) (k0_t1 : Fin k0_t1_loop.trips), ∀ (k0_h2 : k0_cond2 k0_t1 = 1#1), ∀ a, (k0_off4 i k0_t1) a + S256x128.size a ≤ S819200x128.size a
  k0_off5_inb : ∀ (i : grid0.Coords) (k0_t1 : Fin k0_t1_loop.trips), ∀ (r : Fin 2), ∀ a, (k0_off5 i k0_t1 (BitVec.ofNat 32 (1 + 2 * r.val))) a + S256x128.size a ≤ S819200x128.size a
  k0_off6_inb : ∀ i : grid0.Coords, ∀ (r : Fin 2), ∀ a, (k0_off6 i (BitVec.ofNat 32 (25088 + 256 * r.val))) a + S256x128.size a ≤ S819200x128.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7
abbrev cc0_scratch8 : DmaSems sig S_ := SemArray.consecutive 6 S_ hcc0_scratch8
abbrev cc0_scratch9 : DmaSems sig S_ := SemArray.consecutive 7 S_ hcc0_scratch9
abbrev cc0_scoped0 : DmaSems sig S_ := SemArray.consecutive 8 S_ hcc0_scoped0

class Facts : Prop extends Facts₀ where

variable [Facts]
-- ==== ReferenceIdeal.lean ====
abbrev S4096x200 : Shape := ⟨2, ![4096, 200]⟩
abbrev S100000x128 : Shape := ⟨2, ![100000, 128]⟩
abbrev S819200 : Shape := ⟨1, ![819200]⟩
abbrev S_ : Shape := ⟨0, ![]⟩
abbrev S819200x1 : Shape := ⟨2, ![819200, 1]⟩
abbrev S1 : Shape := ⟨1, ![1]⟩
abbrev S1x1 : Shape := ⟨2, ![1, 1]⟩
abbrev S819200x128 : Shape := ⟨2, ![819200, 128]⟩
abbrev S4096x200x128 : Shape := ⟨3, ![4096, 200, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x128, .f32⟩
  | .hbm, ⟨2, _⟩ => ⟨S819200, .i32⟩
  | .hbm, ⟨3, _⟩ => ⟨S_, .i32⟩
  | .hbm, ⟨4, _⟩ => ⟨S819200, .i32⟩
  | .hbm, ⟨5, _⟩ => ⟨S819200, .i1⟩
  | .hbm, ⟨6, _⟩ => ⟨S_, .i32⟩
  | .hbm, ⟨7, _⟩ => ⟨S819200, .i32⟩
  | .hbm, ⟨8, _⟩ => ⟨S819200, .i32⟩
  | .hbm, ⟨9, _⟩ => ⟨S819200, .i32⟩
  | .hbm, ⟨10, _⟩ => ⟨S819200x1, .i32⟩
  | .hbm, ⟨11, _⟩ => ⟨S1, .i32⟩
  | .hbm, ⟨12, _⟩ => ⟨S_, .i32⟩
  | .hbm, ⟨13, _⟩ => ⟨S819200x1, .i32⟩
  | .hbm, ⟨14, _⟩ => ⟨S819200x1, .i1⟩
  | .hbm, ⟨15, _⟩ => ⟨S1x1, .i32⟩
  | .hbm, ⟨16, _⟩ => ⟨S819200x1, .i32⟩
  | .hbm, ⟨17, _⟩ => ⟨S819200x1, .i1⟩
  | .hbm, ⟨18, _⟩ => ⟨S819200x1, .i1⟩
  | .hbm, ⟨19, _⟩ => ⟨S_, .i1⟩
  | .hbm, ⟨20, _⟩ => ⟨S819200, .i1⟩
  | .hbm, ⟨21, _⟩ => ⟨S819200x128, .f32⟩
  | .hbm, ⟨22, _⟩ => ⟨S819200x128, .i1⟩
  | .hbm, ⟨23, _⟩ => ⟨S_, .f32⟩
  | .hbm, ⟨24, _⟩ => ⟨S819200x128, .f32⟩
  | .hbm, ⟨25, _⟩ => ⟨S819200x128, .f32⟩
  | .hbm, ⟨26, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]

class Facts₀ : Prop where
  shapeCasts_S4096x200_S819200 : S4096x200.ShapeCasts S819200
  bcast_S_S819200 : S_.BroadcastsInDim S819200 (![] : Fin 0 → Fin S819200.rank)
  bcast_S819200_S819200x1_0 : S819200.BroadcastsInDim S819200x1 (![0] : Fin 1 → Fin S819200x1.rank)
  bcast_S_S819200x1 : S_.BroadcastsInDim S819200x1 (![] : Fin 0 → Fin S819200x1.rank)
  bcast_S1_S1x1_1 : S1.BroadcastsInDim S1x1 (![1] : Fin 1 → Fin S1x1.rank)
  bcast_S1x1_S819200x1_0_1 : S1x1.BroadcastsInDim S819200x1 (![0, 1] : Fin 2 → Fin S819200x1.rank)
  reducesTo_S819200x1_S819200_d1 : S819200x1.ReducesTo [1] S819200
  h_S_ : 0 < S_.numel
  bcast_S819200_S819200x128_0 : S819200.BroadcastsInDim S819200x128 (![0] : Fin 1 → Fin S819200x128.rank)
  bcast_S_S819200x128 : S_.BroadcastsInDim S819200x128 (![] : Fin 0 → Fin S819200x128.rank)
  shapeCasts_S819200x128_S4096x200x128 : S819200x128.ShapeCasts S4096x200x128
  gather_S100000x128_S819200x1_S819200x128_1_0_n_n_0_1_1128_wf : GatherDims.WF S100000x128 S819200x1 S819200x128 [1] [0] [] [0] [] 1 ![1, 128]

variable [Facts₀]

def gather_S100000x128_S819200x1_S819200x128_1_0_n_n_0_1_1128 : GatherDims S100000x128 S819200x1 S819200x128 where
  offsetDims := [1]
  collapsedSliceDims := [0]
  operandBatchingDims := []
  startIndicesBatchingDims := []
  startIndexMap := [0]
  indexVectorDim := 1
  sliceSizes := ![1, 128]
  wf := gather_S100000x128_S819200x1_S819200x128_1_0_n_n_0_1_1128_wf

class Facts : Prop extends Facts₀ where

variable [Facts]
-- ==== Proof.Spec.lean ====
/-
  The function both programs compute, stated once over the argument arrays and importing neither program.

  Row `r` of the result (in row-major order of the index array) is the row of the table named by the index word at
  row-major position `r`; the word is read as a natural number and reduced modulo the table's height, which is the
  identity on the claim's domain (every index word between 0 and 99999).
-/
import Idealize.ShloMosaic.PureOps
import Idealize.ShloMosaic.Lib.ValueIdx

noncomputable section

namespace Cert.Spec

open Idealize.ShloMosaic Idealize.ShloMosaic.ValueIdx

abbrev SIdx : Shape := ⟨2, ![4096, 200]⟩
abbrev STab : Shape := ⟨2, ![100000, 128]⟩
abbrev SFlat : Shape := ⟨1, ![819200]⟩
abbrev SMid : Shape := ⟨2, ![819200, 128]⟩
abbrev SOut : Shape := ⟨3, ![4096, 200, 128]⟩

theorem casts_flat : SIdx.ShapeCasts SFlat := by decide
theorem casts_out : SMid.ShapeCasts SOut := by decide

/-- The table row that result row `r` copies. -/
def rowOf (idx : SIdx.Idx → BitVec 32) (r : Fin 819200) : Fin 100000 :=
  ⟨(shapeCast SFlat idx casts_flat (ix1 r)).toNat % 100000, Nat.mod_lt _ (by norm_num)⟩

/-- The gathered rows, one per index word in row-major order. -/
def mid {α : Type} (idx : SIdx.Idx → BitVec 32) (tab : STab.Idx → α) : SMid.Idx → α :=
  fun x => tab (ix2 (rowOf idx (x 0)) (x 1))

/-- The result: the gathered rows under the index array's shape. -/
def out {α : Type} (idx : SIdx.Idx → BitVec 32) (tab : STab.Idx → α) : SOut.Idx → α :=
  shapeCast SOut (mid idx tab) casts_out

end Cert.Spec

end
-- ==== Proof.KI.Setup.lean ====
/-
  The launch of the kernel as the library's launch theorem sees it, and what its handshakes carry.

  The kernel runs on 2 SparseCores × 16 vector subcores. Tile (c, i) is worker w = 2·i + c. It copies row w of the index
  array (viewed as 32 × 200 × 128) into its own memory, gathers the 25600 table rows those words name, 128 at a time, and
  writes them to rows [25600·w, 25600·(w+1)) of the 819200 × 128 array. So each tile needs: a read share of the index
  array, a read share of the table, and its own block of rows of the output. At the end every block holds the
  restriction of ONE whole-array function, `Gmid`: row r is the table row named by the index word at row-major
  position r.
-/
import proofs.«207032_g58884001628331_cont_9to1_m_206_11_alg».proof.Defs
import proofs.«207032_g58884001628331_cont_9to1_m_206_11_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«207032_g58884001628331_cont_9to1_m_206_11_alg».proof.Proof.Gen.KernelIdeal
import proofs.«207032_g58884001628331_cont_9to1_m_206_11_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays, the values -/

variable (m : (ℓ : Loc nD τ sig) → Buf (Elt F) ℓ) (ρ : Dev nD → PrngReg)

/-- The index array (4096 × 200), the table, the index array as 32 × 200 × 128, the gathered rows, the result. -/
abbrev aLoc (d : Dev nD) : Loc nD τ sig := (SparseCore.T d).loc main_arg0
abbrev xLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The index words as the kernel is handed them: the index array in row-major order under the shape 32 × 200 × 128. -/
def idx3 (d : Dev nD) : Buf (Elt F) (iLoc d) :=
  shapeCast S32x200x128 (m (aLoc d)) Cert.KernelIdeal.Gen.shapeCasts_S4096x200_S32x200x128

/-- The gathered rows: the one whole-array function every tile's block is a restriction of. -/
def Gmid (d : Dev nD) : Buf (Elt F) (oLoc d) := Cert.Spec.mid (m (aLoc d)) (m (xLoc d))

/-- The result. -/
def Gout (d : Dev nD) : Buf (Elt F) (rLoc d) := Cert.Spec.out (m (aLoc d)) (m (xLoc d))

/-- What the proof asks of the launch memory: every index word names a row of the table. -/
def PreOK : Prop := ∀ (d : Dev nD) (j : S4096x200.Idx), (m (aLoc d) j).toNat < 100000

/-! ## Rows of the output, shares of the inputs -/

/-- Rows [a, a + n) of the 819200 × 128 array, all columns. -/
def rowsSet (a n : ℕ) : Finset S819200x128.Idx := Finset.univ.filter fun x => a ≤ (x 0).val ∧ (x 0).val < a + n

/-- Tile (c, i) is worker 2·i + c. -/
abbrev wid (c : Fin 2) (i : Fin 16) : ℕ := 2 * i.val + c.val
/-- Its block of 25600 rows. -/
abbrev blockSet (c : Fin 2) (i : Fin 16) : Finset S819200x128.Idx := rowsSet (25600 * wid c i) 25600

/-- SparseCore `c`'s half of a full share, and tile `i`'s sixteenth of that. -/
abbrev coreShare (c : Fin 2) : PosShare TreeShare := pieceOf fullShare 2 (by norm_num) c
abbrev tileShare (c : Fin 2) (i : Fin 16) : PosShare TreeShare := pieceOf (coreShare c) 16 (by norm_num) i

variable [FloatOps F]

abbrev cC (c : Fin ((K (F := F)).nCore 0)) : Fin 2 := Fin.cast nCore_zero c
abbrev iC (i : Fin ((K (F := F)).nSub 0)) : Fin 16 := Fin.cast nSub_zero i

/-! ## What the handshakes carry -/

abbrev iSh (d : Dev nD) (q : PosShare TreeShare) : sProp 𝕄 := iLoc d ↦{q} idx3 m d
abbrev xSh (d : Dev nD) (q : PosShare TreeShare) : sProp 𝕄 := xLoc d ↦{q} m (xLoc d)
abbrev oBlk (d : Dev nD) (c : Fin 2) (i : Fin 16) (f : Buf (Elt F) (oLoc d)) : sProp 𝕄 := oLoc d ↦[blockSet c i]{fullShare} f

/-- The one call: each SparseCore takes half shares of the index words and of the table and its sixteen blocks of the
    output; each tile a sixteenth of those shares and its block; the blocks come back holding the gathered rows. -/
def P : (K (F := F)).Pay (nD := nD) (Val := Elt F) (Name := ℕ) (U := UU) where
  st := fun q d c => match q with
    | 0 => iprop(iSh m d (coreShare (cC c)) ∗ xSh m d (coreShare (cC c)) ∗ bigSep Finset.univ fun i : Fin 16 => oBlk d (cC c) i (m (oLoc d)))
  dn := fun q d c => match q with
    | 0 => iprop(iSh m d (coreShare (cC c)) ∗ xSh m d (coreShare (cC c)) ∗ bigSep Finset.univ fun i : Fin 16 => oBlk d (cC c) i (Gmid m d))
  go := fun q d c i => match q with
    | 0 => iprop(iSh m d (tileShare (cC c) (iC i)) ∗ xSh m d (tileShare (cC c) (iC i)) ∗ oBlk d (cC c) (iC i) (m (oLoc d)))
  td := fun q d c i => match q with
    | 0 => iprop(iSh m d (tileShare (cC c) (iC i)) ∗ xSh m d (tileShare (cC c) (iC i)) ∗ oBlk d (cC c) (iC i) (Gmid m d))
  x := fun _ _ => iprop(emp)

instance P_storable : (P (F := F) m).IsStorable where
  st q d c := match q with
    | 0 => (inferInstance : BI.Storable (upEmb : UEmb _ 𝕄)
      iprop(iSh m d (coreShare (cC c)) ∗ xSh m d (coreShare (cC c)) ∗ bigSep Finset.univ fun i : Fin 16 => oBlk d (cC c) i (m (oLoc d))))
  dn q d c := match q with
    | 0 => (inferInstance : BI.Storable (upEmb : UEmb _ 𝕄)
      iprop(iSh m d (coreShare (cC c)) ∗ xSh m d (coreShare (cC c)) ∗ bigSep Finset.univ fun i : Fin 16 => oBlk d (cC c) i (Gmid m d)))
  go q d c i := match q with
    | 0 => (inferInstance : BI.Storable (upEmb : UEmb _ 𝕄)
      iprop(iSh m d (tileShare (cC c) (iC i)) ∗ xSh m d (tileShare (cC c) (iC i)) ∗ oBlk d (cC c) (iC i) (m (oLoc d))))
  td q d c i := match q with
    | 0 => (inferInstance : BI.Storable (upEmb : UEmb _ 𝕄)
      iprop(iSh m d (tileShare (cC c) (iC i)) ∗ xSh m d (tileShare (cC c) (iC i)) ∗ oBlk d (cC c) (iC i) (Gmid m d)))

end Cert.Proof.KI

end
-- ==== Proof.KI.Blocks.lean ====
/-
  The output's rows as thirty-two blocks, the inputs' shares as thirty-two pieces.

  Worker w = 2·i + c owns rows [25600·w, 25600·(w+1)) of the 819200 × 128 array. The thirty-two blocks are pairwise
  disjoint (two workers with a common row have the same number, and w determines (c, i) because c < 2) and cover the
  array (row r lies in block ⌊r / 25600⌋ < 32). So the array held whole is its blocks held at once, grouped by
  SparseCore and then by tile. A share of a read-only array is cut into two halves for the SparseCores and each half into
  sixteen pieces for the tiles.
-/
import proofs.«207032_g58884001628331_cont_9to1_m_206_11_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The blocks -/

theorem mem_rowsSet (a n : ℕ) (x : S819200x128.Idx) : x ∈ rowsSet a n ↔ a ≤ (x 0).val ∧ (x 0).val < a + n := by
  unfold rowsSet; rw [Finset.mem_filter]; exact ⟨fun h => h.2, fun h => ⟨Finset.mem_univ _, h⟩⟩

/-- Two blocks with a common row are the same block. -/
theorem blocks_disjoint (p p' : Fin 2 × Fin 16) (h : p ≠ p') : Disjoint (blockSet p.1 p.2) (blockSet p'.1 p'.2) := by
  refine Finset.disjoint_left.mpr fun x h1 h2 => h ?_
  rw [mem_rowsSet] at h1 h2
  obtain ⟨c, i⟩ := p; obtain ⟨c', i'⟩ := p'
  have hc := c.isLt; have hc' := c'.isLt
  dsimp only [wid] at h1 h2
  have e1 : c.val = c'.val := by omega
  have e2 : i.val = i'.val := by omega
  exact Prod.ext (Fin.ext e1) (Fin.ext e2)

/-- Every row lies in a block. -/
theorem blocks_cover : (Finset.univ : Finset (Fin 2 × Fin 16)).biUnion (fun p => blockSet p.1 p.2) = Finset.univ := by
  refine Finset.eq_univ_iff_forall.mpr fun x => Finset.mem_biUnion.mpr ?_
  have hx : (x 0).val < 819200 := (x 0).isLt
  refine ⟨(⟨(x 0).val / 25600 % 2, Nat.mod_lt _ (by norm_num)⟩, ⟨(x 0).val / 25600 / 2, by omega⟩), Finset.mem_univ _, ?_⟩
  rw [mem_rowsSet]
  dsimp only [wid]
  omega

/-- The array held whole is its thirty-two blocks, by SparseCore and tile. -/
theorem oPts_blocks (d : Dev nD) (f : Buf (Elt F) (oLoc d)) :
    (oLoc d ↦{fullShare} f : sProp 𝕄) = bigSep Finset.univ fun c : Fin 2 => bigSep Finset.univ fun i : Fin 16 => oBlk d c i f := by
  rw [← bigSep_univ_prod (fun p : Fin 2 × Fin 16 => (oBlk d p.1 p.2 f : sProp 𝕄)),
    ← pointsTo_biUnion Finset.univ (ℓ := oLoc d) (fun p : Fin 2 × Fin 16 => blockSet p.1 p.2) (fun p _ p' _ h => blocks_disjoint p p' h), blocks_cover]

/-! ## The shares -/

/-- Elements held at a share are held at the two SparseCores' halves of it at once; -/
theorem pts_cores {ℓ : Loc nD τ sig} (I : Finset (Idx ℓ)) (f : Buf (Elt F) ℓ) :
    (ℓ ↦[I]{fullShare} f : sProp 𝕄) = bigSep Finset.univ fun c : Fin 2 => ℓ ↦[I]{coreShare c} f :=
  pointsTo_piecesOf I f (by norm_num) fullShare

/-- and elements held at a SparseCore's half, at its sixteen tiles' pieces of it. -/
theorem pts_tiles {ℓ : Loc nD τ sig} (I : Finset (Idx ℓ)) (f : Buf (Elt F) ℓ) (c : Fin 2) :
    (ℓ ↦[I]{coreShare c} f : sProp 𝕄) = bigSep Finset.univ fun i : Fin 16 => ℓ ↦[I]{tileShare c i} f :=
  pointsTo_piecesOf I f (by norm_num) (coreShare c)

end Cert.Proof.KI

end
-- ==== Proof.KI.Launch.lean ====
/-
  The launch side of the kernel's run: from one tile's task (taken as a hypothesis) to the whole program's run.

  @main on a TensorCore is three steps. The index array (4096 × 200) is reshaped to 32 × 200 × 128; the two SparseCores
  are started on it, the table and the 819200 × 128 output, and waited for; the output is reshaped to
  4096 × 200 × 128. The call hands each SparseCore half a share of the index words and of the table and its sixteen
  blocks of the output; each SparseCore hands each tile a sixteenth of its shares and the tile's block. The blocks come
  back holding the restrictions of the one function `Gmid`, are joined to the whole array at `Gmid`, and the last
  reshape leaves `Gout`, the same rows under the result's shape.
-/
import proofs.«207032_g58884001628331_cont_9to1_m_206_11_alg».proof.Proof.KI.Blocks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the handshakes carry, as equations -/

theorem P_st (d : Dev nD) (c : Fin ((K (F := F)).nCore 0)) :
    (P m).st 0 d c = iprop(iSh m d (coreShare (cC c)) ∗ xSh m d (coreShare (cC c)) ∗ bigSep Finset.univ fun i : Fin 16 => oBlk d (cC c) i (m (oLoc d))) := rfl
theorem P_dn (d : Dev nD) (c : Fin ((K (F := F)).nCore 0)) :
    (P m).dn 0 d c = iprop(iSh m d (coreShare (cC c)) ∗ xSh m d (coreShare (cC c)) ∗ bigSep Finset.univ fun i : Fin 16 => oBlk d (cC c) i (Gmid m d)) := rfl
theorem P_go (d : Dev nD) (c : Fin ((K (F := F)).nCore 0)) (i : Fin ((K (F := F)).nSub 0)) :
    (P m).go 0 d c i = iprop(iSh m d (tileShare (cC c) (iC i)) ∗ xSh m d (tileShare (cC c) (iC i)) ∗ oBlk d (cC c) (iC i) (m (oLoc d))) := rfl
theorem P_td (d : Dev nD) (c : Fin ((K (F := F)).nCore 0)) (i : Fin ((K (F := F)).nSub 0)) :
    (P m).td 0 d c i = iprop(iSh m d (tileShare (cC c) (iC i)) ∗ xSh m d (tileShare (cC c) (iC i)) ∗ oBlk d (cC c) (iC i) (Gmid m d)) := rfl

/-! ## A SparseCore's operands among its sixteen tiles -/

omit [FloatOps F] in
/-- A family over the call's tiles is the family over sixteen. -/
theorem bigSep_tasks (Φ : Fin 16 → sProp 𝕄) :
    (bigSep Finset.univ fun i : Fin ((K (F := F)).nSub 0) => Φ (iC i)) = bigSep Finset.univ Φ :=
  bigSep_congr fun _ _ => congrArg Φ (Fin.ext rfl)

omit [FloatOps F] in
/-- A family over the call's SparseCores is the family over two. -/
theorem bigSep_cores (Φ : Fin 2 → sProp 𝕄) :
    (bigSep Finset.univ fun c : Fin ((K (F := F)).nCore 0) => Φ (cC c)) = bigSep Finset.univ Φ :=
  bigSep_congr fun _ _ => congrArg Φ (Fin.ext rfl)

/-- A SparseCore's half shares are its tiles' sixteenths; its blocks go to the tiles as they are and come back as they are. -/
theorem vecSplit : (K (F := F)).VecSplit' (P m) 0 := by
  intro d c
  show iprop(iSh m d (coreShare (cC c)) ∗ xSh m d (coreShare (cC c)) ∗ bigSep Finset.univ fun i : Fin 16 => oBlk d (cC c) i (m (oLoc d)))
    ⊢ |={Set.univ}=> iprop(
      (bigSep Finset.univ fun i : Fin ((K (F := F)).nSub 0) =>
        iprop(iSh m d (tileShare (cC c) (iC i)) ∗ xSh m d (tileShare (cC c) (iC i)) ∗ oBlk d (cC c) (iC i) (m (oLoc d))))
      ∗ ((bigSep Finset.univ fun i : Fin ((K (F := F)).nSub 0) =>
          iprop(iSh m d (tileShare (cC c) (iC i)) ∗ xSh m d (tileShare (cC c) (iC i)) ∗ oBlk d (cC c) (iC i) (Gmid m d)))
          -∗ iprop(iSh m d (coreShare (cC c)) ∗ xSh m d (coreShare (cC c)) ∗ bigSep Finset.univ fun i : Fin 16 => oBlk d (cC c) i (Gmid m d))))
  rw [bigSep_tasks (F := F) (fun i => iprop(iSh m d (tileShare (cC c) i) ∗ xSh m d (tileShare (cC c) i) ∗ oBlk d (cC c) i (m (oLoc d)))),
    bigSep_tasks (F := F) (fun i => iprop(iSh m d (tileShare (cC c) i) ∗ xSh m d (tileShare (cC c) i) ∗ oBlk d (cC c) i (Gmid m d))),
    bigSep_sep', bigSep_sep', bigSep_sep', bigSep_sep']
  unfold iSh xSh
  rw [pts_tiles Finset.univ (idx3 m d) (cC c), pts_tiles Finset.univ (m (xLoc d)) (cC c)]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
/-- @main's five arrays. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_arg1) ∗ (iLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

abbrev a' : DevRef τ sig := Proc.devRef .tc (main_arg0 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two host operations: the index array to 32 × 200 × 128, the gathered rows to 4096 × 200 × 128. -/
abbrev opR1 : HloOp τ sig (Elt F) := StableHlo.reshape main_arg0 main_v0 rfl shapeCasts_S4096x200_S32x200x128
abbrev opR2 : HloOp τ sig (Elt F) := StableHlo.reshape main_v1 main_v2 rfl shapeCasts_S819200x128_S4096x200x128

/-- What each touches. -/
abbrev S1 : Finset (DevRef τ sig) := {a', i'}
abbrev S2 : Finset (DevRef τ sig) := {o', r'}

omit [FloatOps F] in
theorem held_S1 (d : Dev nD) (W : Valuation τ sig (Elt F)) :
    (held (T d) S1 W : sProp 𝕄) = iprop((aLoc d ↦{fullShare} W a') ∗ iLoc d ↦{fullShare} W i') := by
  unfold held S1
  rw [SparseCore.bigSep_insert' (by decide), bigSep_singleton]
omit [FloatOps F] in
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

theorem hR1 : (opR1 (F := F)).bufs ⊆ S1 := show ({a', i'} : Finset (DevRef τ sig)) ⊆ S1 by decide
theorem hR2 : (opR2 (F := F)).bufs ⊆ S2 := show ({o', r'} : Finset (DevRef τ sig)) ⊆ S2 by decide

/-- The launch valuation; after the call, the output at the gathered rows. -/
def V0 (d : Dev nD) : Valuation τ sig (Elt F) := fun b => m (d, b)
def V2 (d : Dev nD) : Valuation τ sig (Elt F) := Function.update (V0 m d) o' (Gmid m d)

theorem V2_o (d : Dev nD) : V2 m d o' = Gmid m d := Function.update_self _ _ _
theorem V2_r (d : Dev nD) : V2 m d r' = m (rLoc d) := Function.update_of_ne (show r' ≠ o' by decide) _ _

/-- The first reshape leaves the index array as it was and the index words under the shape 32 × 200 × 128; -/
theorem R1_a (d : Dev nD) : (opR1 (F := F)).result (V0 m d) a' = m (aLoc d) :=
  StableHlo.reshape_result_ne (τ := τ) (Val := Elt F) (x := main_arg0) (y := main_v0) rfl shapeCasts_S4096x200_S32x200x128 ⟨by decide, rfl⟩ ⟨by decide, rfl⟩
    (V0 m d) (r := main_arg0) (by decide)
theorem R1_i (d : Dev nD) : (opR1 (F := F)).result (V0 m d) i' = idx3 m d :=
  (StableHlo.reshape_result (τ := τ) (Val := Elt F) main_arg0 main_v0 rfl shapeCasts_S4096x200_S32x200x128 ⟨by decide, rfl⟩ ⟨by decide, rfl⟩ (V0 m d)).trans rfl
/-- the second leaves the gathered rows as they were and the result at the same rows under the shape 4096 × 200 × 128. -/
theorem R2_o (d : Dev nD) : (opR2 (F := F)).result (V2 m d) o' = Gmid m d :=
  (StableHlo.reshape_result_ne (τ := τ) (Val := Elt F) (x := main_v1) (y := main_v2) rfl shapeCasts_S819200x128_S4096x200x128 ⟨by decide, rfl⟩ ⟨by decide, rfl⟩
    (V2 m d) (r := main_v1) (by decide)).trans (V2_o m d)
theorem R2_r (d : Dev nD) : (opR2 (F := F)).result (V2 m d) r' = Gout m d := by
  refine (StableHlo.reshape_result (τ := τ) (Val := Elt F) main_v1 main_v2 rfl shapeCasts_S819200x128_S4096x200x128 ⟨by decide, rfl⟩ ⟨by decide, rfl⟩ (V2 m d)).trans ?_
  show (fun i => shapeCast S4096x200x128 (V2 m d o') shapeCasts_S819200x128_S4096x200x128 i) = Gout m d
  rw [V2_o]; rfl

/-- What the call takes for the two SparseCores: the index words, the table and the output, whole; -/
theorem st0_eq (d : Dev nD) :
    (bigSep Finset.univ fun c : Fin ((K (F := F)).nCore 0) => (P m).st 0 d c)
      = iprop(iSh m d fullShare ∗ xSh m d fullShare ∗ oLoc d ↦{fullShare} m (oLoc d)) := by
  show (bigSep Finset.univ fun c : Fin ((K (F := F)).nCore 0) =>
    iprop(iSh m d (coreShare (cC c)) ∗ xSh m d (coreShare (cC c)) ∗ bigSep Finset.univ fun i : Fin 16 => oBlk d (cC c) i (m (oLoc d)))) = _
  rw [bigSep_cores (F := F) (fun c => iprop(iSh m d (coreShare c) ∗ xSh m d (coreShare c) ∗ bigSep Finset.univ fun i : Fin 16 => oBlk d c i (m (oLoc d)))),
    bigSep_sep', bigSep_sep']
  unfold iSh xSh
  rw [← pts_cores Finset.univ (idx3 m d), ← pts_cores Finset.univ (m (xLoc d)), ← oPts_blocks d (m (oLoc d))]
/-- and what it hands back: the same, the output at the gathered rows. -/
theorem dn0_eq (d : Dev nD) :
    (bigSep Finset.univ fun c : Fin ((K (F := F)).nCore 0) => (P m).dn 0 d c)
      = iprop(iSh m d fullShare ∗ xSh m d fullShare ∗ oLoc d ↦{fullShare} Gmid m d) := by
  show (bigSep Finset.univ fun c : Fin ((K (F := F)).nCore 0) =>
    iprop(iSh m d (coreShare (cC c)) ∗ xSh m d (coreShare (cC c)) ∗ bigSep Finset.univ fun i : Fin 16 => oBlk d (cC c) i (Gmid m d))) = _
  rw [bigSep_cores (F := F) (fun c => iprop(iSh m d (coreShare c) ∗ xSh m d (coreShare c) ∗ bigSep Finset.univ fun i : Fin 16 => oBlk d c i (Gmid m d))),
    bigSep_sep', bigSep_sep']
  unfold iSh xSh
  rw [← pts_cores Finset.univ (idx3 m d), ← pts_cores Finset.univ (m (xLoc d)), ← oPts_blocks d (Gmid m d)]

/-- What @main leaves the claim: the result at `Gout`, the two arguments at their launch contents. -/
abbrev FIN (d : Dev nD) : sProp 𝕄 := iprop((rLoc d ↦{fullShare} Gout m d) ∗ (aLoc d ↦{fullShare} m (aLoc d)) ∗ xLoc d ↦{fullShare} m (xLoc d))

/-- @main on device `d`'s TensorCore: the reshape of the index array, the call, the reshape of the gathered rows. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hx, Hi, Ho, Hr⟩, -, -⟩, -⟩
  -- the index array under the kernel's shape
  iapply (wp_hlo_within 𝒱 (SparseCore.T d) none Set.univ (op := opR1) (S := S1) hR1 (V := V0 m d)) $$ [Hb Ha Hi]
  · isplitl [Hb]; · iexact Hb
    rw [held_S1]
    isplitl [Ha]; · iexact Ha
    iexact Hi
  iintro ⟨Hb, Hheld⟩
  ihave Hh := (Entails.of_eq (held_S1 (F := F) d _)) $$ Hheld
  rw [R1_a, R1_i]
  icases Hh with ⟨Ha, Hi⟩
  rw [wp_ret]; imodintro
  -- the call: everything to the two SparseCores and back
  iapply ((K (F := F)).wp_run (D (F := F)) 𝒱 (EH := EH) (P := P m) κ d 0) $$ [Hst Hi Hx Ho Hb Ha Hr]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  -- the gathered rows under the result's shape
  iapply (wp_hlo_within 𝒱 (SparseCore.T d) none Set.univ (op := opR2) (S := S2) hR2 (V := V2 m d)) $$ [Hb Ho Hr]
  · isplitl [Hb]; · iexact Hb
    rw [held_S2, V2_o, V2_r]
    isplitl [Ho]; · iexact Ho
    iexact Hr
  iintro ⟨Hb, Hheld⟩
  ihave Hh := (Entails.of_eq (held_S2 (F := F) d _)) $$ Hheld
  rw [R2_o, R2_r]
  icases Hh with ⟨Ho, Hr⟩
  rw [wp_ret]; imodintro; imodintro
  isplitl [Hst]; · iexact Hst
  isplitl [Hr]; · iexact Hr
  isplitl [Ha]; · iexact Ha
  iexact Hx

/-! ## The final memory -/

def fq (d : Dev nD) (s' : Phys nD τ sig (Elt F)) : Prop :=
  s'.mem.mem (rLoc d) = Gout m d ∧ s'.mem.mem (aLoc d) = m (aLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Hr, Ha, Hx⟩, HSI⟩
  ihave H := (persistent_entails_right (SI_pointsTo_agree (st := s') (ℓ := rLoc d) (I := Finset.univ) (q := fullShare) (f := Gout m d))) $$ [HSI Hr]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := xLoc d) (I := Finset.univ) (q := fullShare) (f := m (xLoc d))) $$ [HSI Hx]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The result is the gathered rows under the result's shape; the arguments are unchanged. -/
def QC : PUnit × MemSt nD τ sig (Elt F) → Prop := fun r =>
  ∀ c : Dev nD, r.2.mem (rLoc c) = Gout m c ∧ r.2.mem (aLoc c) = m (aLoc c) ∧ r.2.mem (xLoc c) = m (xLoc c)

theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.K.Setup.lean ====
/-
  The launch of the kernel as the library's launch theorem sees it, and what its handshakes carry.

  The kernel runs on 2 SparseCores × 16 vector subcores. Tile (c, i) is worker w = 2·i + c. It copies row w of the index
  array (viewed as 32 × 200 × 128) into its own memory, gathers the 25600 table rows those words name, 128 at a time, and
  writes them to rows [25600·w, 25600·(w+1)) of the 819200 × 128 array. So each tile needs: a read share of the index
  array, a read share of the table, and its own block of rows of the output. At the end every block holds the
  restriction of ONE whole-array function, `Gmid`: row r is the table row named by the index word at row-major
  position r.
-/
import proofs.«207032_g58884001628331_cont_9to1_m_206_11_alg».proof.Defs
import proofs.«207032_g58884001628331_cont_9to1_m_206_11_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«207032_g58884001628331_cont_9to1_m_206_11_alg».proof.Proof.Gen.Kernel
import proofs.«207032_g58884001628331_cont_9to1_m_206_11_alg».proof.Proof.Gen.Kernel.Skeleton

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays, the values -/

variable (m : (ℓ : Loc nD τ sig) → Buf (Elt F) ℓ) (ρ : Dev nD → PrngReg)

/-- The index array (4096 × 200), the table, the index array as 32 × 200 × 128, the gathered rows, the result. -/
abbrev aLoc (d : Dev nD) : Loc nD τ sig := (SparseCore.T d).loc main_arg0
abbrev xLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The index words as the kernel is handed them: the index array in row-major order under the shape 32 × 200 × 128. -/
def idx3 (d : Dev nD) : Buf (Elt F) (iLoc d) :=
  shapeCast S32x200x128 (m (aLoc d)) Cert.Kernel.Gen.shapeCasts_S4096x200_S32x200x128

/-- The gathered rows: the one whole-array function every tile's block is a restriction of. -/
def Gmid (d : Dev nD) : Buf (Elt F) (oLoc d) := Cert.Spec.mid (m (aLoc d)) (m (xLoc d))

/-- The result. -/
def Gout (d : Dev nD) : Buf (Elt F) (rLoc d) := Cert.Spec.out (m (aLoc d)) (m (xLoc d))

/-- What the proof asks of the launch memory: every index word names a row of the table. -/
def PreOK : Prop := ∀ (d : Dev nD) (j : S4096x200.Idx), (m (aLoc d) j).toNat < 100000

/-! ## Rows of the output, shares of the inputs -/

/-- Rows [a, a + n) of the 819200 × 128 array, all columns. -/
def rowsSet (a n : ℕ) : Finset S819200x128.Idx := Finset.univ.filter fun x => a ≤ (x 0).val ∧ (x 0).val < a + n

/-- Tile (c, i) is worker 2·i + c. -/
abbrev wid (c : Fin 2) (i : Fin 16) : ℕ := 2 * i.val + c.val
/-- Its block of 25600 rows. -/
abbrev blockSet (c : Fin 2) (i : Fin 16) : Finset S819200x128.Idx := rowsSet (25600 * wid c i) 25600

/-- SparseCore `c`'s half of a full share, and tile `i`'s sixteenth of that. -/
abbrev coreShare (c : Fin 2) : PosShare TreeShare := pieceOf fullShare 2 (by norm_num) c
abbrev tileShare (c : Fin 2) (i : Fin 16) : PosShare TreeShare := pieceOf (coreShare c) 16 (by norm_num) i

variable [FloatOps F]

abbrev cC (c : Fin ((K (F := F)).nCore 0)) : Fin 2 := Fin.cast nCore_zero c
abbrev iC (i : Fin ((K (F := F)).nSub 0)) : Fin 16 := Fin.cast nSub_zero i

/-! ## What the handshakes carry -/

abbrev iSh (d : Dev nD) (q : PosShare TreeShare) : sProp 𝕄 := iLoc d ↦{q} idx3 m d
abbrev xSh (d : Dev nD) (q : PosShare TreeShare) : sProp 𝕄 := xLoc d ↦{q} m (xLoc d)
abbrev oBlk (d : Dev nD) (c : Fin 2) (i : Fin 16) (f : Buf (Elt F) (oLoc d)) : sProp 𝕄 := oLoc d ↦[blockSet c i]{fullShare} f

/-- The one call: each SparseCore takes half shares of the index words and of the table and its sixteen blocks of the
    output; each tile a sixteenth of those shares and its block; the blocks come back holding the gathered rows. -/
def P : (K (F := F)).Pay (nD := nD) (Val := Elt F) (Name := ℕ) (U := UU) where
  st := fun q d c => match q with
    | 0 => iprop(iSh m d (coreShare (cC c)) ∗ xSh m d (coreShare (cC c)) ∗ bigSep Finset.univ fun i : Fin 16 => oBlk d (cC c) i (m (oLoc d)))
  dn := fun q d c => match q with
    | 0 => iprop(iSh m d (coreShare (cC c)) ∗ xSh m d (coreShare (cC c)) ∗ bigSep Finset.univ fun i : Fin 16 => oBlk d (cC c) i (Gmid m d))
  go := fun q d c i => match q with
    | 0 => iprop(iSh m d (tileShare (cC c) (iC i)) ∗ xSh m d (tileShare (cC c) (iC i)) ∗ oBlk d (cC c) (iC i) (m (oLoc d)))
  td := fun q d c i => match q with
    | 0 => iprop(iSh m d (tileShare (cC c) (iC i)) ∗ xSh m d (tileShare (cC c) (iC i)) ∗ oBlk d (cC c) (iC i) (Gmid m d))
  x := fun _ _ => iprop(emp)

instance P_storable : (P (F := F) m).IsStorable where
  st q d c := match q with
    | 0 => (inferInstance : BI.Storable (upEmb : UEmb _ 𝕄)
      iprop(iSh m d (coreShare (cC c)) ∗ xSh m d (coreShare (cC c)) ∗ bigSep Finset.univ fun i : Fin 16 => oBlk d (cC c) i (m (oLoc d))))
  dn q d c := match q with
    | 0 => (inferInstance : BI.Storable (upEmb : UEmb _ 𝕄)
      iprop(iSh m d (coreShare (cC c)) ∗ xSh m d (coreShare (cC c)) ∗ bigSep Finset.univ fun i : Fin 16 => oBlk d (cC c) i (Gmid m d)))
  go q d c i := match q with
    | 0 => (inferInstance : BI.Storable (upEmb : UEmb _ 𝕄)
      iprop(iSh m d (tileShare (cC c) (iC i)) ∗ xSh m d (tileShare (cC c) (iC i)) ∗ oBlk d (cC c) (iC i) (m (oLoc d))))
  td q d c i := match q with
    | 0 => (inferInstance : BI.Storable (upEmb : UEmb _ 𝕄)
      iprop(iSh m d (tileShare (cC c) (iC i)) ∗ xSh m d (tileShare (cC c) (iC i)) ∗ oBlk d (cC c) (iC i) (Gmid m d)))

end Cert.Proof.K

end
-- ==== Proof.K.Blocks.lean ====
/-
  The output's rows as thirty-two blocks, the inputs' shares as thirty-two pieces.

  Worker w = 2·i + c owns rows [25600·w, 25600·(w+1)) of the 819200 × 128 array. The thirty-two blocks are pairwise
  disjoint (two workers with a common row have the same number, and w determines (c, i) because c < 2) and cover the
  array (row r lies in block ⌊r / 25600⌋ < 32). So the array held whole is its blocks held at once, grouped by
  SparseCore and then by tile. A share of a read-only array is cut into two halves for the SparseCores and each half into
  sixteen pieces for the tiles.
-/
import proofs.«207032_g58884001628331_cont_9to1_m_206_11_alg».proof.Proof.K.Setup

noncomputable section

namespace Cert.Proof.K

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The blocks -/

theorem mem_rowsSet (a n : ℕ) (x : S819200x128.Idx) : x ∈ rowsSet a n ↔ a ≤ (x 0).val ∧ (x 0).val < a + n := by
  unfold rowsSet; rw [Finset.mem_filter]; exact ⟨fun h => h.2, fun h => ⟨Finset.mem_univ _, h⟩⟩

/-- Two blocks with a common row are the same block. -/
theorem blocks_disjoint (p p' : Fin 2 × Fin 16) (h : p ≠ p') : Disjoint (blockSet p.1 p.2) (blockSet p'.1 p'.2) := by
  refine Finset.disjoint_left.mpr fun x h1 h2 => h ?_
  rw [mem_rowsSet] at h1 h2
  obtain ⟨c, i⟩ := p; obtain ⟨c', i'⟩ := p'
  have hc := c.isLt; have hc' := c'.isLt
  dsimp only [wid] at h1 h2
  have e1 : c.val = c'.val := by omega
  have e2 : i.val = i'.val := by omega
  exact Prod.ext (Fin.ext e1) (Fin.ext e2)

/-- Every row lies in a block. -/
theorem blocks_cover : (Finset.univ : Finset (Fin 2 × Fin 16)).biUnion (fun p => blockSet p.1 p.2) = Finset.univ := by
  refine Finset.eq_univ_iff_forall.mpr fun x => Finset.mem_biUnion.mpr ?_
  have hx : (x 0).val < 819200 := (x 0).isLt
  refine ⟨(⟨(x 0).val / 25600 % 2, Nat.mod_lt _ (by norm_num)⟩, ⟨(x 0).val / 25600 / 2, by omega⟩), Finset.mem_univ _, ?_⟩
  rw [mem_rowsSet]
  dsimp only [wid]
  omega

/-- The array held whole is its thirty-two blocks, by SparseCore and tile. -/
theorem oPts_blocks (d : Dev nD) (f : Buf (Elt F) (oLoc d)) :
    (oLoc d ↦{fullShare} f : sProp 𝕄) = bigSep Finset.univ fun c : Fin 2 => bigSep Finset.univ fun i : Fin 16 => oBlk d c i f := by
  rw [← bigSep_univ_prod (fun p : Fin 2 × Fin 16 => (oBlk d p.1 p.2 f : sProp 𝕄)),
    ← pointsTo_biUnion Finset.univ (ℓ := oLoc d) (fun p : Fin 2 × Fin 16 => blockSet p.1 p.2) (fun p _ p' _ h => blocks_disjoint p p' h), blocks_cover]

/-! ## The shares -/

/-- Elements held at a share are held at the two SparseCores' halves of it at once; -/
theorem pts_cores {ℓ : Loc nD τ sig} (I : Finset (Idx ℓ)) (f : Buf (Elt F) ℓ) :
    (ℓ ↦[I]{fullShare} f : sProp 𝕄) = bigSep Finset.univ fun c : Fin 2 => ℓ ↦[I]{coreShare c} f :=
  pointsTo_piecesOf I f (by norm_num) fullShare

/-- and elements held at a SparseCore's half, at its sixteen tiles' pieces of it. -/
theorem pts_tiles {ℓ : Loc nD τ sig} (I : Finset (Idx ℓ)) (f : Buf (Elt F) ℓ) (c : Fin 2) :
    (ℓ ↦[I]{coreShare c} f : sProp 𝕄) = bigSep Finset.univ fun i : Fin 16 => ℓ ↦[I]{tileShare c i} f :=
  pointsTo_piecesOf I f (by norm_num) (coreShare c)

end Cert.Proof.K

end
-- ==== Proof.K.Launch.lean ====
/-
  The launch side of the kernel's run: from one tile's task (taken as a hypothesis) to the whole program's run.

  @main on a TensorCore is three steps. The index array (4096 × 200) is reshaped to 32 × 200 × 128; the two SparseCores
  are started on it, the table and the 819200 × 128 output, and waited for; the output is reshaped to
  4096 × 200 × 128. The call hands each SparseCore half a share of the index words and of the table and its sixteen
  blocks of the output; each SparseCore hands each tile a sixteenth of its shares and the tile's block. The blocks come
  back holding the restrictions of the one function `Gmid`, are joined to the whole array at `Gmid`, and the last
  reshape leaves `Gout`, the same rows under the result's shape.
-/
import proofs.«207032_g58884001628331_cont_9to1_m_206_11_alg».proof.Proof.K.Blocks

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the handshakes carry, as equations -/

theorem P_st (d : Dev nD) (c : Fin ((K (F := F)).nCore 0)) :
    (P m).st 0 d c = iprop(iSh m d (coreShare (cC c)) ∗ xSh m d (coreShare (cC c)) ∗ bigSep Finset.univ fun i : Fin 16 => oBlk d (cC c) i (m (oLoc d))) := rfl
theorem P_dn (d : Dev nD) (c : Fin ((K (F := F)).nCore 0)) :
    (P m).dn 0 d c = iprop(iSh m d (coreShare (cC c)) ∗ xSh m d (coreShare (cC c)) ∗ bigSep Finset.univ fun i : Fin 16 => oBlk d (cC c) i (Gmid m d)) := rfl
theorem P_go (d : Dev nD) (c : Fin ((K (F := F)).nCore 0)) (i : Fin ((K (F := F)).nSub 0)) :
    (P m).go 0 d c i = iprop(iSh m d (tileShare (cC c) (iC i)) ∗ xSh m d (tileShare (cC c) (iC i)) ∗ oBlk d (cC c) (iC i) (m (oLoc d))) := rfl
theorem P_td (d : Dev nD) (c : Fin ((K (F := F)).nCore 0)) (i : Fin ((K (F := F)).nSub 0)) :
    (P m).td 0 d c i = iprop(iSh m d (tileShare (cC c) (iC i)) ∗ xSh m d (tileShare (cC c) (iC i)) ∗ oBlk d (cC c) (iC i) (Gmid m d)) := rfl

/-! ## A SparseCore's operands among its sixteen tiles -/

omit [FloatOps F] in
/-- A family over the call's tiles is the family over sixteen. -/
theorem bigSep_tasks (Φ : Fin 16 → sProp 𝕄) :
    (bigSep Finset.univ fun i : Fin ((K (F := F)).nSub 0) => Φ (iC i)) = bigSep Finset.univ Φ :=
  bigSep_congr fun _ _ => congrArg Φ (Fin.ext rfl)

omit [FloatOps F] in
/-- A family over the call's SparseCores is the family over two. -/
theorem bigSep_cores (Φ : Fin 2 → sProp 𝕄) :
    (bigSep Finset.univ fun c : Fin ((K (F := F)).nCore 0) => Φ (cC c)) = bigSep Finset.univ Φ :=
  bigSep_congr fun _ _ => congrArg Φ (Fin.ext rfl)

/-- A SparseCore's half shares are its tiles' sixteenths; its blocks go to the tiles as they are and come back as they are. -/
theorem vecSplit : (K (F := F)).VecSplit' (P m) 0 := by
  intro d c
  show iprop(iSh m d (coreShare (cC c)) ∗ xSh m d (coreShare (cC c)) ∗ bigSep Finset.univ fun i : Fin 16 => oBlk d (cC c) i (m (oLoc d)))
    ⊢ |={Set.univ}=> iprop(
      (bigSep Finset.univ fun i : Fin ((K (F := F)).nSub 0) =>
        iprop(iSh m d (tileShare (cC c) (iC i)) ∗ xSh m d (tileShare (cC c) (iC i)) ∗ oBlk d (cC c) (iC i) (m (oLoc d))))
      ∗ ((bigSep Finset.univ fun i : Fin ((K (F := F)).nSub 0) =>
          iprop(iSh m d (tileShare (cC c) (iC i)) ∗ xSh m d (tileShare (cC c) (iC i)) ∗ oBlk d (cC c) (iC i) (Gmid m d)))
          -∗ iprop(iSh m d (coreShare (cC c)) ∗ xSh m d (coreShare (cC c)) ∗ bigSep Finset.univ fun i : Fin 16 => oBlk d (cC c) i (Gmid m d))))
  rw [bigSep_tasks (F := F) (fun i => iprop(iSh m d (tileShare (cC c) i) ∗ xSh m d (tileShare (cC c) i) ∗ oBlk d (cC c) i (m (oLoc d)))),
    bigSep_tasks (F := F) (fun i => iprop(iSh m d (tileShare (cC c) i) ∗ xSh m d (tileShare (cC c) i) ∗ oBlk d (cC c) i (Gmid m d))),
    bigSep_sep', bigSep_sep', bigSep_sep', bigSep_sep']
  unfold iSh xSh
  rw [pts_tiles Finset.univ (idx3 m d) (cC c), pts_tiles Finset.univ (m (xLoc d)) (cC c)]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
/-- @main's five arrays. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_arg1) ∗ (iLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

abbrev a' : DevRef τ sig := Proc.devRef .tc (main_arg0 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two host operations: the index array to 32 × 200 × 128, the gathered rows to 4096 × 200 × 128. -/
abbrev opR1 : HloOp τ sig (Elt F) := StableHlo.reshape main_arg0 main_v0 rfl shapeCasts_S4096x200_S32x200x128
abbrev opR2 : HloOp τ sig (Elt F) := StableHlo.reshape main_v1 main_v2 rfl shapeCasts_S819200x128_S4096x200x128

/-- What each touches. -/
abbrev S1 : Finset (DevRef τ sig) := {a', i'}
abbrev S2 : Finset (DevRef τ sig) := {o', r'}

omit [FloatOps F] in
theorem held_S1 (d : Dev nD) (W : Valuation τ sig (Elt F)) :
    (held (T d) S1 W : sProp 𝕄) = iprop((aLoc d ↦{fullShare} W a') ∗ iLoc d ↦{fullShare} W i') := by
  unfold held S1
  rw [SparseCore.bigSep_insert' (by decide), bigSep_singleton]
omit [FloatOps F] in
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

theorem hR1 : (opR1 (F := F)).bufs ⊆ S1 := show ({a', i'} : Finset (DevRef τ sig)) ⊆ S1 by decide
theorem hR2 : (opR2 (F := F)).bufs ⊆ S2 := show ({o', r'} : Finset (DevRef τ sig)) ⊆ S2 by decide

/-- The launch valuation; after the call, the output at the gathered rows. -/
def V0 (d : Dev nD) : Valuation τ sig (Elt F) := fun b => m (d, b)
def V2 (d : Dev nD) : Valuation τ sig (Elt F) := Function.update (V0 m d) o' (Gmid m d)

theorem V2_o (d : Dev nD) : V2 m d o' = Gmid m d := Function.update_self _ _ _
theorem V2_r (d : Dev nD) : V2 m d r' = m (rLoc d) := Function.update_of_ne (show r' ≠ o' by decide) _ _

/-- The first reshape leaves the index array as it was and the index words under the shape 32 × 200 × 128; -/
theorem R1_a (d : Dev nD) : (opR1 (F := F)).result (V0 m d) a' = m (aLoc d) :=
  StableHlo.reshape_result_ne (τ := τ) (Val := Elt F) (x := main_arg0) (y := main_v0) rfl shapeCasts_S4096x200_S32x200x128 ⟨by decide, rfl⟩ ⟨by decide, rfl⟩
    (V0 m d) (r := main_arg0) (by decide)
theorem R1_i (d : Dev nD) : (opR1 (F := F)).result (V0 m d) i' = idx3 m d :=
  (StableHlo.reshape_result (τ := τ) (Val := Elt F) main_arg0 main_v0 rfl shapeCasts_S4096x200_S32x200x128 ⟨by decide, rfl⟩ ⟨by decide, rfl⟩ (V0 m d)).trans rfl
/-- the second leaves the gathered rows as they were and the result at the same rows under the shape 4096 × 200 × 128. -/
theorem R2_o (d : Dev nD) : (opR2 (F := F)).result (V2 m d) o' = Gmid m d :=
  (StableHlo.reshape_result_ne (τ := τ) (Val := Elt F) (x := main_v1) (y := main_v2) rfl shapeCasts_S819200x128_S4096x200x128 ⟨by decide, rfl⟩ ⟨by decide, rfl⟩
    (V2 m d) (r := main_v1) (by decide)).trans (V2_o m d)
theorem R2_r (d : Dev nD) : (opR2 (F := F)).result (V2 m d) r' = Gout m d := by
  refine (StableHlo.reshape_result (τ := τ) (Val := Elt F) main_v1 main_v2 rfl shapeCasts_S819200x128_S4096x200x128 ⟨by decide, rfl⟩ ⟨by decide, rfl⟩ (V2 m d)).trans ?_
  show (fun i => shapeCast S4096x200x128 (V2 m d o') shapeCasts_S819200x128_S4096x200x128 i) = Gout m d
  rw [V2_o]; rfl

/-- What the call takes for the two SparseCores: the index words, the table and the output, whole; -/
theorem st0_eq (d : Dev nD) :
    (bigSep Finset.univ fun c : Fin ((K (F := F)).nCore 0) => (P m).st 0 d c)
      = iprop(iSh m d fullShare ∗ xSh m d fullShare ∗ oLoc d ↦{fullShare} m (oLoc d)) := by
  show (bigSep Finset.univ fun c : Fin ((K (F := F)).nCore 0) =>
    iprop(iSh m d (coreShare (cC c)) ∗ xSh m d (coreShare (cC c)) ∗ bigSep Finset.univ fun i : Fin 16 => oBlk d (cC c) i (m (oLoc d)))) = _
  rw [bigSep_cores (F := F) (fun c => iprop(iSh m d (coreShare c) ∗ xSh m d (coreShare c) ∗ bigSep Finset.univ fun i : Fin 16 => oBlk d c i (m (oLoc d)))),
    bigSep_sep', bigSep_sep']
  unfold iSh xSh
  rw [← pts_cores Finset.univ (idx3 m d), ← pts_cores Finset.univ (m (xLoc d)), ← oPts_blocks d (m (oLoc d))]
/-- and what it hands back: the same, the output at the gathered rows. -/
theorem dn0_eq (d : Dev nD) :
    (bigSep Finset.univ fun c : Fin ((K (F := F)).nCore 0) => (P m).dn 0 d c)
      = iprop(iSh m d fullShare ∗ xSh m d fullShare ∗ oLoc d ↦{fullShare} Gmid m d) := by
  show (bigSep Finset.univ fun c : Fin ((K (F := F)).nCore 0) =>
    iprop(iSh m d (coreShare (cC c)) ∗ xSh m d (coreShare (cC c)) ∗ bigSep Finset.univ fun i : Fin 16 => oBlk d (cC c) i (Gmid m d))) = _
  rw [bigSep_cores (F := F) (fun c => iprop(iSh m d (coreShare c) ∗ xSh m d (coreShare c) ∗ bigSep Finset.univ fun i : Fin 16 => oBlk d c i (Gmid m d))),
    bigSep_sep', bigSep_sep']
  unfold iSh xSh
  rw [← pts_cores Finset.univ (idx3 m d), ← pts_cores Finset.univ (m (xLoc d)), ← oPts_blocks d (Gmid m d)]

/-- What @main leaves the claim: the result at `Gout`, the two arguments at their launch contents. -/
abbrev FIN (d : Dev nD) : sProp 𝕄 := iprop((rLoc d ↦{fullShare} Gout m d) ∗ (aLoc d ↦{fullShare} m (aLoc d)) ∗ xLoc d ↦{fullShare} m (xLoc d))

/-- @main on device `d`'s TensorCore: the reshape of the index array, the call, the reshape of the gathered rows. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hx, Hi, Ho, Hr⟩, -, -⟩, -⟩
  -- the index array under the kernel's shape
  iapply (wp_hlo_within 𝒱 (SparseCore.T d) none Set.univ (op := opR1) (S := S1) hR1 (V := V0 m d)) $$ [Hb Ha Hi]
  · isplitl [Hb]; · iexact Hb
    rw [held_S1]
    isplitl [Ha]; · iexact Ha
    iexact Hi
  iintro ⟨Hb, Hheld⟩
  ihave Hh := (Entails.of_eq (held_S1 (F := F) d _)) $$ Hheld
  rw [R1_a, R1_i]
  icases Hh with ⟨Ha, Hi⟩
  rw [wp_ret]; imodintro
  -- the call: everything to the two SparseCores and back
  iapply ((K (F := F)).wp_run (D (F := F)) 𝒱 (EH := EH) (P := P m) κ d 0) $$ [Hst Hi Hx Ho Hb Ha Hr]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  -- the gathered rows under the result's shape
  iapply (wp_hlo_within 𝒱 (SparseCore.T d) none Set.univ (op := opR2) (S := S2) hR2 (V := V2 m d)) $$ [Hb Ho Hr]
  · isplitl [Hb]; · iexact Hb
    rw [held_S2, V2_o, V2_r]
    isplitl [Ho]; · iexact Ho
    iexact Hr
  iintro ⟨Hb, Hheld⟩
  ihave Hh := (Entails.of_eq (held_S2 (F := F) d _)) $$ Hheld
  rw [R2_o, R2_r]
  icases Hh with ⟨Ho, Hr⟩
  rw [wp_ret]; imodintro; imodintro
  isplitl [Hst]; · iexact Hst
  isplitl [Hr]; · iexact Hr
  isplitl [Ha]; · iexact Ha
  iexact Hx

/-! ## The final memory -/

def fq (d : Dev nD) (s' : Phys nD τ sig (Elt F)) : Prop :=
  s'.mem.mem (rLoc d) = Gout m d ∧ s'.mem.mem (aLoc d) = m (aLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Hr, Ha, Hx⟩, HSI⟩
  ihave H := (persistent_entails_right (SI_pointsTo_agree (st := s') (ℓ := rLoc d) (I := Finset.univ) (q := fullShare) (f := Gout m d))) $$ [HSI Hr]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := xLoc d) (I := Finset.univ) (q := fullShare) (f := m (xLoc d))) $$ [HSI Hx]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The result is the gathered rows under the result's shape; the arguments are unchanged. -/
def QC : PUnit × MemSt nD τ sig (Elt F) → Prop := fun r =>
  ∀ c : Dev nD, r.2.mem (rLoc c) = Gout m c ∧ r.2.mem (aLoc c) = m (aLoc c) ∧ r.2.mem (xLoc c) = m (xLoc c)

theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.K

end
-- ==== Proof.KI.Views.lean ====
/-
  One tile's view of the arrays: the thread it runs on, the rows and pieces of the arrays as the task addresses them,
  its nine DMA semaphores and its two scratch buffers among the subcore's own.
-/
import proofs.«207032_g58884001628331_cont_9to1_m_206_11_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_v0_scv : Memref Cert.KernelIdeal.sig Kind.scVector Space.hbm Cert.KernelIdeal.S32x200x128 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S819200x128 EltTy.f32)
local notation "sV" => (Memref.whole Cert.KernelIdeal.cc0_scratch0 : Memref Cert.KernelIdeal.sig Kind.scVector Space.vmem Cert.KernelIdeal.S200x128 EltTy.i32)
local notation "rV" => (Memref.whole Cert.KernelIdeal.cc0_scratch1 : Memref Cert.KernelIdeal.sig Kind.scVector Space.vmem Cert.KernelIdeal.S512x128 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-- Row `w` of the index words, squeezed, and all of the table, as the task addresses them. -/
abbrev iRowK (L : grid0.Coords) : Memref sig .scVector .hbm S200x128 .i32 :=
  ((iV).slice (Rect.unit (s := S32x200x128) (k0_off1 L) S1x200x128.size (k0_off1_inb L)) (fun _ => rfl)).squeeze S200x128 squeezes_S1x200x128_S200x128
abbrev xAllK : Memref sig .scVector .hbm S100000x128 .f32 :=
  (xV).slice (Rect.unit (s := S100000x128) ![0, 0] S100000x128.size inb_S100000x128_S100000x128_0_0) (fun _ => rfl)

/-- The tile's nine DMA semaphores. -/
abbrev cell (d : Dev nD) (L : grid0.Coords) (n : Fin 9) : GSem nD τ sig := (V d (cV L) (jV L), .dma n)

theorem cell_mem (n : Fin 9) : cell d L n ∈ (ownCells (V d (cV L) (jV L)) : Finset (GSem nD τ sig)) :=
  (mem_ownCells (g := cell d L n)).mpr ⟨rfl, by show (SemLoc.dma n : SemLoc sig).isScoped .scVector = true; revert n; decide⟩

theorem cell_ne {a b : Fin 9} (h : a ≠ b) : cell d L a ≠ cell d L b := by
  intro e; exact h (by simpa [cell] using e)

omit [FloatOps F] in
theorem ownSems0_V :
    (ownSems0 (V d (cV L) (jV L)) : sProp 𝕄)
      = iprop(semVal (cell d L 0) 0 ∗ semVal (cell d L 1) 0 ∗ semVal (cell d L 2) 0 ∗ semVal (cell d L 3) 0 ∗ semVal (cell d L 4) 0
          ∗ semVal (cell d L 5) 0 ∗ semVal (cell d L 6) 0 ∗ semVal (cell d L 7) 0 ∗ semVal (cell d L 8) 0
          ∗ bigSep ((((((((((ownCells (V d (cV L) (jV L))).erase (cell d L 0)).erase (cell d L 1)).erase (cell d L 2)).erase (cell d L 3)).erase (cell d L 4)).erase (cell d L 5)).erase (cell d L 6)).erase (cell d L 7)).erase (cell d L 8)) fun g => semVal g 0) := by
  unfold SparseCore.Cfg.ownSems0
  have ne : ∀ {a b : Fin 9}, a ≠ b → cell d L a ≠ cell d L b := fun h => cell_ne d L h
  rw [SparseCore.bigSep_erase' (cell_mem d L 0),
    SparseCore.bigSep_erase' (Finset.mem_erase.mpr ⟨ne (by decide), cell_mem d L 1⟩),
    SparseCore.bigSep_erase' (Finset.mem_erase.mpr ⟨ne (by decide), Finset.mem_erase.mpr ⟨ne (by decide), cell_mem d L 2⟩⟩),
    SparseCore.bigSep_erase' (Finset.mem_erase.mpr ⟨ne (by decide), Finset.mem_erase.mpr ⟨ne (by decide), Finset.mem_erase.mpr ⟨ne (by decide), cell_mem d L 3⟩⟩⟩),
    SparseCore.bigSep_erase' (Finset.mem_erase.mpr ⟨ne (by decide), Finset.mem_erase.mpr ⟨ne (by decide), Finset.mem_erase.mpr ⟨ne (by decide), Finset.mem_erase.mpr ⟨ne (by decide), cell_mem d L 4⟩⟩⟩⟩),
    SparseCore.bigSep_erase' (Finset.mem_erase.mpr ⟨ne (by decide), Finset.mem_erase.mpr ⟨ne (by decide), Finset.mem_erase.mpr ⟨ne (by decide), Finset.mem_erase.mpr ⟨ne (by decide), Finset.mem_erase.mpr ⟨ne (by decide), cell_mem d L 5⟩⟩⟩⟩⟩),
    SparseCore.bigSep_erase' (Finset.mem_erase.mpr ⟨ne (by decide), Finset.mem_erase.mpr ⟨ne (by decide), Finset.mem_erase.mpr ⟨ne (by decide), Finset.mem_erase.mpr ⟨ne (by decide), Finset.mem_erase.mpr ⟨ne (by decide), Finset.mem_erase.mpr ⟨ne (by decide), cell_mem d L 6⟩⟩⟩⟩⟩⟩),
    SparseCore.bigSep_erase' (Finset.mem_erase.mpr ⟨ne (by decide), Finset.mem_erase.mpr ⟨ne (by decide), Finset.mem_erase.mpr ⟨ne (by decide), Finset.mem_erase.mpr ⟨ne (by decide), Finset.mem_erase.mpr ⟨ne (by decide), Finset.mem_erase.mpr ⟨ne (by decide), Finset.mem_erase.mpr ⟨ne (by decide), cell_mem d L 7⟩⟩⟩⟩⟩⟩⟩),
    SparseCore.bigSep_erase' (Finset.mem_erase.mpr ⟨ne (by decide), Finset.mem_erase.mpr ⟨ne (by decide), Finset.mem_erase.mpr ⟨ne (by decide), Finset.mem_erase.mpr ⟨ne (by decide), Finset.mem_erase.mpr ⟨ne (by decide), Finset.mem_erase.mpr ⟨ne (by decide), Finset.mem_erase.mpr ⟨ne (by decide), Finset.mem_erase.mpr ⟨ne (by decide), cell_mem d L 8⟩⟩⟩⟩⟩⟩⟩⟩)]

omit [FloatOps F] in
/-- The two scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

abbrev thrV (d : Dev nD) (L : grid0.Coords) : Thread nD τ := V d (cV L) (jV L)

/-- Row `4k + b` of the tile's index words, as the gather addresses it. -/
abbrev offK0 (k : Fin k0_t1_loop.trips) : Memref sig .scVector .vmem S128 .i32 :=
  ((sV).slice (Rect.unit (s := S200x128) (k0_off3 k 0#32) S1x128.size (k0_off3_inb k 0)) (fun _ => rfl)).squeeze S128 squeezes_S1x128_S128
abbrev offK1 (k : Fin k0_t1_loop.trips) : Memref sig .scVector .vmem S128 .i32 :=
  ((sV).slice (Rect.unit (s := S200x128) (k0_off3 k 1#32) S1x128.size (k0_off3_inb k 1)) (fun _ => rfl)).squeeze S128 squeezes_S1x128_S128
abbrev offK2 (k : Fin k0_t1_loop.trips) : Memref sig .scVector .vmem S128 .i32 :=
  ((sV).slice (Rect.unit (s := S200x128) (k0_off3 k 2#32) S1x128.size (k0_off3_inb k 2)) (fun _ => rfl)).squeeze S128 squeezes_S1x128_S128
abbrev offK3 (k : Fin k0_t1_loop.trips) : Memref sig .scVector .vmem S128 .i32 :=
  ((sV).slice (Rect.unit (s := S200x128) (k0_off3 k 3#32) S1x128.size (k0_off3_inb k 3)) (fun _ => rfl)).squeeze S128 squeezes_S1x128_S128

/-- The two 256-row pieces of the output that trip `k` writes. -/
abbrev oPc (L : grid0.Coords) (k : Fin k0_t1_loop.trips) (r : Fin 2) : Memref sig .scVector .hbm S256x128 .f32 :=
  (oV).slice (Rect.unit (s := S819200x128) (k0_off5 L k (BitVec.ofNat 32 (1 + 2 * r.val))) S256x128.size (k0_off5_inb L k r)) (fun _ => rfl)

/-- The four 128-row quarters and the two 256-row halves of the row scratch. -/
abbrev rQ0 : Memref sig .scVector .vmem S128x128 .f32 := (rV).slice (Rect.unit (s := S512x128) ![0, 0] S128x128.size inb_S512x128_S128x128_0_0) (fun _ => rfl)
abbrev rQ1 : Memref sig .scVector .vmem S128x128 .f32 := (rV).slice (Rect.unit (s := S512x128) ![128, 0] S128x128.size inb_S512x128_S128x128_128_0) (fun _ => rfl)
abbrev rQ2 : Memref sig .scVector .vmem S128x128 .f32 := (rV).slice (Rect.unit (s := S512x128) ![256, 0] S128x128.size inb_S512x128_S128x128_256_0) (fun _ => rfl)
abbrev rQ3 : Memref sig .scVector .vmem S128x128 .f32 := (rV).slice (Rect.unit (s := S512x128) ![384, 0] S128x128.size inb_S512x128_S128x128_384_0) (fun _ => rfl)
abbrev rH0 : Memref sig .scVector .vmem S256x128 .f32 := (rV).slice (Rect.unit (s := S512x128) ![0, 0] S256x128.size inb_S512x128_S256x128_0_0) (fun _ => rfl)
abbrev rH1 : Memref sig .scVector .vmem S256x128 .f32 := (rV).slice (Rect.unit (s := S512x128) ![256, 0] S256x128.size inb_S512x128_S256x128_256_0) (fun _ => rfl)

end Tile

end Cert.Proof.KI

end
-- ==== Proof.KI.Pieces.lean ====
/-
  A tile's block of the output as a hundred pieces of 256 rows.

  Worker w owns rows [25600·w, 25600·(w+1)); piece p of it is rows [25600·w + 256·p, 25600·w + 256·(p+1)), p < 100. The
  pieces are pairwise disjoint and their union is the block, so the block held is the pieces held at once. Trip k of
  the task's loop writes pieces 2k and 2k+1: the 256-row slice of the output it addresses at offset
  51200·(L 1) + 25600·(L 0) + 512·k + 256·r is piece 2k + r of worker 2·(L 1) + (L 0). The pieces are taken two at a
  time off the front of those not yet written and put two at a time at the end of those written.
-/
import proofs.«207032_g58884001628331_cont_9to1_m_206_11_alg».proof.Proof.KI.Blocks
import proofs.«207032_g58884001628331_cont_9to1_m_206_11_alg».proof.Proof.KI.Views

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "oV" => (Memref.whole Cert.KernelIdeal.main_v1_scv : Memref Cert.KernelIdeal.sig Kind.scVector Space.hbm Cert.KernelIdeal.S819200x128 EltTy.f32)

/-! ## The pieces of a block -/

/-- Piece `p` of worker `w`'s block: 256 rows from row 25600·w + 256·p. -/
def pcN (w p : ℕ) : Finset S819200x128.Idx := rowsSet (25600 * w + 256 * p) 256

theorem mem_pcN (w p : ℕ) (x : S819200x128.Idx) : x ∈ pcN w p ↔ 25600 * w + 256 * p ≤ (x 0).val ∧ (x 0).val < 25600 * w + 256 * p + 256 :=
  mem_rowsSet _ _ x

/-- Two pieces of a block with a common row are the same piece. -/
theorem pieces_disjoint (w : ℕ) : ∀ p ∈ Finset.range 100, ∀ p' ∈ Finset.range 100, p ≠ p' → Disjoint (pcN w p) (pcN w p') := by
  intro p _ p' _ h
  refine Finset.disjoint_left.mpr fun x h1 h2 => h ?_
  rw [mem_pcN] at h1 h2
  omega

/-- The hundred pieces make up the block. -/
theorem pieces_cover (w : ℕ) : (Finset.range 100).biUnion (pcN w) = rowsSet (25600 * w) 25600 := by
  ext x
  rw [Finset.mem_biUnion, mem_rowsSet]
  constructor
  · rintro ⟨p, hp, hx⟩
    rw [mem_pcN] at hx
    have := Finset.mem_range.mp hp
    omega
  · intro hx
    refine ⟨((x 0).val - 25600 * w) / 256, Finset.mem_range.mpr (by omega), ?_⟩
    rw [mem_pcN]
    omega

/-- A block held is its hundred pieces held at once. -/
theorem blk_pieces (d : Dev nD) (c : Fin 2) (i : Fin 16) (f : Buf (Elt F) (oLoc d)) :
    (oBlk d c i f : sProp 𝕄) = bigSep (Finset.range 100) fun p => (oLoc d ↦[pcN (wid c i) p]{fullShare} f) := by
  rw [← pointsTo_biUnion (Finset.range 100) (ℓ := oLoc d) (pcN (wid c i)) (pieces_disjoint (wid c i)), pieces_cover]

/-! ## The pieces as the task addresses them -/

/-- The worker's number from the tile's coordinates. -/
theorem wid_L (L : grid0.Coords) : wid (cL L) (jL L) = 2 * (L 1).val + (L 0).val := rfl

/-- The 256-row slice trip `k` addresses at its `r`-th write is piece 2k + r of the tile's block. -/
theorem set_oPc (L : grid0.Coords) (k : Fin k0_t1_loop.trips) (r : Fin 2) :
    (oPc L k r).view.set = pcN (2 * (L 1).val + (L 0).val) (2 * k.val + r.val) := by
  show ((View.whole (main_v1_scv : Ref sig .scVector)).slice
    (Rect.unit (s := S819200x128) (k0_off5 L k (BitVec.ofNat 32 (1 + 2 * r.val))) S256x128.size (k0_off5_inb L k r))).set = _
  rw [View.set_slice_whole]
  ext x
  have h1 : (x 1).val < 128 := (x 1).isLt
  rw [Rect.mem_set_unit, mem_pcN, k0_off5_eq]
  constructor
  · intro h
    have h0 : 51200 * (L 1).val + 25600 * (L 0).val + 512 * k.val + 256 * r.val ≤ (x 0).val
        ∧ (x 0).val < 51200 * (L 1).val + 25600 * (L 0).val + 512 * k.val + 256 * r.val + 256 := h 0
    omega
  · intro h a
    match a with
    | 0 =>
      show 51200 * (L 1).val + 25600 * (L 0).val + 512 * k.val + 256 * r.val ≤ (x 0).val
        ∧ (x 0).val < 51200 * (L 1).val + 25600 * (L 0).val + 512 * k.val + 256 * r.val + 256
      omega
    | 1 =>
      show 0 ≤ (x 1).val ∧ (x 1).val < 0 + 128
      omega

/-! ## Pieces two at a time -/

omit m ρ in
/-- The pieces below n + 2 are those below n and pieces n and n + 1. -/
theorem range_succ2 (Φ : ℕ → sProp 𝕄) (n : ℕ) :
    bigSep (Finset.range (n + 2)) Φ = iprop(bigSep (Finset.range n) Φ ∗ Φ n ∗ Φ (n + 1)) := by
  show bigSep (Finset.range (n + 1 + 1)) Φ = _
  rw [Finset.range_add_one, SparseCore.bigSep_insert' Finset.notMem_range_self, Finset.range_add_one, SparseCore.bigSep_insert' Finset.notMem_range_self]
  have h1 : iprop(Φ (n + 1) ∗ Φ n ∗ bigSep (Finset.range n) Φ) ⊢ iprop(bigSep (Finset.range n) Φ ∗ Φ n ∗ Φ (n + 1)) := by
    iintro ⟨H1, H0, H⟩
    isplitl [H]; · iexact H
    isplitl [H0]; · iexact H0
    iexact H1
  have h2 : iprop(bigSep (Finset.range n) Φ ∗ Φ n ∗ Φ (n + 1)) ⊢ iprop(Φ (n + 1) ∗ Φ n ∗ bigSep (Finset.range n) Φ) := by
    iintro ⟨H, H0, H1⟩
    isplitl [H1]; · iexact H1
    isplitl [H0]; · iexact H0
    iexact H
  exact BI.Entails.antisymm h1 h2

omit m ρ in
/-- The pieces from n on are pieces n and n + 1 and those from n + 2 on. -/
theorem Ico_take2 (Φ : ℕ → sProp 𝕄) (n : ℕ) (h : n + 2 ≤ 100) :
    bigSep (Finset.Ico n 100) Φ = iprop(Φ n ∗ Φ (n + 1) ∗ bigSep (Finset.Ico (n + 2) 100) Φ) := by
  rw [show Finset.Ico n 100 = insert n (insert (n + 1) (Finset.Ico (n + 2) 100)) from by
      ext x; simp only [Finset.mem_insert, Finset.mem_Ico]; omega,
    SparseCore.bigSep_insert' (by simp only [Finset.mem_insert, Finset.mem_Ico]; omega),
    SparseCore.bigSep_insert' (by simp only [Finset.mem_Ico]; omega)]

omit m ρ in
theorem Ico_full : Finset.Ico 0 100 = Finset.range 100 := Nat.Ico_zero_eq_range 100

omit m ρ in
theorem Ico_empty (Φ : ℕ → sProp 𝕄) : bigSep (Finset.Ico 100 100) Φ = iprop(emp) := by
  rw [Finset.Ico_self, bigSep_empty]; rfl

end Cert.Proof.KI

end
-- ==== Proof.KI.Trips.lean ====
/-
  One trip of a tile's loop.

  Trip k gathers chunks 4k … 4k+3 of the tile's rows — 128 table rows each, named by row 4k+b of the tile's index
  scratch — into the four quarters of its 512-row scratch, each gather on a semaphore of its own, and, as soon as the two
  quarters of a half have landed, starts the copy of that half to the 256-row piece 2k (first half) or 2k+1 (second half) of
  the tile's block of the output. The two copies stay in flight across the end of the trip: the next trip waits for each
  before it gathers into the half the copy reads. So a trip takes the scratch's halves either free (the first trip) or
  as the sources of the previous trip's copies, and leaves them as the sources of its own; what a copy delivers is stated
  once and for all as "the piece holds the gathered rows", because the landed value agrees on the piece with the one
  whole-array function every block is a restriction of.
-/
import proofs.«207032_g58884001628331_cont_9to1_m_206_11_alg».proof.Proof.KI.Pieces

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_v0_scv : Memref Cert.KernelIdeal.sig Kind.scVector Space.hbm Cert.KernelIdeal.S32x200x128 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S819200x128 EltTy.f32)
local notation "sV" => (Memref.whole Cert.KernelIdeal.cc0_scratch0 : Memref Cert.KernelIdeal.sig Kind.scVector Space.vmem Cert.KernelIdeal.S200x128 EltTy.i32)
local notation "rV" => (Memref.whole Cert.KernelIdeal.cc0_scratch1 : Memref Cert.KernelIdeal.sig Kind.scVector Space.vmem Cert.KernelIdeal.S512x128 EltTy.f32)

variable [FloatOps F]

section Tile

variable (d : Dev nD) (L : grid0.Coords)

/-- A store in flight whose landed piece agrees with the gathered rows on that piece delivers the piece at the gathered rows. -/
theorem flightA_mono (k : Fin k0_t1_loop.trips) (sm : SemLoc sig) (X : Buf (Elt F) (oLoc d)) (fw : Buf (Elt F) ((rV).view.loc (thrV d L))) :
    (iprop(Transfers.Flight countersEmb (thrV d L) sm (default : HIx 1) 1048576
        iprop(((oPc L k 0).view.loc (thrV d L) ↦[(oPc L k 0).view.set]{fullShare} X) ∗ ((rV).view.loc (thrV d L) ↦[(rH0).view.set]{fullShare} fw))
        ∗ ⌜sm = SemLoc.dma cc0_scratch6.sem ∧ ∀ x ∈ (oPc L k 0).view.set, X x = Gmid m d x⌝) : sProp 𝕄)
      ⊢ Transfers.Flight countersEmb (thrV d L) (SemLoc.dma cc0_scratch6.sem) (default : HIx 1) 1048576 iprop((oLoc d ↦[pcN (2 * (L 1).val + (L 0).val) (2 * k.val)]{fullShare} Gmid m d) ∗ ((rV).view.loc (thrV d L) ↦[(rH0).view.set]{fullShare} fw)) := by
  iintro ⟨H, %h⟩
  obtain ⟨rfl, hX⟩ := h
  iapply (Transfers.Flight_mono countersEmb (thrV d L) (sep_mono_left (Entails.of_eq ?_))) $$ H
  rw [pointsTo_congr hX, set_oPc]
  rfl

/-- A store in flight whose landed piece agrees with the gathered rows on that piece delivers the piece at the gathered rows. -/
theorem flightB_mono (k : Fin k0_t1_loop.trips) (sm : SemLoc sig) (X : Buf (Elt F) (oLoc d)) (fw : Buf (Elt F) ((rV).view.loc (thrV d L))) :
    (iprop(Transfers.Flight countersEmb (thrV d L) sm (default : HIx 1) 1048576
        iprop(((oPc L k 1).view.loc (thrV d L) ↦[(oPc L k 1).view.set]{fullShare} X) ∗ ((rV).view.loc (thrV d L) ↦[(rH1).view.set]{fullShare} fw))
        ∗ ⌜sm = SemLoc.dma cc0_scratch8.sem ∧ ∀ x ∈ (oPc L k 1).view.set, X x = Gmid m d x⌝) : sProp 𝕄)
      ⊢ Transfers.Flight countersEmb (thrV d L) (SemLoc.dma cc0_scratch8.sem) (default : HIx 1) 1048576 iprop((oLoc d ↦[pcN (2 * (L 1).val + (L 0).val) (2 * k.val + 1)]{fullShare} Gmid m d) ∗ ((rV).view.loc (thrV d L) ↦[(rH1).view.set]{fullShare} fw)) := by
  iintro ⟨H, %h⟩
  obtain ⟨rfl, hX⟩ := h
  iapply (Transfers.Flight_mono countersEmb (thrV d L) (sep_mono_left (Entails.of_eq ?_))) $$ H
  rw [pointsTo_congr hX, set_oPc]
  rfl

set_option maxHeartbeats 4000000 in
/-- The first trip: nothing is in flight; the four gathers, their waits, the two stores issued. -/
theorem trip_first (k : Fin k0_t1_loop.trips) (hc1 : k0_cond1 k ≠ 1#1) (hc2 : k0_cond2 k ≠ 1#1) (O : CellTallies nD τ sig (HIx 1)) (W : Waits sig (HIx 1)) (q : PosShare TreeShare) (v2 : BitVec 32)
    (fi : Buf (Elt F) ((sV).view.loc (thrV d L))) (fr : Buf (Elt F) ((rV).view.loc (thrV d L))) (fo : Buf (Elt F) ((oV).view.loc (thrV d L)))
    (hn : S128.numel = S128x128.size gathers_S100000x128_S128x128.axis')
    (hin0 : ∀ x, ((offK0 k).view.read (Elt F) fi x).toNat < S100000x128.size gathers_S100000x128_S128x128.axis)
    (hin1 : ∀ x, ((offK1 k).view.read (Elt F) fi x).toNat < S100000x128.size gathers_S100000x128_S128x128.axis)
    (hin2 : ∀ x, ((offK2 k).view.read (Elt F) fi x).toNat < S100000x128.size gathers_S100000x128_S128x128.axis)
    (hin3 : ∀ x, ((offK3 k).view.read (Elt F) fi x).toNat < S100000x128.size gathers_S100000x128_S128x128.axis)
    (hv0 : ∀ (fo : Buf (Elt F) ((oV).view.loc (thrV d L))) (fr : Buf (Elt F) ((rV).view.loc (thrV d L))), ∀ x ∈ (oPc L k 0).view.set, ((oPc L k 0).view.writes (Elt F) fo [⟨Rect.whole S256x128, ReadAs.same.apply ((rH0).view.read (Elt F) ((rV).view.writes (Elt F) fr
          [⟨Rect.unit ![384, 0] S128x128.size inb_S512x128_S128x128_384_0, SparseCore.gatherPayload gathers_S100000x128_S128x128 ((xAllK).view.read (Elt F) (m (xLoc d))) (SparseCore.rows ((offK3 k).view.read (Elt F) fi) hn hin3)⟩,
           ⟨Rect.unit ![256, 0] S128x128.size inb_S512x128_S128x128_256_0, SparseCore.gatherPayload gathers_S100000x128_S128x128 ((xAllK).view.read (Elt F) (m (xLoc d))) (SparseCore.rows ((offK2 k).view.read (Elt F) fi) hn hin2)⟩,
           ⟨Rect.unit ![128, 0] S128x128.size inb_S512x128_S128x128_128_0, SparseCore.gatherPayload gathers_S100000x128_S128x128 ((xAllK).view.read (Elt F) (m (xLoc d))) (SparseCore.rows ((offK1 k).view.read (Elt F) fi) hn hin1)⟩,
           ⟨Rect.unit ![0, 0] S128x128.size inb_S512x128_S128x128_0_0, SparseCore.gatherPayload gathers_S100000x128_S128x128 ((xAllK).view.read (Elt F) (m (xLoc d))) (SparseCore.rows ((offK0 k).view.read (Elt F) fi) hn hin0)⟩]))⟩]) x = Gmid m d x)
    (hv1 : ∀ (fo : Buf (Elt F) ((oV).view.loc (thrV d L))) (fr : Buf (Elt F) ((rV).view.loc (thrV d L))), ∀ x ∈ (oPc L k 1).view.set, ((oPc L k 1).view.writes (Elt F) fo [⟨Rect.whole S256x128, ReadAs.same.apply ((rH1).view.read (Elt F) ((rV).view.writes (Elt F) fr
          [⟨Rect.unit ![384, 0] S128x128.size inb_S512x128_S128x128_384_0, SparseCore.gatherPayload gathers_S100000x128_S128x128 ((xAllK).view.read (Elt F) (m (xLoc d))) (SparseCore.rows ((offK3 k).view.read (Elt F) fi) hn hin3)⟩,
           ⟨Rect.unit ![256, 0] S128x128.size inb_S512x128_S128x128_256_0, SparseCore.gatherPayload gathers_S100000x128_S128x128 ((xAllK).view.read (Elt F) (m (xLoc d))) (SparseCore.rows ((offK2 k).view.read (Elt F) fi) hn hin2)⟩,
           ⟨Rect.unit ![128, 0] S128x128.size inb_S512x128_S128x128_128_0, SparseCore.gatherPayload gathers_S100000x128_S128x128 ((xAllK).view.read (Elt F) (m (xLoc d))) (SparseCore.rows ((offK1 k).view.read (Elt F) fi) hn hin1)⟩,
           ⟨Rect.unit ![0, 0] S128x128.size inb_S512x128_S128x128_0_0, SparseCore.gatherPayload gathers_S100000x128_S128x128 ((xAllK).view.read (Elt F) (m (xLoc d))) (SparseCore.rows ((offK0 k).view.read (Elt F) fi) hn hin0)⟩]))⟩]) x = Gmid m d x) :
    (iprop(Transfers.MayWaits (thrV d L) (default : HIx 1) O
        ∗ ((sV).view.loc (thrV d L) ↦{fullShare} fi) ∗ ((xV).view.loc (thrV d L) ↦{Transfers.shareTokN q 0} m (xLoc d)) ∗ ((xV).view.loc (thrV d L) ↦{Transfers.shareTokN q 1} m (xLoc d)) ∗ ((xV).view.loc (thrV d L) ↦{Transfers.shareTokN q 2} m (xLoc d)) ∗ ((xV).view.loc (thrV d L) ↦{Transfers.shareTokN q 3} m (xLoc d))
        ∗ semVal ((thrV d L), SemLoc.dma cc0_scratch2.sem) 0 ∗ semVal ((thrV d L), SemLoc.dma cc0_scratch3.sem) 0
        ∗ semVal ((thrV d L), SemLoc.dma cc0_scratch4.sem) 0 ∗ semVal ((thrV d L), SemLoc.dma cc0_scratch5.sem) 0
        ∗ ((rV).view.loc (thrV d L) ↦{fullShare} fr)
        ∗ ((oPc L k 0).view.loc (thrV d L) ↦[(oPc L k 0).view.set]{fullShare} fo) ∗ ((oPc L k 1).view.loc (thrV d L) ↦[(oPc L k 1).view.set]{fullShare} fo)
        ∗ semVal ((thrV d L), SemLoc.dma cc0_scratch6.sem) 0 ∗ semVal ((thrV d L), SemLoc.dma cc0_scratch8.sem) 0
        ∗ owes (thrV d L) O W) : sProp 𝕄)
      ⊢ wp frame (wpE (defs₀ (F := F)) 𝒱₀ (thrV d L) none) Set.univ
          (k0_t1_body L iV (Memref.isWhole_whole _) xV (Memref.isWhole_whole _) oV (Memref.isWhole_whole _)
            sV (Memref.isWhole_whole _) rV (Memref.isWhole_whole _) cc0_scratch2 cc0_scratch3 cc0_scratch4 cc0_scratch5 cc0_scratch6 cc0_scratch7 cc0_scratch8 cc0_scratch9 cc0_scoped0 v2 k ())
          fun _ => iprop(((sV).view.loc (thrV d L) ↦{fullShare} fi) ∗ ((xV).view.loc (thrV d L) ↦{Transfers.shareTokN q 0} m (xLoc d)) ∗ ((xV).view.loc (thrV d L) ↦{Transfers.shareTokN q 1} m (xLoc d)) ∗ ((xV).view.loc (thrV d L) ↦{Transfers.shareTokN q 2} m (xLoc d)) ∗ ((xV).view.loc (thrV d L) ↦{Transfers.shareTokN q 3} m (xLoc d))
        ∗ semVal ((thrV d L), SemLoc.dma cc0_scratch2.sem) 0 ∗ semVal ((thrV d L), SemLoc.dma cc0_scratch3.sem) 0
        ∗ semVal ((thrV d L), SemLoc.dma cc0_scratch4.sem) 0 ∗ semVal ((thrV d L), SemLoc.dma cc0_scratch5.sem) 0
        ∗ (∃ fw, Transfers.Flight countersEmb (thrV d L) (SemLoc.dma cc0_scratch6.sem) (default : HIx 1) 1048576 iprop((oLoc d ↦[pcN (2 * (L 1).val + (L 0).val) (2 * k.val)]{fullShare} Gmid m d) ∗ ((rV).view.loc (thrV d L) ↦[(rH0).view.set]{fullShare} fw)) ∗ Transfers.Flight countersEmb (thrV d L) (SemLoc.dma cc0_scratch8.sem) (default : HIx 1) 1048576 iprop((oLoc d ↦[pcN (2 * (L 1).val + (L 0).val) (2 * k.val + 1)]{fullShare} Gmid m d) ∗ ((rV).view.loc (thrV d L) ↦[(rH1).view.set]{fullShare} fw)) ∗ ((rV).view.loc (thrV d L) ↦[(Finset.univ \ (rH0).view.set) \ (rH1).view.set]{fullShare} fw))
        ∗ (∃ W', ⌜∀ p ∈ W', p ∈ W ∨ p.2 = none⌝ ∗ owes (thrV d L) O W')) := by
  unfold k0_t1_body
  rw [k0_part1_eq_skeleton, k0_part2_eq_skeleton]
  unfold k0_part1_skel k0_part2_skel
  rw [dif_neg hc1, dif_neg hc2]
  iintro ⟨#Hmw, Hs, Hx0, Hx1, Hx2, Hx3, Hc0, Hc1, Hc2, Hc3, Hr, Ho0, Ho1, Hc4, Hc6, HO⟩
  sl_exec
  sl_step
  isplitl [Hs]; · iexact Hs
  isplitl [Hx0]; · iexact Hx0
  isplitl [Hx1]; · iexact Hx1
  isplitl [Hx2]; · iexact Hx2
  isplitl [Hx3]; · iexact Hx3
  isplitl [Hc0]; · iexact Hc0
  isplitl [Hc1]; · iexact Hc1
  isplitl [Hc2]; · iexact Hc2
  isplitl [Hc3]; · iexact Hc3
  isplitl [Hc4 Hc6 Hr]
  · iexists _
    isplitl [Hc4]
    · iapply (flightA_mono m d L k)
      isplitl [Hc4]; · iexact Hc4
      ipureintro; exact ⟨rfl, hv0 fo fr⟩
    isplitl [Hc6]
    · iapply (flightB_mono m d L k)
      isplitl [Hc6]; · iexact Hc6
      ipureintro; exact ⟨rfl, hv1 fo fr⟩
    iexact Hr
  iexists _; isplitr
  swap; · iexact HO
  ipureintro; intro p hp
  simp only [Finset.mem_insert] at hp
  rcases hp with hp | hp | hp | hp | hp
  · exact .inr (hp ▸ rfl)
  · exact .inr (hp ▸ rfl)
  · exact .inr (hp ▸ rfl)
  · exact .inr (hp ▸ rfl)
  · exact .inl hp

set_option maxHeartbeats 4000000 in
/-- A later trip: the previous trip's two stores are waited for before the halves of the scratch they read are
    gathered into again; then as the first trip. -/
theorem trip_next (k : Fin k0_t1_loop.trips) (hc1 : k0_cond1 k = 1#1) (hc2 : k0_cond2 k = 1#1) (O : CellTallies nD τ sig (HIx 1)) (W : Waits sig (HIx 1)) (q : PosShare TreeShare) (v2 : BitVec 32)
    (fi : Buf (Elt F) ((sV).view.loc (thrV d L))) (fw : Buf (Elt F) ((rV).view.loc (thrV d L))) (fo : Buf (Elt F) ((oV).view.loc (thrV d L))) (pa pb : ℕ)
    (hn : S128.numel = S128x128.size gathers_S100000x128_S128x128.axis')
    (hin0 : ∀ x, ((offK0 k).view.read (Elt F) fi x).toNat < S100000x128.size gathers_S100000x128_S128x128.axis)
    (hin1 : ∀ x, ((offK1 k).view.read (Elt F) fi x).toNat < S100000x128.size gathers_S100000x128_S128x128.axis)
    (hin2 : ∀ x, ((offK2 k).view.read (Elt F) fi x).toNat < S100000x128.size gathers_S100000x128_S128x128.axis)
    (hin3 : ∀ x, ((offK3 k).view.read (Elt F) fi x).toNat < S100000x128.size gathers_S100000x128_S128x128.axis)
    (hv0 : ∀ (fo : Buf (Elt F) ((oV).view.loc (thrV d L))) (fr : Buf (Elt F) ((rV).view.loc (thrV d L))), ∀ x ∈ (oPc L k 0).view.set, ((oPc L k 0).view.writes (Elt F) fo [⟨Rect.whole S256x128, ReadAs.same.apply ((rH0).view.read (Elt F) ((rV).view.writes (Elt F) fr
          [⟨Rect.unit ![384, 0] S128x128.size inb_S512x128_S128x128_384_0, SparseCore.gatherPayload gathers_S100000x128_S128x128 ((xAllK).view.read (Elt F) (m (xLoc d))) (SparseCore.rows ((offK3 k).view.read (Elt F) fi) hn hin3)⟩,
           ⟨Rect.unit ![256, 0] S128x128.size inb_S512x128_S128x128_256_0, SparseCore.gatherPayload gathers_S100000x128_S128x128 ((xAllK).view.read (Elt F) (m (xLoc d))) (SparseCore.rows ((offK2 k).view.read (Elt F) fi) hn hin2)⟩,
           ⟨Rect.unit ![128, 0] S128x128.size inb_S512x128_S128x128_128_0, SparseCore.gatherPayload gathers_S100000x128_S128x128 ((xAllK).view.read (Elt F) (m (xLoc d))) (SparseCore.rows ((offK1 k).view.read (Elt F) fi) hn hin1)⟩,
           ⟨Rect.unit ![0, 0] S128x128.size inb_S512x128_S128x128_0_0, SparseCore.gatherPayload gathers_S100000x128_S128x128 ((xAllK).view.read (Elt F) (m (xLoc d))) (SparseCore.rows ((offK0 k).view.read (Elt F) fi) hn hin0)⟩]))⟩]) x = Gmid m d x)
    (hv1 : ∀ (fo : Buf (Elt F) ((oV).view.loc (thrV d L))) (fr : Buf (Elt F) ((rV).view.loc (thrV d L))), ∀ x ∈ (oPc L k 1).view.set, ((oPc L k 1).view.writes (Elt F) fo [⟨Rect.whole S256x128, ReadAs.same.apply ((rH1).view.read (Elt F) ((rV).view.writes (Elt F) fr
          [⟨Rect.unit ![384, 0] S128x128.size inb_S512x128_S128x128_384_0, SparseCore.gatherPayload gathers_S100000x128_S128x128 ((xAllK).view.read (Elt F) (m (xLoc d))) (SparseCore.rows ((offK3 k).view.read (Elt F) fi) hn hin3)⟩,
           ⟨Rect.unit ![256, 0] S128x128.size inb_S512x128_S128x128_256_0, SparseCore.gatherPayload gathers_S100000x128_S128x128 ((xAllK).view.read (Elt F) (m (xLoc d))) (SparseCore.rows ((offK2 k).view.read (Elt F) fi) hn hin2)⟩,
           ⟨Rect.unit ![128, 0] S128x128.size inb_S512x128_S128x128_128_0, SparseCore.gatherPayload gathers_S100000x128_S128x128 ((xAllK).view.read (Elt F) (m (xLoc d))) (SparseCore.rows ((offK1 k).view.read (Elt F) fi) hn hin1)⟩,
           ⟨Rect.unit ![0, 0] S128x128.size inb_S512x128_S128x128_0_0, SparseCore.gatherPayload gathers_S100000x128_S128x128 ((xAllK).view.read (Elt F) (m (xLoc d))) (SparseCore.rows ((offK0 k).view.read (Elt F) fi) hn hin0)⟩]))⟩]) x = Gmid m d x) :
    (iprop(Transfers.MayWaits (thrV d L) (default : HIx 1) O
        ∗ ((sV).view.loc (thrV d L) ↦{fullShare} fi) ∗ ((xV).view.loc (thrV d L) ↦{Transfers.shareTokN q 0} m (xLoc d)) ∗ ((xV).view.loc (thrV d L) ↦{Transfers.shareTokN q 1} m (xLoc d)) ∗ ((xV).view.loc (thrV d L) ↦{Transfers.shareTokN q 2} m (xLoc d)) ∗ ((xV).view.loc (thrV d L) ↦{Transfers.shareTokN q 3} m (xLoc d))
        ∗ semVal ((thrV d L), SemLoc.dma cc0_scratch2.sem) 0 ∗ semVal ((thrV d L), SemLoc.dma cc0_scratch3.sem) 0
        ∗ semVal ((thrV d L), SemLoc.dma cc0_scratch4.sem) 0 ∗ semVal ((thrV d L), SemLoc.dma cc0_scratch5.sem) 0
        ∗ Transfers.Flight countersEmb (thrV d L) (SemLoc.dma cc0_scratch6.sem) (default : HIx 1) 1048576 iprop((oLoc d ↦[pcN (2 * (L 1).val + (L 0).val) (pa)]{fullShare} Gmid m d) ∗ ((rV).view.loc (thrV d L) ↦[(rH0).view.set]{fullShare} fw)) ∗ Transfers.Flight countersEmb (thrV d L) (SemLoc.dma cc0_scratch8.sem) (default : HIx 1) 1048576 iprop((oLoc d ↦[pcN (2 * (L 1).val + (L 0).val) (pb)]{fullShare} Gmid m d) ∗ ((rV).view.loc (thrV d L) ↦[(rH1).view.set]{fullShare} fw)) ∗ ((rV).view.loc (thrV d L) ↦[(Finset.univ \ (rH0).view.set) \ (rH1).view.set]{fullShare} fw)
        ∗ ((oPc L k 0).view.loc (thrV d L) ↦[(oPc L k 0).view.set]{fullShare} fo) ∗ ((oPc L k 1).view.loc (thrV d L) ↦[(oPc L k 1).view.set]{fullShare} fo)
        ∗ owes (thrV d L) O W) : sProp 𝕄)
      ⊢ wp frame (wpE (defs₀ (F := F)) 𝒱₀ (thrV d L) none) Set.univ
          (k0_t1_body L iV (Memref.isWhole_whole _) xV (Memref.isWhole_whole _) oV (Memref.isWhole_whole _)
            sV (Memref.isWhole_whole _) rV (Memref.isWhole_whole _) cc0_scratch2 cc0_scratch3 cc0_scratch4 cc0_scratch5 cc0_scratch6 cc0_scratch7 cc0_scratch8 cc0_scratch9 cc0_scoped0 v2 k ())
          fun _ => iprop(((sV).view.loc (thrV d L) ↦{fullShare} fi) ∗ ((xV).view.loc (thrV d L) ↦{Transfers.shareTokN q 0} m (xLoc d)) ∗ ((xV).view.loc (thrV d L) ↦{Transfers.shareTokN q 1} m (xLoc d)) ∗ ((xV).view.loc (thrV d L) ↦{Transfers.shareTokN q 2} m (xLoc d)) ∗ ((xV).view.loc (thrV d L) ↦{Transfers.shareTokN q 3} m (xLoc d))
        ∗ semVal ((thrV d L), SemLoc.dma cc0_scratch2.sem) 0 ∗ semVal ((thrV d L), SemLoc.dma cc0_scratch3.sem) 0
        ∗ semVal ((thrV d L), SemLoc.dma cc0_scratch4.sem) 0 ∗ semVal ((thrV d L), SemLoc.dma cc0_scratch5.sem) 0
        ∗ (∃ fw, Transfers.Flight countersEmb (thrV d L) (SemLoc.dma cc0_scratch6.sem) (default : HIx 1) 1048576 iprop((oLoc d ↦[pcN (2 * (L 1).val + (L 0).val) (2 * k.val)]{fullShare} Gmid m d) ∗ ((rV).view.loc (thrV d L) ↦[(rH0).view.set]{fullShare} fw)) ∗ Transfers.Flight countersEmb (thrV d L) (SemLoc.dma cc0_scratch8.sem) (default : HIx 1) 1048576 iprop((oLoc d ↦[pcN (2 * (L 1).val + (L 0).val) (2 * k.val + 1)]{fullShare} Gmid m d) ∗ ((rV).view.loc (thrV d L) ↦[(rH1).view.set]{fullShare} fw)) ∗ ((rV).view.loc (thrV d L) ↦[(Finset.univ \ (rH0).view.set) \ (rH1).view.set]{fullShare} fw))
        ∗ (∃ W', ⌜∀ p ∈ W', p ∈ W ∨ p.2 = none⌝ ∗ owes (thrV d L) O W')
        ∗ (oLoc d ↦[pcN (2 * (L 1).val + (L 0).val) pa]{fullShare} Gmid m d) ∗ (oLoc d ↦[pcN (2 * (L 1).val + (L 0).val) pb]{fullShare} Gmid m d)) := by
  unfold k0_t1_body
  rw [k0_part1_eq_skeleton, k0_part2_eq_skeleton]
  unfold k0_part1_skel k0_part2_skel
  rw [dif_pos hc1, dif_pos hc2]
  iintro ⟨#Hmw, Hs, Hx0, Hx1, Hx2, Hx3, Hc0, Hc1, Hc2, Hc3, Hc4, Hc6, Hr, Ho0, Ho1, HO⟩
  sl_exec
  sl_step
  isplitl [Hs]; · iexact Hs
  isplitl [Hx0]; · iexact Hx0
  isplitl [Hx1]; · iexact Hx1
  isplitl [Hx2]; · iexact Hx2
  isplitl [Hx3]; · iexact Hx3
  isplitl [Hc0]; · iexact Hc0
  isplitl [Hc1]; · iexact Hc1
  isplitl [Hc2]; · iexact Hc2
  isplitl [Hc3]; · iexact Hc3
  isplitl [Hc4 Hc6 Hr]
  · iexists _
    isplitl [Hc4]
    · iapply (flightA_mono m d L k)
      isplitl [Hc4]; · iexact Hc4
      ipureintro; exact ⟨rfl, hv0 fo fw⟩
    isplitl [Hc6]
    · iapply (flightB_mono m d L k)
      isplitl [Hc6]; · iexact Hc6
      ipureintro; exact ⟨rfl, hv1 fo fw⟩
    iexact Hr
  isplitl [HO]
  · iexists _; isplitr
    swap; · iexact HO
    ipureintro; intro p hp
    simp only [Finset.mem_insert] at hp
    rcases hp with hp | hp | hp | hp | hp | hp | hp
    · exact .inr (hp ▸ rfl)
    · exact .inr (hp ▸ rfl)
    · exact .inr (hp ▸ rfl)
    · exact .inr (hp ▸ rfl)
    · exact .inr (hp ▸ rfl)
    · exact .inr (hp ▸ rfl)
    · exact .inl hp
  isplitl [Hc4_dst]; · iexact Hc4_dst
  iexact Hc6_dst

end Tile

end Cert.Proof.KI

end
-- ==== Proof.KI.Glue.lean ====
/-
  Three facts one tile's task uses.

  The task first copies row w = 2·(L 1) + (L 0) of the index words (32 × 200 × 128) over its 200 × 128 index scratch:
  afterwards word (j, l) of the scratch is index word (w, j, l). The 512 × 128 row scratch is its two 256-row halves and
  nothing else, so it can be held as the halves and put back whole. A read share of the table is four read tokens and a
  remainder.
-/
import proofs.«207032_g58884001628331_cont_9to1_m_206_11_alg».proof.Proof.KI.Pieces

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_v0_scv : Memref Cert.KernelIdeal.sig Kind.scVector Space.hbm Cert.KernelIdeal.S32x200x128 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S819200x128 EltTy.f32)
local notation "sV" => (Memref.whole Cert.KernelIdeal.cc0_scratch0 : Memref Cert.KernelIdeal.sig Kind.scVector Space.vmem Cert.KernelIdeal.S200x128 EltTy.i32)
local notation "rV" => (Memref.whole Cert.KernelIdeal.cc0_scratch1 : Memref Cert.KernelIdeal.sig Kind.scVector Space.vmem Cert.KernelIdeal.S512x128 EltTy.f32)

variable [FloatOps F]

section Tile

variable (d : Dev nD) (L : grid0.Coords)

/-! ## The index words the tile copied -/

omit [FloatOps F] in
/-- The worker's number is below 32. -/
theorem wid_lt (L : grid0.Coords) : 2 * (L 1).val + (L 0).val < 32 := by
  have h0 : (L 0).val < 2 := (L 0).isLt
  have h1 : (L 1).val < 16 := (L 1).isLt
  omega

omit [FloatOps F] in
/-- Word (j, l) of the row the tile copies is index word (w, j, l). -/
theorem emb_iRowK (L : grid0.Coords) (j : Fin 200) (l : Fin 128) :
    (iRowK L).view.emb (ValueIdx.ix2 j l) = ValueIdx.ix3 (⟨2 * (L 1).val + (L 0).val, wid_lt L⟩ : Fin 32) j l := by
  have hq : Shape.reshapeEquiv (s := S1x200x128) (s' := S200x128) squeezes_S1x200x128_S200x128.numel_eq (ValueIdx.ix2 j l)
      = (ValueIdx.ix3 (0 : Fin 1) j l : S1x200x128.Idx) :=
    Shape.reshapeEquiv_eq_of_rowMajor _ (by rw [Shape.rowMajor_val_three, Shape.rowMajor_val_two]; simp)
  funext a
  refine Fin.ext ?_
  show ((Rect.unit (s := S32x200x128) (k0_off1 L) S1x200x128.size (k0_off1_inb L)).emb
    (Shape.reshapeEquiv (s := S1x200x128) (s' := S200x128) squeezes_S1x200x128_S200x128.numel_eq (ValueIdx.ix2 j l)) a : ℕ) = _
  rw [hq, Rect.emb_apply, Rect.off_unit, Rect.stride_unit]
  have e := k0_off1_eq L
  match a with
  | 0 =>
    have e0 : k0_off1 L 0 = 2 * (L 1).val + (L 0).val := congrFun e 0
    show k0_off1 L 0 + 1 * 0 = 2 * (L 1).val + (L 0).val
    omega
  | 1 =>
    have e1 : k0_off1 L 1 = 0 := congrFun e 1
    show k0_off1 L 1 + 1 * j.val = j.val
    omega
  | 2 =>
    have e2 : k0_off1 L 2 = 0 := congrFun e 2
    show k0_off1 L 2 + 1 * l.val = l.val
    omega

/-- After the copy of its row of index words over the index scratch, word (j, l) of the scratch is index word (w, j, l). -/
theorem hfi_copy (fs : Buf (Elt F) ((sV).view.loc (thrV d L))) :
    ∀ (j : Fin 200) (l : Fin 128),
      (View.write (Elt F) (sV).view fs (ReadAs.same.apply ((iRowK L).view.read (Elt F) (idx3 m d))) Finset.univ) (ValueIdx.ix2 j l)
        = idx3 m d (ValueIdx.ix3 ⟨2 * (L 1).val + (L 0).val, wid_lt L⟩ j l) := by
  intro j l
  rw [View.write_whole_univ]
  show (iRowK L).view.read (Elt F) (idx3 m d) (ValueIdx.ix2 j l) = _
  rw [View.read_apply, cast_eq, emb_iRowK]

/-! ## The row scratch as its two halves -/

omit [FloatOps F] in
theorem mem_rH0 (x : S512x128.Idx) : x ∈ (rH0).view.set ↔ (x 0).val < 256 := by
  show x ∈ ((View.whole (cc0_scratch1 : Ref sig .scVector)).slice (Rect.unit (s := S512x128) ![0, 0] S256x128.size inb_S512x128_S256x128_0_0)).set ↔ _
  rw [View.set_slice_whole, Rect.mem_set_unit]
  have h1 : (x 1).val < 128 := (x 1).isLt
  constructor
  · intro h
    have h0 : 0 ≤ (x 0).val ∧ (x 0).val < 0 + 256 := h 0
    omega
  · intro h a
    match a with
    | 0 => show 0 ≤ (x 0).val ∧ (x 0).val < 0 + 256; omega
    | 1 => show 0 ≤ (x 1).val ∧ (x 1).val < 0 + 128; omega

omit [FloatOps F] in
theorem mem_rH1 (x : S512x128.Idx) : x ∈ (rH1).view.set ↔ 256 ≤ (x 0).val := by
  show x ∈ ((View.whole (cc0_scratch1 : Ref sig .scVector)).slice (Rect.unit (s := S512x128) ![256, 0] S256x128.size inb_S512x128_S256x128_256_0)).set ↔ _
  rw [View.set_slice_whole, Rect.mem_set_unit]
  have h0' : (x 0).val < 512 := (x 0).isLt
  have h1 : (x 1).val < 128 := (x 1).isLt
  constructor
  · intro h
    have h0 : 256 ≤ (x 0).val ∧ (x 0).val < 256 + 256 := h 0
    omega
  · intro h a
    match a with
    | 0 => show 256 ≤ (x 0).val ∧ (x 0).val < 256 + 256; omega
    | 1 => show 0 ≤ (x 1).val ∧ (x 1).val < 0 + 128; omega

omit [FloatOps F] in
/-- The second half lies outside the first. -/
theorem rH1_sub : (rH1).view.set ⊆ Finset.univ \ (rH0).view.set := fun x hx =>
  Finset.mem_sdiff.mpr ⟨Finset.mem_univ _, fun h0 => by rw [mem_rH0] at h0; rw [mem_rH1] at hx; omega⟩

omit [FloatOps F] in
/-- The row scratch held whole is its halves and the rest held at once; -/
theorem rV_split (f : Buf (Elt F) ((rV).view.loc (thrV d L))) :
    ((rV).view.loc (thrV d L) ↦{fullShare} f : sProp 𝕄)
      ⊢ iprop(((rV).view.loc (thrV d L) ↦[(rH0).view.set]{fullShare} f) ∗ ((rV).view.loc (thrV d L) ↦[(rH1).view.set]{fullShare} f)
        ∗ ((rV).view.loc (thrV d L) ↦[(Finset.univ \ (rH0).view.set) \ (rH1).view.set]{fullShare} f)) := by
  iintro H
  ihave H' := (pointsTo_split_subset (ℓ := (rV).view.loc (thrV d L)) (q := fullShare) (f := f) (S := Finset.univ) (Finset.subset_univ (rH0).view.set)).1 $$ H
  icases H' with ⟨H0, Hr⟩
  ihave H'' := (pointsTo_split_subset (ℓ := (rV).view.loc (thrV d L)) (q := fullShare) (f := f) rH1_sub).1 $$ Hr
  icases H'' with ⟨H1, Hr⟩
  isplitl [H0]; · iexact H0
  isplitl [H1]; · iexact H1
  iexact Hr

omit [FloatOps F] in
/-- and those put back are the scratch whole. -/
theorem rV_join (f : Buf (Elt F) ((rV).view.loc (thrV d L))) :
    iprop(((rV).view.loc (thrV d L) ↦[(rH0).view.set]{fullShare} f) ∗ ((rV).view.loc (thrV d L) ↦[(rH1).view.set]{fullShare} f)
        ∗ ((rV).view.loc (thrV d L) ↦[(Finset.univ \ (rH0).view.set) \ (rH1).view.set]{fullShare} f))
      ⊢ ((rV).view.loc (thrV d L) ↦{fullShare} f : sProp 𝕄) := by
  iintro ⟨H0, H1, Hr⟩
  ihave Hr' := (pointsTo_split_subset (ℓ := (rV).view.loc (thrV d L)) (q := fullShare) (f := f) rH1_sub).2 $$ [H1 Hr]
  · isplitl [H1] <;> iassumption
  iapply (pointsTo_split_subset (ℓ := (rV).view.loc (thrV d L)) (q := fullShare) (f := f) (S := Finset.univ) (Finset.subset_univ (rH0).view.set)).2
  isplitl [H0] <;> iassumption

/-! ## Four read tokens of a share of the table -/

omit [FloatOps F] in
/-- A share of the table is what remains after four read tokens, and the four tokens. -/
theorem x_toks (q : PosShare TreeShare) (f : Buf (Elt F) ((xV).view.loc (thrV d L))) :
    ((xV).view.loc (thrV d L) ↦{q} f : sProp 𝕄)
      ⊣⊢ iprop(((xV).view.loc (thrV d L) ↦{Transfers.shareDrop q 4} f) ∗ ((xV).view.loc (thrV d L) ↦{Transfers.shareTokN q 0} f)
        ∗ ((xV).view.loc (thrV d L) ↦{Transfers.shareTokN q 1} f) ∗ ((xV).view.loc (thrV d L) ↦{Transfers.shareTokN q 2} f)
        ∗ ((xV).view.loc (thrV d L) ↦{Transfers.shareTokN q 3} f)) := by
  have h := Transfers.pointsTo_toks_range (Ix := HIx 1) (Name := ℕ) (U := UU) (Lvl := ℕ) (ℓ := (xV).view.loc (thrV d L)) (S := Finset.univ) (f := f) q 4
  rw [show Finset.range 4 = {0, 1, 2, 3} by decide, SparseCore.bigSep_insert' (by decide), SparseCore.bigSep_insert' (by decide),
    SparseCore.bigSep_insert' (by decide), bigSep_singleton] at h
  exact h

end Tile

end Cert.Proof.KI

end
-- ==== Proof.KI.Loop.lean ====
/-
  A tile's loop of fifty trips, by its invariant.

  A tile's block of 25600 rows is a hundred pieces of 256 rows; trip k writes pieces 2k and 2k+1. Before trip k the pieces
  below 2(k-1) hold the gathered rows (their copies have been waited for), pieces 2(k-1) and 2(k-1)+1 are the destinations
  of the two copies in flight, and the pieces from 2k on hold what they held at entry. Trip k waits for the two copies in
  flight — so the delivered pieces become 2k — takes pieces 2k and 2k+1 from the untouched ones and leaves them in flight.
  Before the first trip nothing is in flight and the row scratch is held whole.
-/
import proofs.«207032_g58884001628331_cont_9to1_m_206_11_alg».proof.Proof.KI.Trips
import proofs.«207032_g58884001628331_cont_9to1_m_206_11_alg».proof.Proof.KI.Glue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_v0_scv : Memref Cert.KernelIdeal.sig Kind.scVector Space.hbm Cert.KernelIdeal.S32x200x128 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S819200x128 EltTy.f32)
local notation "sV" => (Memref.whole Cert.KernelIdeal.cc0_scratch0 : Memref Cert.KernelIdeal.sig Kind.scVector Space.vmem Cert.KernelIdeal.S200x128 EltTy.i32)
local notation "rV" => (Memref.whole Cert.KernelIdeal.cc0_scratch1 : Memref Cert.KernelIdeal.sig Kind.scVector Space.vmem Cert.KernelIdeal.S512x128 EltTy.f32)

variable [FloatOps F]

section Tile

variable (d : Dev nD) (L : grid0.Coords)

theorem trips_eq : k0_t1_loop.trips = 50 := by decide
theorem cond_zero : ∀ k : Fin k0_t1_loop.trips, k.val = 0 → k0_cond1 k ≠ 1#1 ∧ k0_cond2 k ≠ 1#1 := by decide +kernel
theorem cond_pos : ∀ k : Fin k0_t1_loop.trips, 0 < k.val → k0_cond1 k = 1#1 ∧ k0_cond2 k = 1#1 := by decide +kernel

/-- The loop's invariant before trip `k`: the pieces whose stores have been waited for hold the gathered rows, the
    pieces not yet written hold what they held, and the two pieces trip `k - 1` stored are in flight (none before the
    first trip, when the row scratch is held whole). -/
def Inv (O : CellTallies nD τ sig (HIx 1)) (W : Waits sig (HIx 1)) (q : PosShare TreeShare) (fi : Buf (Elt F) ((sV).view.loc (thrV d L))) (fr : Buf (Elt F) ((rV).view.loc (thrV d L))) (k : ℕ) (_ : Unit) : sProp 𝕄 :=
  iprop(Transfers.MayWaits (thrV d L) (default : HIx 1) O
      ∗ ((sV).view.loc (thrV d L) ↦{fullShare} fi) ∗ ((xV).view.loc (thrV d L) ↦{Transfers.shareTokN q 0} m (xLoc d)) ∗ ((xV).view.loc (thrV d L) ↦{Transfers.shareTokN q 1} m (xLoc d)) ∗ ((xV).view.loc (thrV d L) ↦{Transfers.shareTokN q 2} m (xLoc d)) ∗ ((xV).view.loc (thrV d L) ↦{Transfers.shareTokN q 3} m (xLoc d))
        ∗ semVal ((thrV d L), SemLoc.dma cc0_scratch2.sem) 0 ∗ semVal ((thrV d L), SemLoc.dma cc0_scratch3.sem) 0
        ∗ semVal ((thrV d L), SemLoc.dma cc0_scratch4.sem) 0 ∗ semVal ((thrV d L), SemLoc.dma cc0_scratch5.sem) 0
      ∗ (∃ W', ⌜∀ p ∈ W', p ∈ W ∨ p.2 = none⌝ ∗ owes (thrV d L) O W')
      ∗ (bigSep (Finset.range (2 * (k - 1))) (fun p => (oLoc d ↦[pcN (2 * (L 1).val + (L 0).val) p]{fullShare} Gmid m d : sProp 𝕄)))
      ∗ (bigSep (Finset.Ico (2 * k) 100) (fun p => (oLoc d ↦[pcN (2 * (L 1).val + (L 0).val) p]{fullShare} m (oLoc d) : sProp 𝕄)))
      ∗ (if k = 0 then iprop(((rV).view.loc (thrV d L) ↦{fullShare} fr) ∗ semVal ((thrV d L), SemLoc.dma cc0_scratch6.sem) 0 ∗ semVal ((thrV d L), SemLoc.dma cc0_scratch8.sem) 0) else iprop(∃ fw, Transfers.Flight countersEmb (thrV d L) (SemLoc.dma cc0_scratch6.sem) (default : HIx 1) 1048576 iprop((oLoc d ↦[pcN (2 * (L 1).val + (L 0).val) (2 * (k - 1))]{fullShare} Gmid m d) ∗ ((rV).view.loc (thrV d L) ↦[(rH0).view.set]{fullShare} fw)) ∗ Transfers.Flight countersEmb (thrV d L) (SemLoc.dma cc0_scratch8.sem) (default : HIx 1) 1048576 iprop((oLoc d ↦[pcN (2 * (L 1).val + (L 0).val) (2 * (k - 1) + 1)]{fullShare} Gmid m d) ∗ ((rV).view.loc (thrV d L) ↦[(rH1).view.set]{fullShare} fw)) ∗ ((rV).view.loc (thrV d L) ↦[(Finset.univ \ (rH0).view.set) \ (rH1).view.set]{fullShare} fw))))

theorem inv_zero (O : CellTallies nD τ sig (HIx 1)) (W : Waits sig (HIx 1)) (q : PosShare TreeShare) (fi : Buf (Elt F) ((sV).view.loc (thrV d L))) (fr : Buf (Elt F) ((rV).view.loc (thrV d L))) (k : ℕ) (hk : k = 0) (u : Unit) : Inv m d L O W q fi fr k u ⊢ iprop(Transfers.MayWaits (thrV d L) (default : HIx 1) O
      ∗ ((sV).view.loc (thrV d L) ↦{fullShare} fi) ∗ ((xV).view.loc (thrV d L) ↦{Transfers.shareTokN q 0} m (xLoc d)) ∗ ((xV).view.loc (thrV d L) ↦{Transfers.shareTokN q 1} m (xLoc d)) ∗ ((xV).view.loc (thrV d L) ↦{Transfers.shareTokN q 2} m (xLoc d)) ∗ ((xV).view.loc (thrV d L) ↦{Transfers.shareTokN q 3} m (xLoc d))
        ∗ semVal ((thrV d L), SemLoc.dma cc0_scratch2.sem) 0 ∗ semVal ((thrV d L), SemLoc.dma cc0_scratch3.sem) 0
        ∗ semVal ((thrV d L), SemLoc.dma cc0_scratch4.sem) 0 ∗ semVal ((thrV d L), SemLoc.dma cc0_scratch5.sem) 0
      ∗ (∃ W', ⌜∀ p ∈ W', p ∈ W ∨ p.2 = none⌝ ∗ owes (thrV d L) O W')
      ∗ (bigSep (Finset.range (2 * (k - 1))) (fun p => (oLoc d ↦[pcN (2 * (L 1).val + (L 0).val) p]{fullShare} Gmid m d : sProp 𝕄)))
      ∗ (bigSep (Finset.Ico (2 * k) 100) (fun p => (oLoc d ↦[pcN (2 * (L 1).val + (L 0).val) p]{fullShare} m (oLoc d) : sProp 𝕄)))
      ∗ iprop(((rV).view.loc (thrV d L) ↦{fullShare} fr) ∗ semVal ((thrV d L), SemLoc.dma cc0_scratch6.sem) 0 ∗ semVal ((thrV d L), SemLoc.dma cc0_scratch8.sem) 0)) := by
  unfold Inv; rw [if_pos hk]

theorem inv_init (O : CellTallies nD τ sig (HIx 1)) (W : Waits sig (HIx 1)) (q : PosShare TreeShare) (fi : Buf (Elt F) ((sV).view.loc (thrV d L))) (fr : Buf (Elt F) ((rV).view.loc (thrV d L))) (u : Unit) : iprop(Transfers.MayWaits (thrV d L) (default : HIx 1) O
      ∗ ((sV).view.loc (thrV d L) ↦{fullShare} fi) ∗ ((xV).view.loc (thrV d L) ↦{Transfers.shareTokN q 0} m (xLoc d)) ∗ ((xV).view.loc (thrV d L) ↦{Transfers.shareTokN q 1} m (xLoc d)) ∗ ((xV).view.loc (thrV d L) ↦{Transfers.shareTokN q 2} m (xLoc d)) ∗ ((xV).view.loc (thrV d L) ↦{Transfers.shareTokN q 3} m (xLoc d))
        ∗ semVal ((thrV d L), SemLoc.dma cc0_scratch2.sem) 0 ∗ semVal ((thrV d L), SemLoc.dma cc0_scratch3.sem) 0
        ∗ semVal ((thrV d L), SemLoc.dma cc0_scratch4.sem) 0 ∗ semVal ((thrV d L), SemLoc.dma cc0_scratch5.sem) 0
      ∗ (∃ W', ⌜∀ p ∈ W', p ∈ W ∨ p.2 = none⌝ ∗ owes (thrV d L) O W')
      ∗ (bigSep (Finset.range (2 * (0 - 1))) (fun p => (oLoc d ↦[pcN (2 * (L 1).val + (L 0).val) p]{fullShare} Gmid m d : sProp 𝕄)))
      ∗ (bigSep (Finset.Ico (2 * 0) 100) (fun p => (oLoc d ↦[pcN (2 * (L 1).val + (L 0).val) p]{fullShare} m (oLoc d) : sProp 𝕄)))
      ∗ iprop(((rV).view.loc (thrV d L) ↦{fullShare} fr) ∗ semVal ((thrV d L), SemLoc.dma cc0_scratch6.sem) 0 ∗ semVal ((thrV d L), SemLoc.dma cc0_scratch8.sem) 0)) ⊢ Inv m d L O W q fi fr 0 u := by
  unfold Inv; rw [if_pos rfl]

theorem inv_pos (O : CellTallies nD τ sig (HIx 1)) (W : Waits sig (HIx 1)) (q : PosShare TreeShare) (fi : Buf (Elt F) ((sV).view.loc (thrV d L))) (fr : Buf (Elt F) ((rV).view.loc (thrV d L))) (k : ℕ) (hk : 0 < k) (u : Unit) : Inv m d L O W q fi fr k u ⊢ iprop(Transfers.MayWaits (thrV d L) (default : HIx 1) O
      ∗ ((sV).view.loc (thrV d L) ↦{fullShare} fi) ∗ ((xV).view.loc (thrV d L) ↦{Transfers.shareTokN q 0} m (xLoc d)) ∗ ((xV).view.loc (thrV d L) ↦{Transfers.shareTokN q 1} m (xLoc d)) ∗ ((xV).view.loc (thrV d L) ↦{Transfers.shareTokN q 2} m (xLoc d)) ∗ ((xV).view.loc (thrV d L) ↦{Transfers.shareTokN q 3} m (xLoc d))
        ∗ semVal ((thrV d L), SemLoc.dma cc0_scratch2.sem) 0 ∗ semVal ((thrV d L), SemLoc.dma cc0_scratch3.sem) 0
        ∗ semVal ((thrV d L), SemLoc.dma cc0_scratch4.sem) 0 ∗ semVal ((thrV d L), SemLoc.dma cc0_scratch5.sem) 0
      ∗ (∃ W', ⌜∀ p ∈ W', p ∈ W ∨ p.2 = none⌝ ∗ owes (thrV d L) O W')
      ∗ (bigSep (Finset.range (2 * (k - 1))) (fun p => (oLoc d ↦[pcN (2 * (L 1).val + (L 0).val) p]{fullShare} Gmid m d : sProp 𝕄)))
      ∗ (bigSep (Finset.Ico (2 * k) 100) (fun p => (oLoc d ↦[pcN (2 * (L 1).val + (L 0).val) p]{fullShare} m (oLoc d) : sProp 𝕄)))
      ∗ iprop(∃ fw, Transfers.Flight countersEmb (thrV d L) (SemLoc.dma cc0_scratch6.sem) (default : HIx 1) 1048576 iprop((oLoc d ↦[pcN (2 * (L 1).val + (L 0).val) (2 * (k - 1))]{fullShare} Gmid m d) ∗ ((rV).view.loc (thrV d L) ↦[(rH0).view.set]{fullShare} fw)) ∗ Transfers.Flight countersEmb (thrV d L) (SemLoc.dma cc0_scratch8.sem) (default : HIx 1) 1048576 iprop((oLoc d ↦[pcN (2 * (L 1).val + (L 0).val) (2 * (k - 1) + 1)]{fullShare} Gmid m d) ∗ ((rV).view.loc (thrV d L) ↦[(rH1).view.set]{fullShare} fw)) ∗ ((rV).view.loc (thrV d L) ↦[(Finset.univ \ (rH0).view.set) \ (rH1).view.set]{fullShare} fw))) := by
  unfold Inv; rw [if_neg (by omega)]

theorem inv_succ (O : CellTallies nD τ sig (HIx 1)) (W : Waits sig (HIx 1)) (q : PosShare TreeShare) (fi : Buf (Elt F) ((sV).view.loc (thrV d L))) (fr : Buf (Elt F) ((rV).view.loc (thrV d L))) (k : ℕ) (u : Unit) : iprop(Transfers.MayWaits (thrV d L) (default : HIx 1) O
      ∗ ((sV).view.loc (thrV d L) ↦{fullShare} fi) ∗ ((xV).view.loc (thrV d L) ↦{Transfers.shareTokN q 0} m (xLoc d)) ∗ ((xV).view.loc (thrV d L) ↦{Transfers.shareTokN q 1} m (xLoc d)) ∗ ((xV).view.loc (thrV d L) ↦{Transfers.shareTokN q 2} m (xLoc d)) ∗ ((xV).view.loc (thrV d L) ↦{Transfers.shareTokN q 3} m (xLoc d))
        ∗ semVal ((thrV d L), SemLoc.dma cc0_scratch2.sem) 0 ∗ semVal ((thrV d L), SemLoc.dma cc0_scratch3.sem) 0
        ∗ semVal ((thrV d L), SemLoc.dma cc0_scratch4.sem) 0 ∗ semVal ((thrV d L), SemLoc.dma cc0_scratch5.sem) 0
      ∗ (∃ W', ⌜∀ p ∈ W', p ∈ W ∨ p.2 = none⌝ ∗ owes (thrV d L) O W')
      ∗ (bigSep (Finset.range (2 * ((k + 1) - 1))) (fun p => (oLoc d ↦[pcN (2 * (L 1).val + (L 0).val) p]{fullShare} Gmid m d : sProp 𝕄)))
      ∗ (bigSep (Finset.Ico (2 * (k + 1)) 100) (fun p => (oLoc d ↦[pcN (2 * (L 1).val + (L 0).val) p]{fullShare} m (oLoc d) : sProp 𝕄)))
      ∗ iprop(∃ fw, Transfers.Flight countersEmb (thrV d L) (SemLoc.dma cc0_scratch6.sem) (default : HIx 1) 1048576 iprop((oLoc d ↦[pcN (2 * (L 1).val + (L 0).val) (2 * (k))]{fullShare} Gmid m d) ∗ ((rV).view.loc (thrV d L) ↦[(rH0).view.set]{fullShare} fw)) ∗ Transfers.Flight countersEmb (thrV d L) (SemLoc.dma cc0_scratch8.sem) (default : HIx 1) 1048576 iprop((oLoc d ↦[pcN (2 * (L 1).val + (L 0).val) (2 * (k) + 1)]{fullShare} Gmid m d) ∗ ((rV).view.loc (thrV d L) ↦[(rH1).view.set]{fullShare} fw)) ∗ ((rV).view.loc (thrV d L) ↦[(Finset.univ \ (rH0).view.set) \ (rH1).view.set]{fullShare} fw))) ⊢ Inv m d L O W q fi fr (k + 1) u := by
  unfold Inv; rw [if_neg (Nat.succ_ne_zero k), Nat.add_sub_cancel]

omit [FloatOps F] in
/-- A piece in the program's spelling is the piece by its rows. -/
theorem pc_eq (k : Fin k0_t1_loop.trips) (r : Fin 2) (f : Buf (Elt F) (oLoc d)) :
    (((oPc L k r).view.loc (thrV d L) ↦[(oPc L k r).view.set]{fullShare} f : sProp 𝕄)) = (oLoc d ↦[pcN (2 * (L 1).val + (L 0).val) (2 * k.val + r.val)]{fullShare} f) := by
  rw [set_oPc]

omit [FloatOps F] in
/-- The pieces not yet written, before trip `k`: the two trip `k` writes and the rest. -/
theorem todo_take (k : Fin k0_t1_loop.trips) (f : Buf (Elt F) (oLoc d)) :
    (bigSep (Finset.Ico (2 * k.val) 100) (fun p => (oLoc d ↦[pcN (2 * (L 1).val + (L 0).val) p]{fullShare} f : sProp 𝕄)))
      = iprop(((oPc L k 0).view.loc (thrV d L) ↦[(oPc L k 0).view.set]{fullShare} f) ∗ ((oPc L k 1).view.loc (thrV d L) ↦[(oPc L k 1).view.set]{fullShare} f)
          ∗ bigSep (Finset.Ico (2 * (k.val + 1)) 100) (fun p => (oLoc d ↦[pcN (2 * (L 1).val + (L 0).val) p]{fullShare} f : sProp 𝕄))) := by
  have hk : k.val < 50 := trips_eq ▸ k.isLt
  rw [Ico_take2 (fun p => (oLoc d ↦[pcN (2 * (L 1).val + (L 0).val) p]{fullShare} f : sProp 𝕄)) (2 * k.val) (by omega), pc_eq, pc_eq]
  rfl

omit [FloatOps F] in
/-- The pieces delivered, after the stores of trip `k - 1` have been waited for. -/
theorem done_put (k : ℕ) (hk : 0 < k) (g : Buf (Elt F) (oLoc d)) :
    iprop((bigSep (Finset.range (2 * (k - 1))) (fun p => (oLoc d ↦[pcN (2 * (L 1).val + (L 0).val) p]{fullShare} g : sProp 𝕄))) ∗ (oLoc d ↦[pcN (2 * (L 1).val + (L 0).val) (2 * (k - 1))]{fullShare} g) ∗ (oLoc d ↦[pcN (2 * (L 1).val + (L 0).val) (2 * (k - 1) + 1)]{fullShare} g))
      = (bigSep (Finset.range (2 * (k + 1 - 1))) (fun p => (oLoc d ↦[pcN (2 * (L 1).val + (L 0).val) p]{fullShare} g : sProp 𝕄)) : sProp 𝕄) := by
  rw [show 2 * (k + 1 - 1) = 2 * (k - 1) + 2 by omega, range_succ2 (fun p => (oLoc d ↦[pcN (2 * (L 1).val + (L 0).val) p]{fullShare} g : sProp 𝕄)) (2 * (k - 1))]

set_option maxHeartbeats 2000000 in
/-- One trip takes the invariant to the invariant of the next. -/
theorem region (O : CellTallies nD τ sig (HIx 1)) (W : Waits sig (HIx 1)) (q : PosShare TreeShare) (fi : Buf (Elt F) ((sV).view.loc (thrV d L))) (fr : Buf (Elt F) ((rV).view.loc (thrV d L))) (v2 : BitVec 32)
    (hin : ∀ k : Fin k0_t1_loop.trips, (∀ x, ((offK0 k).view.read (Elt F) fi x).toNat < S100000x128.size gathers_S100000x128_S128x128.axis) ∧ (∀ x, ((offK1 k).view.read (Elt F) fi x).toNat < S100000x128.size gathers_S100000x128_S128x128.axis) ∧ (∀ x, ((offK2 k).view.read (Elt F) fi x).toNat < S100000x128.size gathers_S100000x128_S128x128.axis) ∧ (∀ x, ((offK3 k).view.read (Elt F) fi x).toNat < S100000x128.size gathers_S100000x128_S128x128.axis))
    (hval0 : ∀ (k : Fin k0_t1_loop.trips) (hn : S128.numel = S128x128.size gathers_S100000x128_S128x128.axis') (hin0 : ∀ x, ((offK0 k).view.read (Elt F) fi x).toNat < S100000x128.size gathers_S100000x128_S128x128.axis) (hin1 : ∀ x, ((offK1 k).view.read (Elt F) fi x).toNat < S100000x128.size gathers_S100000x128_S128x128.axis) (hin2 : ∀ x, ((offK2 k).view.read (Elt F) fi x).toNat < S100000x128.size gathers_S100000x128_S128x128.axis) (hin3 : ∀ x, ((offK3 k).view.read (Elt F) fi x).toNat < S100000x128.size gathers_S100000x128_S128x128.axis) (fo : Buf (Elt F) ((oV).view.loc (thrV d L))) (fr : Buf (Elt F) ((rV).view.loc (thrV d L))), ∀ x ∈ (oPc L k 0).view.set, ((oPc L k 0).view.writes (Elt F) fo [⟨Rect.whole S256x128, ReadAs.same.apply ((rH0).view.read (Elt F) ((rV).view.writes (Elt F) fr
          [⟨Rect.unit ![384, 0] S128x128.size inb_S512x128_S128x128_384_0, SparseCore.gatherPayload gathers_S100000x128_S128x128 ((xAllK).view.read (Elt F) (m (xLoc d))) (SparseCore.rows ((offK3 k).view.read (Elt F) fi) hn hin3)⟩,
           ⟨Rect.unit ![256, 0] S128x128.size inb_S512x128_S128x128_256_0, SparseCore.gatherPayload gathers_S100000x128_S128x128 ((xAllK).view.read (Elt F) (m (xLoc d))) (SparseCore.rows ((offK2 k).view.read (Elt F) fi) hn hin2)⟩,
           ⟨Rect.unit ![128, 0] S128x128.size inb_S512x128_S128x128_128_0, SparseCore.gatherPayload gathers_S100000x128_S128x128 ((xAllK).view.read (Elt F) (m (xLoc d))) (SparseCore.rows ((offK1 k).view.read (Elt F) fi) hn hin1)⟩,
           ⟨Rect.unit ![0, 0] S128x128.size inb_S512x128_S128x128_0_0, SparseCore.gatherPayload gathers_S100000x128_S128x128 ((xAllK).view.read (Elt F) (m (xLoc d))) (SparseCore.rows ((offK0 k).view.read (Elt F) fi) hn hin0)⟩]))⟩]) x = Gmid m d x)
    (hval1 : ∀ (k : Fin k0_t1_loop.trips) (hn : S128.numel = S128x128.size gathers_S100000x128_S128x128.axis') (hin0 : ∀ x, ((offK0 k).view.read (Elt F) fi x).toNat < S100000x128.size gathers_S100000x128_S128x128.axis) (hin1 : ∀ x, ((offK1 k).view.read (Elt F) fi x).toNat < S100000x128.size gathers_S100000x128_S128x128.axis) (hin2 : ∀ x, ((offK2 k).view.read (Elt F) fi x).toNat < S100000x128.size gathers_S100000x128_S128x128.axis) (hin3 : ∀ x, ((offK3 k).view.read (Elt F) fi x).toNat < S100000x128.size gathers_S100000x128_S128x128.axis) (fo : Buf (Elt F) ((oV).view.loc (thrV d L))) (fr : Buf (Elt F) ((rV).view.loc (thrV d L))), ∀ x ∈ (oPc L k 1).view.set, ((oPc L k 1).view.writes (Elt F) fo [⟨Rect.whole S256x128, ReadAs.same.apply ((rH1).view.read (Elt F) ((rV).view.writes (Elt F) fr
          [⟨Rect.unit ![384, 0] S128x128.size inb_S512x128_S128x128_384_0, SparseCore.gatherPayload gathers_S100000x128_S128x128 ((xAllK).view.read (Elt F) (m (xLoc d))) (SparseCore.rows ((offK3 k).view.read (Elt F) fi) hn hin3)⟩,
           ⟨Rect.unit ![256, 0] S128x128.size inb_S512x128_S128x128_256_0, SparseCore.gatherPayload gathers_S100000x128_S128x128 ((xAllK).view.read (Elt F) (m (xLoc d))) (SparseCore.rows ((offK2 k).view.read (Elt F) fi) hn hin2)⟩,
           ⟨Rect.unit ![128, 0] S128x128.size inb_S512x128_S128x128_128_0, SparseCore.gatherPayload gathers_S100000x128_S128x128 ((xAllK).view.read (Elt F) (m (xLoc d))) (SparseCore.rows ((offK1 k).view.read (Elt F) fi) hn hin1)⟩,
           ⟨Rect.unit ![0, 0] S128x128.size inb_S512x128_S128x128_0_0, SparseCore.gatherPayload gathers_S100000x128_S128x128 ((xAllK).view.read (Elt F) (m (xLoc d))) (SparseCore.rows ((offK0 k).view.read (Elt F) fi) hn hin0)⟩]))⟩]) x = Gmid m d x) :
    ∀ (k : Fin k0_t1_loop.trips) (acc : Unit), Inv m d L O W q fi fr k.val acc
      ⊢ wp frame (wpE (defs₀ (F := F)) 𝒱₀ (thrV d L) none) Set.univ
          (k0_t1_body L iV (Memref.isWhole_whole _) xV (Memref.isWhole_whole _) oV (Memref.isWhole_whole _)
            sV (Memref.isWhole_whole _) rV (Memref.isWhole_whole _) cc0_scratch2 cc0_scratch3 cc0_scratch4 cc0_scratch5 cc0_scratch6 cc0_scratch7 cc0_scratch8 cc0_scratch9 cc0_scoped0 v2 k acc)
          (Inv m d L O W q fi fr (k.val + 1)) := by
  intro k acc
  obtain ⟨hin0, hin1, hin2, hin3⟩ := hin k
  have hnn : S128.numel = S128x128.size gathers_S100000x128_S128x128.axis' := by decide
  rcases Nat.eq_zero_or_pos k.val with hk | hk
  · obtain ⟨hc1, hc2⟩ := cond_zero k hk
    refine (inv_zero m d L O W q fi fr k.val hk acc).trans ?_
    iintro ⟨#Hmw, Hs, Hx0, Hx1, Hx2, Hx3, Hc0, Hc1, Hc2, Hc3, ⟨%W1, %hW1, HO⟩, Hdone, Htodo, Hr, Hc4, Hc6⟩
    ihave H2 := (Entails.of_eq (todo_take d L k (m (oLoc d)))) $$ Htodo
    icases H2 with ⟨Ho0, Ho1, Htodo⟩
    iapply (wp_wand_r frame (wpE (defs₀ (F := F)) 𝒱₀ (thrV d L) none) Set.univ)
    isplitl [Hs Hx0 Hx1 Hx2 Hx3 Hc0 Hc1 Hc2 Hc3 Hr Ho0 Ho1 Hc4 Hc6 HO]
    · iapply (trip_first m d L k hc1 hc2 O W1 q v2 fi fr (m (oLoc d)) hnn hin0 hin1 hin2 hin3 (hval0 k hnn hin0 hin1 hin2 hin3) (hval1 k hnn hin0 hin1 hin2 hin3))
      isplitr; · iexact Hmw
      isplitl [Hs]; · iexact Hs
      isplitl [Hx0]; · iexact Hx0
      isplitl [Hx1]; · iexact Hx1
      isplitl [Hx2]; · iexact Hx2
      isplitl [Hx3]; · iexact Hx3
      isplitl [Hc0]; · iexact Hc0
      isplitl [Hc1]; · iexact Hc1
      isplitl [Hc2]; · iexact Hc2
      isplitl [Hc3]; · iexact Hc3
      isplitl [Hr]; · iexact Hr
      isplitl [Ho0]; · iexact Ho0
      isplitl [Ho1]; · iexact Ho1
      isplitl [Hc4]; · iexact Hc4
      isplitl [Hc6]; · iexact Hc6
      iexact HO
    · iintro %u ⟨Hs, Hx0, Hx1, Hx2, Hx3, Hc0, Hc1, Hc2, Hc3, Hfl, ⟨%W2, %hW2, HO⟩⟩
      iapply (inv_succ m d L O W q fi fr k.val u)
      isplitr; · iexact Hmw
      isplitl [Hs]; · iexact Hs
      isplitl [Hx0]; · iexact Hx0
      isplitl [Hx1]; · iexact Hx1
      isplitl [Hx2]; · iexact Hx2
      isplitl [Hx3]; · iexact Hx3
      isplitl [Hc0]; · iexact Hc0
      isplitl [Hc1]; · iexact Hc1
      isplitl [Hc2]; · iexact Hc2
      isplitl [Hc3]; · iexact Hc3
      isplitl [HO]
      · iexists W2; isplitr
        · ipureintro; intro p hp; rcases hW2 p hp with h | h
          · exact hW1 p h
          · exact .inr h
        · iexact HO
      isplitl [Hdone]
      · iapply (Entails.of_eq (show (bigSep (Finset.range (2 * (k.val - 1))) (fun p => (oLoc d ↦[pcN (2 * (L 1).val + (L 0).val) p]{fullShare} Gmid m d : sProp 𝕄))) = bigSep (Finset.range (2 * (k.val + 1 - 1))) (fun p => (oLoc d ↦[pcN (2 * (L 1).val + (L 0).val) p]{fullShare} Gmid m d : sProp 𝕄)) by
          rw [show 2 * (k.val + 1 - 1) = 2 * (k.val - 1) by omega]))
        iexact Hdone
      isplitl [Htodo]; · iexact Htodo
      iexact Hfl
  · obtain ⟨hc1, hc2⟩ := cond_pos k hk
    refine (inv_pos m d L O W q fi fr k.val hk acc).trans ?_
    iintro ⟨#Hmw, Hs, Hx0, Hx1, Hx2, Hx3, Hc0, Hc1, Hc2, Hc3, ⟨%W1, %hW1, HO⟩, Hdone, Htodo, ⟨%fw, Hfa, Hfb, Hrest⟩⟩
    ihave H2 := (Entails.of_eq (todo_take d L k (m (oLoc d)))) $$ Htodo
    icases H2 with ⟨Ho0, Ho1, Htodo⟩
    iapply (wp_wand_r frame (wpE (defs₀ (F := F)) 𝒱₀ (thrV d L) none) Set.univ)
    isplitl [Hs Hx0 Hx1 Hx2 Hx3 Hc0 Hc1 Hc2 Hc3 Hfa Hfb Hrest Ho0 Ho1 HO]
    · iapply (trip_next m d L k hc1 hc2 O W1 q v2 fi fw (m (oLoc d)) (2 * (k.val - 1)) (2 * (k.val - 1) + 1) hnn hin0 hin1 hin2 hin3 (hval0 k hnn hin0 hin1 hin2 hin3) (hval1 k hnn hin0 hin1 hin2 hin3))
      isplitr; · iexact Hmw
      isplitl [Hs]; · iexact Hs
      isplitl [Hx0]; · iexact Hx0
      isplitl [Hx1]; · iexact Hx1
      isplitl [Hx2]; · iexact Hx2
      isplitl [Hx3]; · iexact Hx3
      isplitl [Hc0]; · iexact Hc0
      isplitl [Hc1]; · iexact Hc1
      isplitl [Hc2]; · iexact Hc2
      isplitl [Hc3]; · iexact Hc3
      isplitl [Hfa]; · iexact Hfa
      isplitl [Hfb]; · iexact Hfb
      isplitl [Hrest]; · iexact Hrest
      isplitl [Ho0]; · iexact Ho0
      isplitl [Ho1]; · iexact Ho1
      iexact HO
    · iintro %u ⟨Hs, Hx0, Hx1, Hx2, Hx3, Hc0, Hc1, Hc2, Hc3, Hfl, ⟨%W2, %hW2, HO⟩, Hda, Hdb⟩
      iapply (inv_succ m d L O W q fi fr k.val u)
      isplitr; · iexact Hmw
      isplitl [Hs]; · iexact Hs
      isplitl [Hx0]; · iexact Hx0
      isplitl [Hx1]; · iexact Hx1
      isplitl [Hx2]; · iexact Hx2
      isplitl [Hx3]; · iexact Hx3
      isplitl [Hc0]; · iexact Hc0
      isplitl [Hc1]; · iexact Hc1
      isplitl [Hc2]; · iexact Hc2
      isplitl [Hc3]; · iexact Hc3
      isplitl [HO]
      · iexists W2; isplitr
        · ipureintro; intro p hp; rcases hW2 p hp with h | h
          · exact hW1 p h
          · exact .inr h
        · iexact HO
      isplitl [Hdone Hda Hdb]
      · iapply (Entails.of_eq (done_put d L k.val hk (Gmid m d)))
        isplitl [Hdone]; · iexact Hdone
        isplitl [Hda]; · iexact Hda
        iexact Hdb
      isplitl [Htodo]; · iexact Htodo
      iexact Hfl

end Tile

end Cert.Proof.KI

end
-- ==== Proof.KI.Value.lean ====
/-
  The value of one 256-row piece of the output as a tile leaves it.

  In trip k the tile's four gathers read rows 4k, 4k+1, 4k+2, 4k+3 of its index words (row w of the index array
  seen as 32 × 200 × 128, w the tile's worker number) and fill the four 128-row quarters of its row scratch: row
  128·b + i of the scratch is the table's row named by word (4k+b, i). Half r of the scratch (rows 256·r …) is then
  copied to rows 25600·w + 512·k + 256·r … of the 819200 × 128 array. Row 25600·w + 512·k + z of that array should
  be the table's row named by the index word at row-major position 25600·w + 512·k + z of the index array, and
  word (w, 4k+b, i) of the 32 × 200 × 128 arrangement sits at row-major position (200·w + 4k + b)·128 + i, which is
  that position for z = 128·b + i.
-/
import proofs.«207032_g58884001628331_cont_9to1_m_206_11_alg».proof.Proof.KI.Glue
import Idealize.ShloMosaic.Lib.Pipeline.Value
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.ValueIdx

variable {F : FTy → Type}

variable (m : (ℓ : Loc nD τ sig) → Buf (Elt F) ℓ)

local notation "iV" => (Memref.whole Cert.KernelIdeal.main_v0_scv : Memref Cert.KernelIdeal.sig Kind.scVector Space.hbm Cert.KernelIdeal.S32x200x128 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S819200x128 EltTy.f32)
local notation "sV" => (Memref.whole Cert.KernelIdeal.cc0_scratch0 : Memref Cert.KernelIdeal.sig Kind.scVector Space.vmem Cert.KernelIdeal.S200x128 EltTy.i32)
local notation "rV" => (Memref.whole Cert.KernelIdeal.cc0_scratch1 : Memref Cert.KernelIdeal.sig Kind.scVector Space.vmem Cert.KernelIdeal.S512x128 EltTy.f32)

variable [FloatOps F]

section Tile

variable (d : Dev nD) (L : grid0.Coords)

/-- There are fifty trips. -/
theorem trips_le : k0_t1_loop.trips ≤ 50 := k0_t1_abs.2.1

/-! ## A row of the tile's index words, as a gather's list reads it -/

/-- Row `4k + b` of the index scratch, squeezed to a vector, reads word `(4k + b, i)` at `i`. -/
theorem off_read (k : Fin k0_t1_loop.trips) (b : Fin 4) (fi : Buf (Elt F) ((sV).view.loc (thrV d L))) (x : S128.Idx) :
    (((sV).slice (Rect.unit (s := S200x128) (k0_off3 k (BitVec.ofNat 32 b.val)) S1x128.size (k0_off3_inb k b)) (fun _ => rfl)).squeeze S128
        squeezes_S1x128_S128).view.read (Elt F) fi x
      = fi (ix2 (⟨4 * k.val + b.val, by have := k.isLt; have := trips_le; have := b.isLt; omega⟩ : Fin 200) (x 0)) := by
  have hre := Shape.reshapeEquiv_cons_one (n := 1) (d := ![128]) squeezes_S1x128_S128.numel_eq x
  have e0 : k0_off3 k (BitVec.ofNat 32 b.val) 0 = 4 * k.val + b.val := by rw [k0_off3_eq k b]; rfl
  have e1 : k0_off3 k (BitVec.ofNat 32 b.val) 1 = 0 := by rw [k0_off3_eq k b]; rfl
  have r0 : ((Shape.reshapeEquiv squeezes_S1x128_S128.numel_eq x) 0).val = 0 := by rw [hre]; rfl
  have r1 : ((Shape.reshapeEquiv squeezes_S1x128_S128.numel_eq x) 1).val = (x 0).val := by rw [hre]; rfl
  rw [View.read_apply]
  show fi _ = fi _
  refine congrArg fi (funext fun a => Fin.ext ?_)
  match a with
  | ⟨0, _⟩ =>
    show k0_off3 k (BitVec.ofNat 32 b.val) 0 + 1 * ((Shape.reshapeEquiv squeezes_S1x128_S128.numel_eq x) 0).val = 4 * k.val + b.val
    omega
  | ⟨1, _⟩ =>
    show k0_off3 k (BitVec.ofNat 32 b.val) 1 + 1 * ((Shape.reshapeEquiv squeezes_S1x128_S128.numel_eq x) 1).val = (x 0).val
    omega

theorem offK0_read (k : Fin k0_t1_loop.trips) (fi : Buf (Elt F) ((sV).view.loc (thrV d L))) (x : S128.Idx) :
    (offK0 k).view.read (Elt F) fi x
      = fi (ix2 (⟨4 * k.val + 0, by have := k.isLt; have := trips_le; omega⟩ : Fin 200) (x 0)) := off_read d L k 0 fi x
theorem offK1_read (k : Fin k0_t1_loop.trips) (fi : Buf (Elt F) ((sV).view.loc (thrV d L))) (x : S128.Idx) :
    (offK1 k).view.read (Elt F) fi x
      = fi (ix2 (⟨4 * k.val + 1, by have := k.isLt; have := trips_le; omega⟩ : Fin 200) (x 0)) := off_read d L k 1 fi x
theorem offK2_read (k : Fin k0_t1_loop.trips) (fi : Buf (Elt F) ((sV).view.loc (thrV d L))) (x : S128.Idx) :
    (offK2 k).view.read (Elt F) fi x
      = fi (ix2 (⟨4 * k.val + 2, by have := k.isLt; have := trips_le; omega⟩ : Fin 200) (x 0)) := off_read d L k 2 fi x
theorem offK3_read (k : Fin k0_t1_loop.trips) (fi : Buf (Elt F) ((sV).view.loc (thrV d L))) (x : S128.Idx) :
    (offK3 k).view.read (Elt F) fi x
      = fi (ix2 (⟨4 * k.val + 3, by have := k.isLt; have := trips_le; omega⟩ : Fin 200) (x 0)) := off_read d L k 3 fi x

/-! ## The index words -/

/-- Every index word names a row of the table, under the 32 × 200 × 128 arrangement too. -/
theorem idx3_lt (hpre : PreOK m) (z : S32x200x128.Idx) : (idx3 m d z).toNat < 100000 := hpre d _

/-- Word `(w, j, l)` of the 32 × 200 × 128 arrangement is the word at row-major position `(200·w + j)·128 + l`. -/
theorem word_eq (w : Fin 32) (j : Fin 200) (l : Fin 128) (R : Fin 819200) (hR : R.val = (200 * w.val + j.val) * 128 + l.val) :
    idx3 m d (ix3 w j l) = shapeCast Cert.Spec.SFlat (m (aLoc d)) Cert.Spec.casts_flat (ix1 R) := by
  unfold idx3 shapeCast
  refine congrArg (m (aLoc d)) (Shape.reshapeEquiv_eq_of_rowMajor _ ?_)
  rw [Shape.rowMajor_reshapeEquiv, Shape.rowMajor_val_three, Shape.rowMajor_val_one]
  show R.val = ((w.val * 200 + j.val) * 128 + l.val)
  omega

/-! ## One gather's payload at an index -/

/-- All of the table, read through the task's whole-array slice, is the table. -/
theorem xAll_read (tab : Buf (Elt F) ((xV).view.loc (thrV d L))) : (xAllK).view.read (Elt F) tab = tab := by
  funext i
  rw [View.read_apply]
  show tab _ = tab i
  refine congrArg tab (funext fun a => Fin.ext ?_)
  match a with
  | ⟨0, _⟩ => show 0 + 1 * (i 0).val = (i 0).val; omega
  | ⟨1, _⟩ => show 0 + 1 * (i 1).val = (i 1).val; omega

/-- Position `q` of a 128-vector in row-major order is index `q`. -/
theorem rowMajor_symm_S128 (q : Fin S128.numel) (hq : q.val < 128) : S128.rowMajor.symm q = ix1 (⟨q.val, hq⟩ : Fin 128) :=
  (Equiv.symm_apply_eq _).2 (Fin.ext (by rw [Shape.rowMajor_val_one]))

/-- The payload of a gather of 128 rows at row `i`, column `c`: the source at the row the list's word `i` names, column `c`. -/
theorem payload_apply (g : S100000x128.Idx → Elt F .f32) (idx : S128.Idx → Elt F .i32)
    (hn : S128.numel = S128x128.size gathers_S100000x128_S128x128.axis')
    (hin : ∀ x, (idx x).toNat < S100000x128.size gathers_S100000x128_S128x128.axis) (x' : S128x128.Idx) :
    SparseCore.gatherPayload gathers_S100000x128_S128x128 g (SparseCore.rows idx hn hin) x'
      = g (ix2 (⟨(idx (ix1 (x' 0))).toNat, hin _⟩ : Fin 100000) (x' 1)) := by
  unfold SparseCore.gatherPayload
  refine congrArg g (funext fun a => Fin.ext ?_)
  match a with
  | ⟨0, _⟩ =>
    show ((SparseCore.rows idx hn hin (x' 0)) : Fin _).val = (idx (ix1 (x' 0))).toNat
    unfold SparseCore.rows
    show (idx (S128.rowMajor.symm _)).toNat = _
    exact congrArg (fun j => (idx j).toNat) (rowMajor_symm_S128 _ (x' 0).isLt)
  | ⟨1, _⟩ => rfl

/-! ## The tile's list words are its row of the index words -/

/-- The tile's index scratch holds row `w` of the index words, `w` its worker number. -/
abbrev Hfi (fi : Buf (Elt F) ((sV).view.loc (thrV d L))) : Prop :=
  ∀ (j : Fin 200) (l : Fin 128), fi (ix2 j l) = idx3 m d (ix3 (⟨2 * (L 1).val + (L 0).val, wid_lt L⟩ : Fin 32) j l)

/-- Word `i` of the list gather `b` of trip `k` reads is index word `(w, 4k + b, i)`. -/
theorem off_word (fi : Buf (Elt F) ((sV).view.loc (thrV d L))) (hfi : Hfi m d L fi) (k : Fin k0_t1_loop.trips) (b : Fin 4) (x : S128.Idx) :
    (((sV).slice (Rect.unit (s := S200x128) (k0_off3 k (BitVec.ofNat 32 b.val)) S1x128.size (k0_off3_inb k b)) (fun _ => rfl)).squeeze S128
        squeezes_S1x128_S128).view.read (Elt F) fi x
      = idx3 m d (ix3 (⟨2 * (L 1).val + (L 0).val, wid_lt L⟩ : Fin 32)
          (⟨4 * k.val + b.val, by have := k.isLt; have := trips_le; have := b.isLt; omega⟩ : Fin 200) (x 0)) :=
  (off_read d L k b fi x).trans (hfi _ _)

/-- Every word a gather's list reads names a row of the table. -/
theorem hin_ok (hpre : PreOK m) (fi : Buf (Elt F) ((sV).view.loc (thrV d L))) (hfi : Hfi m d L fi) (k : Fin k0_t1_loop.trips) :
    (∀ x, ((offK0 k).view.read (Elt F) fi x).toNat < S100000x128.size gathers_S100000x128_S128x128.axis)
    ∧ (∀ x, ((offK1 k).view.read (Elt F) fi x).toNat < S100000x128.size gathers_S100000x128_S128x128.axis)
    ∧ (∀ x, ((offK2 k).view.read (Elt F) fi x).toNat < S100000x128.size gathers_S100000x128_S128x128.axis)
    ∧ (∀ x, ((offK3 k).view.read (Elt F) fi x).toNat < S100000x128.size gathers_S100000x128_S128x128.axis) :=
  ⟨fun x => by rw [show (offK0 k).view.read (Elt F) fi x = _ from off_word m d L fi hfi k 0 x]; exact idx3_lt m d hpre _,
   fun x => by rw [show (offK1 k).view.read (Elt F) fi x = _ from off_word m d L fi hfi k 1 x]; exact idx3_lt m d hpre _,
   fun x => by rw [show (offK2 k).view.read (Elt F) fi x = _ from off_word m d L fi hfi k 2 x]; exact idx3_lt m d hpre _,
   fun x => by rw [show (offK3 k).view.read (Elt F) fi x = _ from off_word m d L fi hfi k 3 x]; exact idx3_lt m d hpre _⟩

/-! ## The row scratch after a trip's four gathers -/

/-- What the row scratch holds after trip `k`'s gathers: row `z` is the gathered row for output row
    `25600·w + 512·k + z`. -/
def Grow (k : Fin k0_t1_loop.trips) : S512x128.Idx → Elt F .f32 := fun z =>
  Gmid m d (ix2 (⟨(25600 * (2 * (L 1).val + (L 0).val) + 512 * k.val + (z 0).val) % 819200, Nat.mod_lt _ (by norm_num)⟩ : Fin 819200) (z 1))

/-- Quarter `b` of the row scratch, as gather `b` of trip `k` fills it, is that function on the quarter. -/
theorem piece_eq (hpre : PreOK m) (fi : Buf (Elt F) ((sV).view.loc (thrV d L))) (hfi : Hfi m d L fi) (k : Fin k0_t1_loop.trips) (b : Fin 4)
    (off : Fin 2 → Nat) (inb : ∀ a, off a + S128x128.size a ≤ S512x128.size a) (h0 : off 0 = 128 * b.val) (h1 : off 1 = 0)
    (hn : S128.numel = S128x128.size gathers_S100000x128_S128x128.axis')
    (hin : ∀ x, ((((sV).slice (Rect.unit (s := S200x128) (k0_off3 k (BitVec.ofNat 32 b.val)) S1x128.size (k0_off3_inb k b)) (fun _ => rfl)).squeeze S128
        squeezes_S1x128_S128).view.read (Elt F) fi x).toNat < S100000x128.size gathers_S100000x128_S128x128.axis)
    (x' : S128x128.Idx) :
    SparseCore.gatherPayload gathers_S100000x128_S128x128 ((xAllK).view.read (Elt F) (m (xLoc d)))
        (SparseCore.rows ((((sV).slice (Rect.unit (s := S200x128) (k0_off3 k (BitVec.ofNat 32 b.val)) S1x128.size (k0_off3_inb k b)) (fun _ => rfl)).squeeze S128
          squeezes_S1x128_S128).view.read (Elt F) fi) hn hin) x'
      = Grow m d L k ((Rect.unit (s := S512x128) off S128x128.size inb).emb x') := by
  rw [payload_apply, xAll_read d L (m (xLoc d))]
  unfold Grow Gmid Cert.Spec.mid
  refine congrArg (m (xLoc d)) (funext fun a => Fin.ext ?_)
  match a with
  | ⟨0, _⟩ =>
    have hx0 : (x' 0).val < 128 := (x' 0).isLt
    have hk := k.isLt
    have htr := trips_le
    have hb := b.isLt
    have hw := wid_lt L
    have hR : ((25600 * (2 * (L 1).val + (L 0).val) + 512 * k.val + (off 0 + 1 * (x' 0).val)) % 819200)
        = (200 * (2 * (L 1).val + (L 0).val) + (4 * k.val + b.val)) * 128 + (x' 0).val := by omega
    have e1 := off_word m d L fi hfi k b (ix1 (x' 0))
    have e2 := word_eq m d (⟨2 * (L 1).val + (L 0).val, wid_lt L⟩ : Fin 32)
      (⟨4 * k.val + b.val, by omega⟩ : Fin 200) (x' 0)
      (⟨(25600 * (2 * (L 1).val + (L 0).val) + 512 * k.val + (off 0 + 1 * (x' 0).val)) % 819200, Nat.mod_lt _ (by norm_num)⟩ : Fin 819200) hR
    have e3 := congrArg BitVec.toNat (e1.trans e2)
    exact e3.trans (Nat.mod_eq_of_lt (hpre d _)).symm
  | ⟨1, _⟩ =>
    show (x' 1).val = off 1 + 1 * (x' 1).val
    omega

/-! ## A half of the row scratch, copied out -/

omit [FloatOps F] in
/-- Four writes, one per quarter of the row scratch, each agreeing with one function `G` of the scratch's shape on
    its quarter, leave `G` at every row, whatever the scratch held before. -/
theorem quarters_read (G : S512x128.Idx → Elt F .f32) (fr : Buf (Elt F) ((rV).view.loc (thrV d L)))
    (g0 g1 g2 g3 : S128x128.Idx → Elt F .f32)
    (h0 : ∀ x', g0 x' = G ((Rect.unit (s := S512x128) ![0, 0] S128x128.size inb_S512x128_S128x128_0_0).emb x'))
    (h1 : ∀ x', g1 x' = G ((Rect.unit (s := S512x128) ![128, 0] S128x128.size inb_S512x128_S128x128_128_0).emb x'))
    (h2 : ∀ x', g2 x' = G ((Rect.unit (s := S512x128) ![256, 0] S128x128.size inb_S512x128_S128x128_256_0).emb x'))
    (h3 : ∀ x', g3 x' = G ((Rect.unit (s := S512x128) ![384, 0] S128x128.size inb_S512x128_S128x128_384_0).emb x'))
    (z : S512x128.Idx) :
    (rV).view.read (Elt F) ((rV).view.writes (Elt F) fr
        [⟨Rect.unit (s := S512x128) ![384, 0] S128x128.size inb_S512x128_S128x128_384_0, g3⟩, ⟨Rect.unit (s := S512x128) ![256, 0] S128x128.size inb_S512x128_S128x128_256_0, g2⟩, ⟨Rect.unit (s := S512x128) ![128, 0] S128x128.size inb_S512x128_S128x128_128_0, g1⟩, ⟨Rect.unit (s := S512x128) ![0, 0] S128x128.size inb_S512x128_S128x128_0_0, g0⟩]) z = G z := by
  refine View.read_writes_apply_of_pieces (rV).view fr G _ ?_ z ?_
  · intro p hp
    simp only [List.mem_cons, List.not_mem_nil, or_false] at hp
    rcases hp with rfl | rfl | rfl | rfl
    · exact h3
    · exact h2
    · exact h1
    · exact h0
  · have hz0 : (z 0).val < 512 := (z 0).isLt
    have hz1 : (z 1).val < 128 := (z 1).isLt
    by_cases c1 : (z 0).val < 128
    · exact ⟨⟨Rect.unit (s := S512x128) ![0, 0] S128x128.size inb_S512x128_S128x128_0_0, g0⟩, List.mem_cons_of_mem _ (List.mem_cons_of_mem _ (List.mem_cons_of_mem _ List.mem_cons_self)), (Rect.mem_set_unit (inb := inb_S512x128_S128x128_0_0)).mpr (Fin.forall_fin_two.mpr
        ⟨⟨by show 0 ≤ (z 0).val; omega, by show (z 0).val < 0 + 128; omega⟩, ⟨Nat.zero_le _, by show (z 1).val < 0 + 128; omega⟩⟩)⟩
    by_cases c2 : (z 0).val < 256
    · exact ⟨⟨Rect.unit (s := S512x128) ![128, 0] S128x128.size inb_S512x128_S128x128_128_0, g1⟩, List.mem_cons_of_mem _ (List.mem_cons_of_mem _ List.mem_cons_self), (Rect.mem_set_unit (inb := inb_S512x128_S128x128_128_0)).mpr (Fin.forall_fin_two.mpr
        ⟨⟨by show 128 ≤ (z 0).val; omega, by show (z 0).val < 128 + 128; omega⟩, ⟨Nat.zero_le _, by show (z 1).val < 0 + 128; omega⟩⟩)⟩
    by_cases c3 : (z 0).val < 384
    · exact ⟨⟨Rect.unit (s := S512x128) ![256, 0] S128x128.size inb_S512x128_S128x128_256_0, g2⟩, List.mem_cons_of_mem _ List.mem_cons_self, (Rect.mem_set_unit (inb := inb_S512x128_S128x128_256_0)).mpr (Fin.forall_fin_two.mpr
        ⟨⟨by show 256 ≤ (z 0).val; omega, by show (z 0).val < 256 + 128; omega⟩, ⟨Nat.zero_le _, by show (z 1).val < 0 + 128; omega⟩⟩)⟩
    · exact ⟨⟨Rect.unit (s := S512x128) ![384, 0] S128x128.size inb_S512x128_S128x128_384_0, g3⟩, List.mem_cons_self, (Rect.mem_set_unit (inb := inb_S512x128_S128x128_384_0)).mpr (Fin.forall_fin_two.mpr
        ⟨⟨by show 384 ≤ (z 0).val; omega, by show (z 0).val < 384 + 128; omega⟩, ⟨Nat.zero_le _, by show (z 1).val < 0 + 128; omega⟩⟩)⟩

/-- After trip `k`'s four gathers every row of the row scratch is the gathered row of its output row, whatever the
    scratch held before. -/
theorem scratch_read (hpre : PreOK m) (fi : Buf (Elt F) ((sV).view.loc (thrV d L))) (hfi : Hfi m d L fi) (k : Fin k0_t1_loop.trips)
    (fr : Buf (Elt F) ((rV).view.loc (thrV d L)))
    (hn : S128.numel = S128x128.size gathers_S100000x128_S128x128.axis')
    (hin0 : ∀ x, ((offK0 k).view.read (Elt F) fi x).toNat < S100000x128.size gathers_S100000x128_S128x128.axis)
    (hin1 : ∀ x, ((offK1 k).view.read (Elt F) fi x).toNat < S100000x128.size gathers_S100000x128_S128x128.axis)
    (hin2 : ∀ x, ((offK2 k).view.read (Elt F) fi x).toNat < S100000x128.size gathers_S100000x128_S128x128.axis)
    (hin3 : ∀ x, ((offK3 k).view.read (Elt F) fi x).toNat < S100000x128.size gathers_S100000x128_S128x128.axis)
    (z : S512x128.Idx) :
    (rV).view.read (Elt F) ((rV).view.writes (Elt F) fr
          [⟨Rect.unit ![384, 0] S128x128.size inb_S512x128_S128x128_384_0, SparseCore.gatherPayload gathers_S100000x128_S128x128 ((xAllK).view.read (Elt F) (m (xLoc d))) (SparseCore.rows ((offK3 k).view.read (Elt F) fi) hn hin3)⟩,
           ⟨Rect.unit ![256, 0] S128x128.size inb_S512x128_S128x128_256_0, SparseCore.gatherPayload gathers_S100000x128_S128x128 ((xAllK).view.read (Elt F) (m (xLoc d))) (SparseCore.rows ((offK2 k).view.read (Elt F) fi) hn hin2)⟩,
           ⟨Rect.unit ![128, 0] S128x128.size inb_S512x128_S128x128_128_0, SparseCore.gatherPayload gathers_S100000x128_S128x128 ((xAllK).view.read (Elt F) (m (xLoc d))) (SparseCore.rows ((offK1 k).view.read (Elt F) fi) hn hin1)⟩,
           ⟨Rect.unit ![0, 0] S128x128.size inb_S512x128_S128x128_0_0, SparseCore.gatherPayload gathers_S100000x128_S128x128 ((xAllK).view.read (Elt F) (m (xLoc d))) (SparseCore.rows ((offK0 k).view.read (Elt F) fi) hn hin0)⟩]) z
      = Grow m d L k z :=
  quarters_read d L (Grow m d L k) fr _ _ _ _
    (fun x' => piece_eq m d L hpre fi hfi k 0 ![0, 0] inb_S512x128_S128x128_0_0 rfl rfl hn hin0 x')
    (fun x' => piece_eq m d L hpre fi hfi k 1 ![128, 0] inb_S512x128_S128x128_128_0 rfl rfl hn hin1 x')
    (fun x' => piece_eq m d L hpre fi hfi k 2 ![256, 0] inb_S512x128_S128x128_256_0 rfl rfl hn hin2 x')
    (fun x' => piece_eq m d L hpre fi hfi k 3 ![384, 0] inb_S512x128_S128x128_384_0 rfl rfl hn hin3 x') z

/-- A 256-row piece of the output, written whole with a half of the row scratch read after trip `k`'s four gathers,
    holds the gathered rows: the half at rows `256·r …` of the scratch lands on rows `25600·w + 512·k + 256·r …`. -/
theorem val_piece (hpre : PreOK m) (fi : Buf (Elt F) ((sV).view.loc (thrV d L))) (hfi : Hfi m d L fi) (k : Fin k0_t1_loop.trips) (r : Fin 2)
    (offH : Fin 2 → Nat) (inbH : ∀ a, offH a + S256x128.size a ≤ S512x128.size a) (hH0 : offH 0 = 256 * r.val) (hH1 : offH 1 = 0)
    (fo : Buf (Elt F) ((oV).view.loc (thrV d L))) (fr : Buf (Elt F) ((rV).view.loc (thrV d L)))
    (hn : S128.numel = S128x128.size gathers_S100000x128_S128x128.axis')
    (hin0 : ∀ x, ((offK0 k).view.read (Elt F) fi x).toNat < S100000x128.size gathers_S100000x128_S128x128.axis)
    (hin1 : ∀ x, ((offK1 k).view.read (Elt F) fi x).toNat < S100000x128.size gathers_S100000x128_S128x128.axis)
    (hin2 : ∀ x, ((offK2 k).view.read (Elt F) fi x).toNat < S100000x128.size gathers_S100000x128_S128x128.axis)
    (hin3 : ∀ x, ((offK3 k).view.read (Elt F) fi x).toNat < S100000x128.size gathers_S100000x128_S128x128.axis) :
    ∀ x ∈ (oPc L k r).view.set,
      (oPc L k r).view.writes (Elt F) fo [⟨Rect.whole S256x128, ReadAs.same.apply (((rV).slice (Rect.unit (s := S512x128) offH S256x128.size inbH) (fun _ => rfl)).view.read (Elt F) ((rV).view.writes (Elt F) fr
          [⟨Rect.unit ![384, 0] S128x128.size inb_S512x128_S128x128_384_0, SparseCore.gatherPayload gathers_S100000x128_S128x128 ((xAllK).view.read (Elt F) (m (xLoc d))) (SparseCore.rows ((offK3 k).view.read (Elt F) fi) hn hin3)⟩,
           ⟨Rect.unit ![256, 0] S128x128.size inb_S512x128_S128x128_256_0, SparseCore.gatherPayload gathers_S100000x128_S128x128 ((xAllK).view.read (Elt F) (m (xLoc d))) (SparseCore.rows ((offK2 k).view.read (Elt F) fi) hn hin2)⟩,
           ⟨Rect.unit ![128, 0] S128x128.size inb_S512x128_S128x128_128_0, SparseCore.gatherPayload gathers_S100000x128_S128x128 ((xAllK).view.read (Elt F) (m (xLoc d))) (SparseCore.rows ((offK1 k).view.read (Elt F) fi) hn hin1)⟩,
           ⟨Rect.unit ![0, 0] S128x128.size inb_S512x128_S128x128_0_0, SparseCore.gatherPayload gathers_S100000x128_S128x128 ((xAllK).view.read (Elt F) (m (xLoc d))) (SparseCore.rows ((offK0 k).view.read (Elt F) fi) hn hin0)⟩]))⟩] x = Gmid m d x := by
  intro x hx
  obtain ⟨y, -, rfl⟩ := Finset.mem_map.mp hx
  rw [View.writes_singleton]
  have hw := View.write_emb_of_mem (v := (oPc L k r).view.slice (Rect.whole S256x128)) (Val := Elt F) fo
    (ReadAs.same.apply (((rV).slice (Rect.unit (s := S512x128) offH S256x128.size inbH) (fun _ => rfl)).view.read (Elt F) ((rV).view.writes (Elt F) fr
          [⟨Rect.unit ![384, 0] S128x128.size inb_S512x128_S128x128_384_0, SparseCore.gatherPayload gathers_S100000x128_S128x128 ((xAllK).view.read (Elt F) (m (xLoc d))) (SparseCore.rows ((offK3 k).view.read (Elt F) fi) hn hin3)⟩,
           ⟨Rect.unit ![256, 0] S128x128.size inb_S512x128_S128x128_256_0, SparseCore.gatherPayload gathers_S100000x128_S128x128 ((xAllK).view.read (Elt F) (m (xLoc d))) (SparseCore.rows ((offK2 k).view.read (Elt F) fi) hn hin2)⟩,
           ⟨Rect.unit ![128, 0] S128x128.size inb_S512x128_S128x128_128_0, SparseCore.gatherPayload gathers_S100000x128_S128x128 ((xAllK).view.read (Elt F) (m (xLoc d))) (SparseCore.rows ((offK1 k).view.read (Elt F) fi) hn hin1)⟩,
           ⟨Rect.unit ![0, 0] S128x128.size inb_S512x128_S128x128_0_0, SparseCore.gatherPayload gathers_S100000x128_S128x128 ((xAllK).view.read (Elt F) (m (xLoc d))) (SparseCore.rows ((offK0 k).view.read (Elt F) fi) hn hin0)⟩])))
    (M := Finset.univ) (x := y) (Finset.mem_univ _)
  rw [show ((oPc L k r).view.slice (Rect.whole S256x128)).emb y = (oPc L k r).view.emb y from
    congrArg (oPc L k r).view.emb (Rect.emb_whole_apply S256x128 y)] at hw
  refine hw.trans ?_
  refine (cast_eq _ _).trans ?_
  show (rV).view.read (Elt F) _ ((Rect.unit (s := S512x128) offH S256x128.size inbH).emb y) = _
  rw [scratch_read m d L hpre fi hfi k fr hn hin0 hin1 hin2 hin3]
  unfold Grow
  refine congrArg (Gmid m d) (funext fun a => Fin.ext ?_)
  have hy0 : (y 0).val < 256 := (y 0).isLt
  have hk := k.isLt
  have htr := trips_le
  have hr := r.isLt
  have hL1 : (L 1).val < 16 := (L 1).isLt
  have hL0 : (L 0).val < 2 := (L 0).isLt
  have e5 := k0_off5_eq L k r
  match a with
  | ⟨0, _⟩ =>
    show (25600 * (2 * (L 1).val + (L 0).val) + 512 * k.val + (offH 0 + 1 * (y 0).val)) % 819200
        = (k0_off5 L k (BitVec.ofNat 32 (1 + 2 * r.val))) 0 + 1 * (y 0).val
    rw [e5]
    show _ = (51200 * (L 1).val + 25600 * (L 0).val + 512 * k.val + 256 * r.val) + 1 * (y 0).val
    omega
  | ⟨1, _⟩ =>
    show offH 1 + 1 * (y 1).val = (k0_off5 L k (BitVec.ofNat 32 (1 + 2 * r.val))) 1 + 1 * (y 1).val
    rw [e5]
    show _ = 0 + 1 * (y 1).val
    omega

/-- The first piece of trip `k`: the scratch's rows 0 … 255. -/
theorem val_piece0 (hpre : PreOK m) (fi : Buf (Elt F) ((sV).view.loc (thrV d L))) (hfi : Hfi m d L fi) (k : Fin k0_t1_loop.trips)
    (fo : Buf (Elt F) ((oV).view.loc (thrV d L))) (fr : Buf (Elt F) ((rV).view.loc (thrV d L)))
    (hn : S128.numel = S128x128.size gathers_S100000x128_S128x128.axis')
    (hin0 : ∀ x, ((offK0 k).view.read (Elt F) fi x).toNat < S100000x128.size gathers_S100000x128_S128x128.axis)
    (hin1 : ∀ x, ((offK1 k).view.read (Elt F) fi x).toNat < S100000x128.size gathers_S100000x128_S128x128.axis)
    (hin2 : ∀ x, ((offK2 k).view.read (Elt F) fi x).toNat < S100000x128.size gathers_S100000x128_S128x128.axis)
    (hin3 : ∀ x, ((offK3 k).view.read (Elt F) fi x).toNat < S100000x128.size gathers_S100000x128_S128x128.axis) :
    ∀ x ∈ (oPc L k 0).view.set,
      (oPc L k 0).view.writes (Elt F) fo [⟨Rect.whole S256x128, ReadAs.same.apply ((rH0).view.read (Elt F) ((rV).view.writes (Elt F) fr
          [⟨Rect.unit ![384, 0] S128x128.size inb_S512x128_S128x128_384_0, SparseCore.gatherPayload gathers_S100000x128_S128x128 ((xAllK).view.read (Elt F) (m (xLoc d))) (SparseCore.rows ((offK3 k).view.read (Elt F) fi) hn hin3)⟩,
           ⟨Rect.unit ![256, 0] S128x128.size inb_S512x128_S128x128_256_0, SparseCore.gatherPayload gathers_S100000x128_S128x128 ((xAllK).view.read (Elt F) (m (xLoc d))) (SparseCore.rows ((offK2 k).view.read (Elt F) fi) hn hin2)⟩,
           ⟨Rect.unit ![128, 0] S128x128.size inb_S512x128_S128x128_128_0, SparseCore.gatherPayload gathers_S100000x128_S128x128 ((xAllK).view.read (Elt F) (m (xLoc d))) (SparseCore.rows ((offK1 k).view.read (Elt F) fi) hn hin1)⟩,
           ⟨Rect.unit ![0, 0] S128x128.size inb_S512x128_S128x128_0_0, SparseCore.gatherPayload gathers_S100000x128_S128x128 ((xAllK).view.read (Elt F) (m (xLoc d))) (SparseCore.rows ((offK0 k).view.read (Elt F) fi) hn hin0)⟩]))⟩] x = Gmid m d x :=
  val_piece m d L hpre fi hfi k 0 ![0, 0] inb_S512x128_S256x128_0_0 rfl rfl fo fr hn hin0 hin1 hin2 hin3

/-- The second piece of trip `k`: the scratch's rows 256 … 511. -/
theorem val_piece1 (hpre : PreOK m) (fi : Buf (Elt F) ((sV).view.loc (thrV d L))) (hfi : Hfi m d L fi) (k : Fin k0_t1_loop.trips)
    (fo : Buf (Elt F) ((oV).view.loc (thrV d L))) (fr : Buf (Elt F) ((rV).view.loc (thrV d L)))
    (hn : S128.numel = S128x128.size gathers_S100000x128_S128x128.axis')
    (hin0 : ∀ x, ((offK0 k).view.read (Elt F) fi x).toNat < S100000x128.size gathers_S100000x128_S128x128.axis)
    (hin1 : ∀ x, ((offK1 k).view.read (Elt F) fi x).toNat < S100000x128.size gathers_S100000x128_S128x128.axis)
    (hin2 : ∀ x, ((offK2 k).view.read (Elt F) fi x).toNat < S100000x128.size gathers_S100000x128_S128x128.axis)
    (hin3 : ∀ x, ((offK3 k).view.read (Elt F) fi x).toNat < S100000x128.size gathers_S100000x128_S128x128.axis) :
    ∀ x ∈ (oPc L k 1).view.set,
      (oPc L k 1).view.writes (Elt F) fo [⟨Rect.whole S256x128, ReadAs.same.apply ((rH1).view.read (Elt F) ((rV).view.writes (Elt F) fr
          [⟨Rect.unit ![384, 0] S128x128.size inb_S512x128_S128x128_384_0, SparseCore.gatherPayload gathers_S100000x128_S128x128 ((xAllK).view.read (Elt F) (m (xLoc d))) (SparseCore.rows ((offK3 k).view.read (Elt F) fi) hn hin3)⟩,
           ⟨Rect.unit ![256, 0] S128x128.size inb_S512x128_S128x128_256_0, SparseCore.gatherPayload gathers_S100000x128_S128x128 ((xAllK).view.read (Elt F) (m (xLoc d))) (SparseCore.rows ((offK2 k).view.read (Elt F) fi) hn hin2)⟩,
           ⟨Rect.unit ![128, 0] S128x128.size inb_S512x128_S128x128_128_0, SparseCore.gatherPayload gathers_S100000x128_S128x128 ((xAllK).view.read (Elt F) (m (xLoc d))) (SparseCore.rows ((offK1 k).view.read (Elt F) fi) hn hin1)⟩,
           ⟨Rect.unit ![0, 0] S128x128.size inb_S512x128_S128x128_0_0, SparseCore.gatherPayload gathers_S100000x128_S128x128 ((xAllK).view.read (Elt F) (m (xLoc d))) (SparseCore.rows ((offK0 k).view.read (Elt F) fi) hn hin0)⟩]))⟩] x = Gmid m d x :=
  val_piece m d L hpre fi hfi k 1 ![256, 0] inb_S512x128_S256x128_256_0 rfl rfl fo fr hn hin0 hin1 hin2 hin3

end Tile

end Cert.Proof.KI

end
-- ==== Proof.KI.Body.lean ====
/-
  One tile's task, and the obligation the launch asks of every tile.

  Tile (c, i), worker w = 2·i + c, copies row w of the index words into its index scratch, runs the loop of fifty trips
  (its invariant is in the module on the loop), waits for the last trip's two copies, and is done: its block of the
  output then holds the gathered rows on every one of its hundred pieces, that is, the restriction of the one
  whole-array function; its shares of the index words and of the table, its scratch buffers and its semaphores (all at
  zero) go back as they came. The index words the gathers read are the tile's own row of the index array, every one of
  them a row number of the table by the precondition, so no gather is abandoned.
-/
import proofs.«207032_g58884001628331_cont_9to1_m_206_11_alg».proof.Proof.KI.Loop
import proofs.«207032_g58884001628331_cont_9to1_m_206_11_alg».proof.Proof.KI.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_v0_scv : Memref Cert.KernelIdeal.sig Kind.scVector Space.hbm Cert.KernelIdeal.S32x200x128 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S819200x128 EltTy.f32)
local notation "sV" => (Memref.whole Cert.KernelIdeal.cc0_scratch0 : Memref Cert.KernelIdeal.sig Kind.scVector Space.vmem Cert.KernelIdeal.S200x128 EltTy.i32)
local notation "rV" => (Memref.whole Cert.KernelIdeal.cc0_scratch1 : Memref Cert.KernelIdeal.sig Kind.scVector Space.vmem Cert.KernelIdeal.S512x128 EltTy.f32)

variable [FloatOps F]

section Tile

variable (d : Dev nD) (L : grid0.Coords)

set_option maxHeartbeats 4000000 in
theorem tile_body (hF : (K (F := F)).Facts) (O : CellTallies nD τ sig (HIx 1)) (W : Waits sig (HIx 1)) (hO : ∀ g, O g none = 0) (hpre : PreOK m) :
    iprop(levAts (K (F := F)).L (K (F := F)).lev ∗ emp
        ∗ (iSh m d (tileShare (cL L) (jL L)) ∗ xSh m d (tileShare (cL L) (jL L)) ∗ oBlk d (cL L) (jL L) (m (oLoc d)))
        ∗ scopedBufs (thrV d L) ∗ scopedSems0 (thrV d L) ∗ owes (thrV d L) O W)
      ⊢ wp frame (wpE (defs₀ (F := F)) 𝒱₀ (thrV d L) none) Set.univ
          (cc0__gather_kernel L iV (Memref.isWhole_whole _) xV (Memref.isWhole_whole _) oV (Memref.isWhole_whole _)
            sV (Memref.isWhole_whole _) rV (Memref.isWhole_whole _) cc0_scratch2 cc0_scratch3 cc0_scratch4 cc0_scratch5 cc0_scratch6 cc0_scratch7 cc0_scratch8 cc0_scratch9 cc0_scoped0)
          fun _ => iprop((iSh m d (tileShare (cL L) (jL L)) ∗ xSh m d (tileShare (cL L) (jL L)) ∗ oBlk d (cL L) (jL L) (Gmid m d))
            ∗ scopedBufs (thrV d L) ∗ scopedSems0 (thrV d L)
            ∗ ∃ W', ⌜∀ p ∈ W', p ∈ W ∨ p.2 = none⌝ ∗ owes (thrV d L) O W') := by
  simp only [cc0__gather_kernel_eq_skeleton]; unfold cc0__gather_kernel_skel
  rw [(K (F := F)).scopedBufs_V hF d (cV L) (jV L), SparseCore.Cfg.scopedSems0_V (Val := Elt F) d (cV L) (jV L), ownSems0_V, ownBufs_V]
  iintro ⟨#Hlv, Hemp, ⟨Hi, Hx, Ho⟩, ⟨⟨%fs, Hs⟩, ⟨%fr, Hr⟩, Hbufs⟩, ⟨Hc0, Hc1, Hc2, Hc3, Hc4, Hc5, Hc6, Hc7, Hc8, Hsems⟩, HO⟩
  ihave Hmw := (show levAts (K (F := F)).L (K (F := F)).lev ⊢ Transfers.MayWaits (thrV d L) (default : HIx 1) O from
    (K (F := F)).mayWaits_none (thr := (thrV d L)) hO) $$ Hlv
  ihave Hi2 := (pointsTo_split_subset (q := tileShare (cL L) (jL L)) (f := idx3 m d) (S := Finset.univ) (Finset.subset_univ (iRowK L).view.set)).1 $$ Hi
  icases Hi2 with ⟨HiA, HiB⟩
  ihave Hs' := (Entails.of_eq (show ((thrV d L).loc cc0_scratch0 ↦{fullShare} fs : sProp 𝕄) = ((sV).view.loc (thrV d L) ↦{fullShare} fs) from rfl)) $$ Hs
  ihave Hr' := (Entails.of_eq (show ((thrV d L).loc cc0_scratch1 ↦{fullShare} fr : sProp 𝕄) = ((rV).view.loc (thrV d L) ↦{fullShare} fr) from rfl)) $$ Hr
  ihave HiC := (Entails.of_eq (show (iLoc d ↦[(iRowK L).view.set]{tileShare (cL L) (jL L)} idx3 m d : sProp 𝕄)
      = ((iRowK L).view.loc (thrV d L) ↦[(iRowK L).view.set]{tileShare (cL L) (jL L)} idx3 m d) from rfl)) $$ HiA
  ihave Hc8' := (Entails.of_eq (show (semVal (cell d L 8) 0 : sProp 𝕄) = semVal ((thrV d L), SemLoc.dma cc0_scoped0.sem) 0 from rfl)) $$ Hc8
  sl_exec
  have hfi := hfi_copy m d L fs
  have hin := fun k => hin_ok m d L hpre (View.write (Elt F) (sV).view fs (tile_body.sl.dma0 m d L) Finset.univ) hfi k
  have hval0 := fun k hn h0 h1 h2 h3 fo fr => val_piece0 m d L hpre (View.write (Elt F) (sV).view fs (tile_body.sl.dma0 m d L) Finset.univ) hfi k fo fr hn h0 h1 h2 h3
  have hval1 := fun k hn h0 h1 h2 h3 fo fr => val_piece1 m d L hpre (View.write (Elt F) (sV).view fs (tile_body.sl.dma0 m d L) Finset.univ) hfi k fo fr hn h0 h1 h2 h3
  ihave Hx' := (Entails.of_eq (show (xSh m d (tileShare (cL L) (jL L)) : sProp 𝕄) = ((xV).view.loc (thrV d L) ↦{tileShare (cL L) (jL L)} m (xLoc d)) from rfl)) $$ Hx
  ihave Hxt := (x_toks d L (tileShare (cL L) (jL L)) (m (xLoc d))).1 $$ Hx'
  icases Hxt with ⟨Hxd, Hx0, Hx1, Hx2, Hx3⟩
  ihave Hc0' := (Entails.of_eq (show (semVal (cell d L 0) 0 : sProp 𝕄) = semVal ((thrV d L), SemLoc.dma cc0_scratch2.sem) 0 from rfl)) $$ Hc0
  ihave Hc1' := (Entails.of_eq (show (semVal (cell d L 1) 0 : sProp 𝕄) = semVal ((thrV d L), SemLoc.dma cc0_scratch3.sem) 0 from rfl)) $$ Hc1
  ihave Hc2' := (Entails.of_eq (show (semVal (cell d L 2) 0 : sProp 𝕄) = semVal ((thrV d L), SemLoc.dma cc0_scratch4.sem) 0 from rfl)) $$ Hc2
  ihave Hc3' := (Entails.of_eq (show (semVal (cell d L 3) 0 : sProp 𝕄) = semVal ((thrV d L), SemLoc.dma cc0_scratch5.sem) 0 from rfl)) $$ Hc3
  ihave Hc4' := (Entails.of_eq (show (semVal (cell d L 4) 0 : sProp 𝕄) = semVal ((thrV d L), SemLoc.dma cc0_scratch6.sem) 0 from rfl)) $$ Hc4
  ihave Hc6' := (Entails.of_eq (show (semVal (cell d L 6) 0 : sProp 𝕄) = semVal ((thrV d L), SemLoc.dma cc0_scratch8.sem) 0 from rfl)) $$ Hc6
  ihave Ht := (Entails.of_eq ((blk_pieces d (cL L) (jL L) (m (oLoc d))).trans (show _ = bigSep (Finset.Ico (2 * 0) 100) (fun p => (oLoc d ↦[pcN (2 * (L 1).val + (L 0).val) p]{fullShare} m (oLoc d) : sProp 𝕄)) by rw [← Ico_full]; rfl))) $$ Ho
  sl_for (Inv m d L O W (tileShare (cL L) (jL L)) (View.write (Elt F) (sV).view fs (tile_body.sl.dma0 m d L) Finset.univ) fr) $$ [Hs' Hx0 Hx1 Hx2 Hx3 Hc0' Hc1' Hc2' Hc3' HO Ht Hr' Hc4' Hc6' Hemp]
  case region => exact region m d L O W (tileShare (cL L) (jL L)) (View.write (Elt F) (sV).view fs (tile_body.sl.dma0 m d L) Finset.univ) fr _ hin hval0 hval1
  · -- the invariant before the first trip
    iapply (inv_init m d L O W (tileShare (cL L) (jL L)) (View.write (Elt F) (sV).view fs (tile_body.sl.dma0 m d L) Finset.univ) fr PUnit.unit)
    isplitr; · iexact Hmw
    isplitl [Hs']; · iexact Hs'
    isplitl [Hx0]; · iexact Hx0
    isplitl [Hx1]; · iexact Hx1
    isplitl [Hx2]; · iexact Hx2
    isplitl [Hx3]; · iexact Hx3
    isplitl [Hc0']; · iexact Hc0'
    isplitl [Hc1']; · iexact Hc1'
    isplitl [Hc2']; · iexact Hc2'
    isplitl [Hc3']; · iexact Hc3'
    isplitl [HO]
    · iexists _; isplitr
      swap; · iexact HO
      ipureintro; intro p hp
      rcases Finset.mem_insert.mp hp with hp | hp
      · exact .inr (hp ▸ rfl)
      · exact .inl hp
    isplitl [Hemp]
    · iapply (Entails.of_eq (show (bigSep (Finset.range (2 * (0 - 1))) (fun p => (oLoc d ↦[pcN (2 * (L 1).val + (L 0).val) p]{fullShare} Gmid m d : sProp 𝕄))) = iprop(emp) by
        rw [show 2 * (0 - 1) = 0 from rfl, Finset.range_zero, bigSep_empty]; rfl).symm)
      iexact Hemp
    isplitl [Ht]; · iexact Ht
    isplitl [Hr']; · iexact Hr'
    isplitl [Hc4']; · iexact Hc4'
    iexact Hc6'
  · -- after the loop: the last two stores are waited for
    iintro %acc HI
    have ht : Scf.trips k0_t1_loop.lb k0_t1_loop.ub k0_t1_loop.st = 50 := by decide
    have hk50 : 0 < Scf.trips k0_t1_loop.lb k0_t1_loop.ub k0_t1_loop.st := by rw [ht]; decide
    ihave HI' := (inv_pos m d L O W (tileShare (cL L) (jL L)) (View.write (Elt F) (sV).view fs (tile_body.sl.dma0 m d L) Finset.univ) fr _ hk50 acc) $$ HI
    icases HI' with ⟨-, Hs', Hx0, Hx1, Hx2, Hx3, Hc0', Hc1', Hc2', Hc3', ⟨%W1, %hW1, HO⟩, Hdone, -, ⟨%fw, Hfa, Hfb, Hrest⟩⟩
    sl_exec
    sl_step
    isplitl [HiB Hxd Hx0 Hx1 Hx2 Hx3 Hdone Hfa_dst Hfb_dst]
    · isplitl [HiB]
      · iapply (Entails.of_eq (show ((iRowK L).view.loc (thrV d L) ↦{(tileShare (cL L) (jL L))} idx3 m d : sProp 𝕄) = iSh m d (tileShare (cL L) (jL L)) from rfl))
        iexact HiB
      isplitl [Hxd Hx0 Hx1 Hx2 Hx3]
      · iapply (Entails.of_eq (show ((xV).view.loc (thrV d L) ↦{(tileShare (cL L) (jL L))} m (xLoc d) : sProp 𝕄) = xSh m d (tileShare (cL L) (jL L)) from rfl))
        iapply (x_toks d L (tileShare (cL L) (jL L)) (m (xLoc d))).2
        isplitl [Hxd]; · iexact Hxd
        isplitl [Hx0]; · iexact Hx0
        isplitl [Hx1]; · iexact Hx1
        isplitl [Hx2]; · iexact Hx2
        iexact Hx3
      · iapply (Entails.of_eq ((done_put d L _ hk50 (Gmid m d)).trans (by rw [ht]; exact (blk_pieces d (cL L) (jL L) (Gmid m d)).symm)))
        isplitl [Hdone]; · iexact Hdone
        isplitl [Hfa_dst]; · iexact Hfa_dst
        iexact Hfb_dst
    isplitl [Hs' Hrest Hbufs]
    · isplitl [Hs']; · iexists _; iexact Hs'
      isplitl [Hrest]; · iexists _; iexact Hrest
      iexact Hbufs
    isplitl [Hc0' Hc1' Hc2' Hc3' Hfa Hc5 Hfb Hc7 Hc8' Hsems]
    · isplitl [Hc0']; · iexact Hc0'
      isplitl [Hc1']; · iexact Hc1'
      isplitl [Hc2']; · iexact Hc2'
      isplitl [Hc3']; · iexact Hc3'
      isplitl [Hfa]; · iexact Hfa
      isplitl [Hc5]; · iexact Hc5
      isplitl [Hfb]; · iexact Hfb
      isplitl [Hc7]; · iexact Hc7
      isplitl [Hc8']; · iexact Hc8'
      iexact Hsems
    iexists _; isplitr
    swap; · iexact HO
    ipureintro; intro p hp
    rcases Finset.mem_insert.mp hp with hp | hp
    · exact .inr (hp ▸ rfl)
    rcases Finset.mem_insert.mp hp with hp | hp
    · exact .inr (hp ▸ rfl)
    exact hW1 p hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_kernel (coordsV c s)
          iV (Memref.isWhole_whole _) xV (Memref.isWhole_whole _) oV (Memref.isWhole_whole _)
          sV (Memref.isWhole_whole _) rV (Memref.isWhole_whole _) cc0_scratch2 cc0_scratch3 cc0_scratch4 cc0_scratch5 cc0_scratch6 cc0_scratch7 cc0_scratch8 cc0_scratch9 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO hpre).trans (wp_mono frame _ _ fun _ => obl_post)

end Tile

end Cert.Proof.KI

end
-- ==== Proof.K.Views.lean ====
/-
  One tile's view of the arrays: the thread it runs on, the rows and pieces of the arrays as the task addresses them,
  its nine DMA semaphores and its two scratch buffers among the subcore's own.
-/
import proofs.«207032_g58884001628331_cont_9to1_m_206_11_alg».proof.Proof.K.Setup

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_v0_scv : Memref Cert.Kernel.sig Kind.scVector Space.hbm Cert.Kernel.S32x200x128 EltTy.i32)
local notation "xV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S819200x128 EltTy.f32)
local notation "sV" => (Memref.whole Cert.Kernel.cc0_scratch0 : Memref Cert.Kernel.sig Kind.scVector Space.vmem Cert.Kernel.S200x128 EltTy.i32)
local notation "rV" => (Memref.whole Cert.Kernel.cc0_scratch1 : Memref Cert.Kernel.sig Kind.scVector Space.vmem Cert.Kernel.S512x128 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-- Row `w` of the index words, squeezed, and all of the table, as the task addresses them. -/
abbrev iRowK (L : grid0.Coords) : Memref sig .scVector .hbm S200x128 .i32 :=
  ((iV).slice (Rect.unit (s := S32x200x128) (k0_off1 L) S1x200x128.size (k0_off1_inb L)) (fun _ => rfl)).squeeze S200x128 squeezes_S1x200x128_S200x128
abbrev xAllK : Memref sig .scVector .hbm S100000x128 .f32 :=
  (xV).slice (Rect.unit (s := S100000x128) ![0, 0] S100000x128.size inb_S100000x128_S100000x128_0_0) (fun _ => rfl)

/-- The tile's nine DMA semaphores. -/
abbrev cell (d : Dev nD) (L : grid0.Coords) (n : Fin 9) : GSem nD τ sig := (V d (cV L) (jV L), .dma n)

theorem cell_mem (n : Fin 9) : cell d L n ∈ (ownCells (V d (cV L) (jV L)) : Finset (GSem nD τ sig)) :=
  (mem_ownCells (g := cell d L n)).mpr ⟨rfl, by show (SemLoc.dma n : SemLoc sig).isScoped .scVector = true; revert n; decide⟩

theorem cell_ne {a b : Fin 9} (h : a ≠ b) : cell d L a ≠ cell d L b := by
  intro e; exact h (by simpa [cell] using e)

omit [FloatOps F] in
theorem ownSems0_V :
    (ownSems0 (V d (cV L) (jV L)) : sProp 𝕄)
      = iprop(semVal (cell d L 0) 0 ∗ semVal (cell d L 1) 0 ∗ semVal (cell d L 2) 0 ∗ semVal (cell d L 3) 0 ∗ semVal (cell d L 4) 0
          ∗ semVal (cell d L 5) 0 ∗ semVal (cell d L 6) 0 ∗ semVal (cell d L 7) 0 ∗ semVal (cell d L 8) 0
          ∗ bigSep ((((((((((ownCells (V d (cV L) (jV L))).erase (cell d L 0)).erase (cell d L 1)).erase (cell d L 2)).erase (cell d L 3)).erase (cell d L 4)).erase (cell d L 5)).erase (cell d L 6)).erase (cell d L 7)).erase (cell d L 8)) fun g => semVal g 0) := by
  unfold SparseCore.Cfg.ownSems0
  have ne : ∀ {a b : Fin 9}, a ≠ b → cell d L a ≠ cell d L b := fun h => cell_ne d L h
  rw [SparseCore.bigSep_erase' (cell_mem d L 0),
    SparseCore.bigSep_erase' (Finset.mem_erase.mpr ⟨ne (by decide), cell_mem d L 1⟩),
    SparseCore.bigSep_erase' (Finset.mem_erase.mpr ⟨ne (by decide), Finset.mem_erase.mpr ⟨ne (by decide), cell_mem d L 2⟩⟩),
    SparseCore.bigSep_erase' (Finset.mem_erase.mpr ⟨ne (by decide), Finset.mem_erase.mpr ⟨ne (by decide), Finset.mem_erase.mpr ⟨ne (by decide), cell_mem d L 3⟩⟩⟩),
    SparseCore.bigSep_erase' (Finset.mem_erase.mpr ⟨ne (by decide), Finset.mem_erase.mpr ⟨ne (by decide), Finset.mem_erase.mpr ⟨ne (by decide), Finset.mem_erase.mpr ⟨ne (by decide), cell_mem d L 4⟩⟩⟩⟩),
    SparseCore.bigSep_erase' (Finset.mem_erase.mpr ⟨ne (by decide), Finset.mem_erase.mpr ⟨ne (by decide), Finset.mem_erase.mpr ⟨ne (by decide), Finset.mem_erase.mpr ⟨ne (by decide), Finset.mem_erase.mpr ⟨ne (by decide), cell_mem d L 5⟩⟩⟩⟩⟩),
    SparseCore.bigSep_erase' (Finset.mem_erase.mpr ⟨ne (by decide), Finset.mem_erase.mpr ⟨ne (by decide), Finset.mem_erase.mpr ⟨ne (by decide), Finset.mem_erase.mpr ⟨ne (by decide), Finset.mem_erase.mpr ⟨ne (by decide), Finset.mem_erase.mpr ⟨ne (by decide), cell_mem d L 6⟩⟩⟩⟩⟩⟩),
    SparseCore.bigSep_erase' (Finset.mem_erase.mpr ⟨ne (by decide), Finset.mem_erase.mpr ⟨ne (by decide), Finset.mem_erase.mpr ⟨ne (by decide), Finset.mem_erase.mpr ⟨ne (by decide), Finset.mem_erase.mpr ⟨ne (by decide), Finset.mem_erase.mpr ⟨ne (by decide), Finset.mem_erase.mpr ⟨ne (by decide), cell_mem d L 7⟩⟩⟩⟩⟩⟩⟩),
    SparseCore.bigSep_erase' (Finset.mem_erase.mpr ⟨ne (by decide), Finset.mem_erase.mpr ⟨ne (by decide), Finset.mem_erase.mpr ⟨ne (by decide), Finset.mem_erase.mpr ⟨ne (by decide), Finset.mem_erase.mpr ⟨ne (by decide), Finset.mem_erase.mpr ⟨ne (by decide), Finset.mem_erase.mpr ⟨ne (by decide), Finset.mem_erase.mpr ⟨ne (by decide), cell_mem d L 8⟩⟩⟩⟩⟩⟩⟩⟩)]

omit [FloatOps F] in
/-- The two scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

abbrev thrV (d : Dev nD) (L : grid0.Coords) : Thread nD τ := V d (cV L) (jV L)

/-- Row `4k + b` of the tile's index words, as the gather addresses it. -/
abbrev offK0 (k : Fin k0_t1_loop.trips) : Memref sig .scVector .vmem S128 .i32 :=
  ((sV).slice (Rect.unit (s := S200x128) (k0_off3 k 0#32) S1x128.size (k0_off3_inb k 0)) (fun _ => rfl)).squeeze S128 squeezes_S1x128_S128
abbrev offK1 (k : Fin k0_t1_loop.trips) : Memref sig .scVector .vmem S128 .i32 :=
  ((sV).slice (Rect.unit (s := S200x128) (k0_off3 k 1#32) S1x128.size (k0_off3_inb k 1)) (fun _ => rfl)).squeeze S128 squeezes_S1x128_S128
abbrev offK2 (k : Fin k0_t1_loop.trips) : Memref sig .scVector .vmem S128 .i32 :=
  ((sV).slice (Rect.unit (s := S200x128) (k0_off3 k 2#32) S1x128.size (k0_off3_inb k 2)) (fun _ => rfl)).squeeze S128 squeezes_S1x128_S128
abbrev offK3 (k : Fin k0_t1_loop.trips) : Memref sig .scVector .vmem S128 .i32 :=
  ((sV).slice (Rect.unit (s := S200x128) (k0_off3 k 3#32) S1x128.size (k0_off3_inb k 3)) (fun _ => rfl)).squeeze S128 squeezes_S1x128_S128

/-- The two 256-row pieces of the output that trip `k` writes. -/
abbrev oPc (L : grid0.Coords) (k : Fin k0_t1_loop.trips) (r : Fin 2) : Memref sig .scVector .hbm S256x128 .f32 :=
  (oV).slice (Rect.unit (s := S819200x128) (k0_off5 L k (BitVec.ofNat 32 (1 + 2 * r.val))) S256x128.size (k0_off5_inb L k r)) (fun _ => rfl)

/-- The four 128-row quarters and the two 256-row halves of the row scratch. -/
abbrev rQ0 : Memref sig .scVector .vmem S128x128 .f32 := (rV).slice (Rect.unit (s := S512x128) ![0, 0] S128x128.size inb_S512x128_S128x128_0_0) (fun _ => rfl)
abbrev rQ1 : Memref sig .scVector .vmem S128x128 .f32 := (rV).slice (Rect.unit (s := S512x128) ![128, 0] S128x128.size inb_S512x128_S128x128_128_0) (fun _ => rfl)
abbrev rQ2 : Memref sig .scVector .vmem S128x128 .f32 := (rV).slice (Rect.unit (s := S512x128) ![256, 0] S128x128.size inb_S512x128_S128x128_256_0) (fun _ => rfl)
abbrev rQ3 : Memref sig .scVector .vmem S128x128 .f32 := (rV).slice (Rect.unit (s := S512x128) ![384, 0] S128x128.size inb_S512x128_S128x128_384_0) (fun _ => rfl)
abbrev rH0 : Memref sig .scVector .vmem S256x128 .f32 := (rV).slice (Rect.unit (s := S512x128) ![0, 0] S256x128.size inb_S512x128_S256x128_0_0) (fun _ => rfl)
abbrev rH1 : Memref sig .scVector .vmem S256x128 .f32 := (rV).slice (Rect.unit (s := S512x128) ![256, 0] S256x128.size inb_S512x128_S256x128_256_0) (fun _ => rfl)

end Tile

end Cert.Proof.K

end
-- ==== Proof.K.Pieces.lean ====
/-
  A tile's block of the output as a hundred pieces of 256 rows.

  Worker w owns rows [25600·w, 25600·(w+1)); piece p of it is rows [25600·w + 256·p, 25600·w + 256·(p+1)), p < 100. The
  pieces are pairwise disjoint and their union is the block, so the block held is the pieces held at once. Trip k of
  the task's loop writes pieces 2k and 2k+1: the 256-row slice of the output it addresses at offset
  51200·(L 1) + 25600·(L 0) + 512·k + 256·r is piece 2k + r of worker 2·(L 1) + (L 0). The pieces are taken two at a
  time off the front of those not yet written and put two at a time at the end of those written.
-/
import proofs.«207032_g58884001628331_cont_9to1_m_206_11_alg».proof.Proof.K.Blocks
import proofs.«207032_g58884001628331_cont_9to1_m_206_11_alg».proof.Proof.K.Views

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "oV" => (Memref.whole Cert.Kernel.main_v1_scv : Memref Cert.Kernel.sig Kind.scVector Space.hbm Cert.Kernel.S819200x128 EltTy.f32)

/-! ## The pieces of a block -/

/-- Piece `p` of worker `w`'s block: 256 rows from row 25600·w + 256·p. -/
def pcN (w p : ℕ) : Finset S819200x128.Idx := rowsSet (25600 * w + 256 * p) 256

theorem mem_pcN (w p : ℕ) (x : S819200x128.Idx) : x ∈ pcN w p ↔ 25600 * w + 256 * p ≤ (x 0).val ∧ (x 0).val < 25600 * w + 256 * p + 256 :=
  mem_rowsSet _ _ x

/-- Two pieces of a block with a common row are the same piece. -/
theorem pieces_disjoint (w : ℕ) : ∀ p ∈ Finset.range 100, ∀ p' ∈ Finset.range 100, p ≠ p' → Disjoint (pcN w p) (pcN w p') := by
  intro p _ p' _ h
  refine Finset.disjoint_left.mpr fun x h1 h2 => h ?_
  rw [mem_pcN] at h1 h2
  omega

/-- The hundred pieces make up the block. -/
theorem pieces_cover (w : ℕ) : (Finset.range 100).biUnion (pcN w) = rowsSet (25600 * w) 25600 := by
  ext x
  rw [Finset.mem_biUnion, mem_rowsSet]
  constructor
  · rintro ⟨p, hp, hx⟩
    rw [mem_pcN] at hx
    have := Finset.mem_range.mp hp
    omega
  · intro hx
    refine ⟨((x 0).val - 25600 * w) / 256, Finset.mem_range.mpr (by omega), ?_⟩
    rw [mem_pcN]
    omega

/-- A block held is its hundred pieces held at once. -/
theorem blk_pieces (d : Dev nD) (c : Fin 2) (i : Fin 16) (f : Buf (Elt F) (oLoc d)) :
    (oBlk d c i f : sProp 𝕄) = bigSep (Finset.range 100) fun p => (oLoc d ↦[pcN (wid c i) p]{fullShare} f) := by
  rw [← pointsTo_biUnion (Finset.range 100) (ℓ := oLoc d) (pcN (wid c i)) (pieces_disjoint (wid c i)), pieces_cover]

/-! ## The pieces as the task addresses them -/

/-- The worker's number from the tile's coordinates. -/
theorem wid_L (L : grid0.Coords) : wid (cL L) (jL L) = 2 * (L 1).val + (L 0).val := rfl

/-- The 256-row slice trip `k` addresses at its `r`-th write is piece 2k + r of the tile's block. -/
theorem set_oPc (L : grid0.Coords) (k : Fin k0_t1_loop.trips) (r : Fin 2) :
    (oPc L k r).view.set = pcN (2 * (L 1).val + (L 0).val) (2 * k.val + r.val) := by
  show ((View.whole (main_v1_scv : Ref sig .scVector)).slice
    (Rect.unit (s := S819200x128) (k0_off5 L k (BitVec.ofNat 32 (1 + 2 * r.val))) S256x128.size (k0_off5_inb L k r))).set = _
  rw [View.set_slice_whole]
  ext x
  have h1 : (x 1).val < 128 := (x 1).isLt
  rw [Rect.mem_set_unit, mem_pcN, k0_off5_eq]
  constructor
  · intro h
    have h0 : 51200 * (L 1).val + 25600 * (L 0).val + 512 * k.val + 256 * r.val ≤ (x 0).val
        ∧ (x 0).val < 51200 * (L 1).val + 25600 * (L 0).val + 512 * k.val + 256 * r.val + 256 := h 0
    omega
  · intro h a
    match a with
    | 0 =>
      show 51200 * (L 1).val + 25600 * (L 0).val + 512 * k.val + 256 * r.val ≤ (x 0).val
        ∧ (x 0).val < 51200 * (L 1).val + 25600 * (L 0).val + 512 * k.val + 256 * r.val + 256
      omega
    | 1 =>
      show 0 ≤ (x 1).val ∧ (x 1).val < 0 + 128
      omega

/-! ## Pieces two at a time -/

omit m ρ in
/-- The pieces below n + 2 are those below n and pieces n and n + 1. -/
theorem range_succ2 (Φ : ℕ → sProp 𝕄) (n : ℕ) :
    bigSep (Finset.range (n + 2)) Φ = iprop(bigSep (Finset.range n) Φ ∗ Φ n ∗ Φ (n + 1)) := by
  show bigSep (Finset.range (n + 1 + 1)) Φ = _
  rw [Finset.range_add_one, SparseCore.bigSep_insert' Finset.notMem_range_self, Finset.range_add_one, SparseCore.bigSep_insert' Finset.notMem_range_self]
  have h1 : iprop(Φ (n + 1) ∗ Φ n ∗ bigSep (Finset.range n) Φ) ⊢ iprop(bigSep (Finset.range n) Φ ∗ Φ n ∗ Φ (n + 1)) := by
    iintro ⟨H1, H0, H⟩
    isplitl [H]; · iexact H
    isplitl [H0]; · iexact H0
    iexact H1
  have h2 : iprop(bigSep (Finset.range n) Φ ∗ Φ n ∗ Φ (n + 1)) ⊢ iprop(Φ (n + 1) ∗ Φ n ∗ bigSep (Finset.range n) Φ) := by
    iintro ⟨H, H0, H1⟩
    isplitl [H1]; · iexact H1
    isplitl [H0]; · iexact H0
    iexact H
  exact BI.Entails.antisymm h1 h2

omit m ρ in
/-- The pieces from n on are pieces n and n + 1 and those from n + 2 on. -/
theorem Ico_take2 (Φ : ℕ → sProp 𝕄) (n : ℕ) (h : n + 2 ≤ 100) :
    bigSep (Finset.Ico n 100) Φ = iprop(Φ n ∗ Φ (n + 1) ∗ bigSep (Finset.Ico (n + 2) 100) Φ) := by
  rw [show Finset.Ico n 100 = insert n (insert (n + 1) (Finset.Ico (n + 2) 100)) from by
      ext x; simp only [Finset.mem_insert, Finset.mem_Ico]; omega,
    SparseCore.bigSep_insert' (by simp only [Finset.mem_insert, Finset.mem_Ico]; omega),
    SparseCore.bigSep_insert' (by simp only [Finset.mem_Ico]; omega)]

omit m ρ in
theorem Ico_full : Finset.Ico 0 100 = Finset.range 100 := Nat.Ico_zero_eq_range 100

omit m ρ in
theorem Ico_empty (Φ : ℕ → sProp 𝕄) : bigSep (Finset.Ico 100 100) Φ = iprop(emp) := by
  rw [Finset.Ico_self, bigSep_empty]; rfl

end Cert.Proof.K

end
-- ==== Proof.K.Trips.lean ====
/-
  One trip of a tile's loop.

  Trip k gathers chunks 4k … 4k+3 of the tile's rows — 128 table rows each, named by row 4k+b of the tile's index
  scratch — into the four quarters of its 512-row scratch, each gather on a semaphore of its own, and, as soon as the two
  quarters of a half have landed, starts the copy of that half to the 256-row piece 2k (first half) or 2k+1 (second half) of
  the tile's block of the output. The two copies stay in flight across the end of the trip: the next trip waits for each
  before it gathers into the half the copy reads. So a trip takes the scratch's halves either free (the first trip) or
  as the sources of the previous trip's copies, and leaves them as the sources of its own; what a copy delivers is stated
  once and for all as "the piece holds the gathered rows", because the landed value agrees on the piece with the one
  whole-array function every block is a restriction of.
-/
import proofs.«207032_g58884001628331_cont_9to1_m_206_11_alg».proof.Proof.K.Pieces

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_v0_scv : Memref Cert.Kernel.sig Kind.scVector Space.hbm Cert.Kernel.S32x200x128 EltTy.i32)
local notation "xV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S819200x128 EltTy.f32)
local notation "sV" => (Memref.whole Cert.Kernel.cc0_scratch0 : Memref Cert.Kernel.sig Kind.scVector Space.vmem Cert.Kernel.S200x128 EltTy.i32)
local notation "rV" => (Memref.whole Cert.Kernel.cc0_scratch1 : Memref Cert.Kernel.sig Kind.scVector Space.vmem Cert.Kernel.S512x128 EltTy.f32)

variable [FloatOps F]

section Tile

variable (d : Dev nD) (L : grid0.Coords)

/-- A store in flight whose landed piece agrees with the gathered rows on that piece delivers the piece at the gathered rows. -/
theorem flightA_mono (k : Fin k0_t1_loop.trips) (sm : SemLoc sig) (X : Buf (Elt F) (oLoc d)) (fw : Buf (Elt F) ((rV).view.loc (thrV d L))) :
    (iprop(Transfers.Flight countersEmb (thrV d L) sm (default : HIx 1) 1048576
        iprop(((oPc L k 0).view.loc (thrV d L) ↦[(oPc L k 0).view.set]{fullShare} X) ∗ ((rV).view.loc (thrV d L) ↦[(rH0).view.set]{fullShare} fw))
        ∗ ⌜sm = SemLoc.dma cc0_scratch6.sem ∧ ∀ x ∈ (oPc L k 0).view.set, X x = Gmid m d x⌝) : sProp 𝕄)
      ⊢ Transfers.Flight countersEmb (thrV d L) (SemLoc.dma cc0_scratch6.sem) (default : HIx 1) 1048576 iprop((oLoc d ↦[pcN (2 * (L 1).val + (L 0).val) (2 * k.val)]{fullShare} Gmid m d) ∗ ((rV).view.loc (thrV d L) ↦[(rH0).view.set]{fullShare} fw)) := by
  iintro ⟨H, %h⟩
  obtain ⟨rfl, hX⟩ := h
  iapply (Transfers.Flight_mono countersEmb (thrV d L) (sep_mono_left (Entails.of_eq ?_))) $$ H
  rw [pointsTo_congr hX, set_oPc]
  rfl

/-- A store in flight whose landed piece agrees with the gathered rows on that piece delivers the piece at the gathered rows. -/
theorem flightB_mono (k : Fin k0_t1_loop.trips) (sm : SemLoc sig) (X : Buf (Elt F) (oLoc d)) (fw : Buf (Elt F) ((rV).view.loc (thrV d L))) :
    (iprop(Transfers.Flight countersEmb (thrV d L) sm (default : HIx 1) 1048576
        iprop(((oPc L k 1).view.loc (thrV d L) ↦[(oPc L k 1).view.set]{fullShare} X) ∗ ((rV).view.loc (thrV d L) ↦[(rH1).view.set]{fullShare} fw))
        ∗ ⌜sm = SemLoc.dma cc0_scratch8.sem ∧ ∀ x ∈ (oPc L k 1).view.set, X x = Gmid m d x⌝) : sProp 𝕄)
      ⊢ Transfers.Flight countersEmb (thrV d L) (SemLoc.dma cc0_scratch8.sem) (default : HIx 1) 1048576 iprop((oLoc d ↦[pcN (2 * (L 1).val + (L 0).val) (2 * k.val + 1)]{fullShare} Gmid m d) ∗ ((rV).view.loc (thrV d L) ↦[(rH1).view.set]{fullShare} fw)) := by
  iintro ⟨H, %h⟩
  obtain ⟨rfl, hX⟩ := h
  iapply (Transfers.Flight_mono countersEmb (thrV d L) (sep_mono_left (Entails.of_eq ?_))) $$ H
  rw [pointsTo_congr hX, set_oPc]
  rfl

set_option maxHeartbeats 4000000 in
/-- The first trip: nothing is in flight; the four gathers, their waits, the two stores issued. -/
theorem trip_first (k : Fin k0_t1_loop.trips) (hc1 : k0_cond1 k ≠ 1#1) (hc2 : k0_cond2 k ≠ 1#1) (O : CellTallies nD τ sig (HIx 1)) (W : Waits sig (HIx 1)) (q : PosShare TreeShare) (v2 : BitVec 32)
    (fi : Buf (Elt F) ((sV).view.loc (thrV d L))) (fr : Buf (Elt F) ((rV).view.loc (thrV d L))) (fo : Buf (Elt F) ((oV).view.loc (thrV d L)))
    (hn : S128.numel = S128x128.size gathers_S100000x128_S128x128.axis')
    (hin0 : ∀ x, ((offK0 k).view.read (Elt F) fi x).toNat < S100000x128.size gathers_S100000x128_S128x128.axis)
    (hin1 : ∀ x, ((offK1 k).view.read (Elt F) fi x).toNat < S100000x128.size gathers_S100000x128_S128x128.axis)
    (hin2 : ∀ x, ((offK2 k).view.read (Elt F) fi x).toNat < S100000x128.size gathers_S100000x128_S128x128.axis)
    (hin3 : ∀ x, ((offK3 k).view.read (Elt F) fi x).toNat < S100000x128.size gathers_S100000x128_S128x128.axis)
    (hv0 : ∀ (fo : Buf (Elt F) ((oV).view.loc (thrV d L))) (fr : Buf (Elt F) ((rV).view.loc (thrV d L))), ∀ x ∈ (oPc L k 0).view.set, ((oPc L k 0).view.writes (Elt F) fo [⟨Rect.whole S256x128, ReadAs.same.apply ((rH0).view.read (Elt F) ((rV).view.writes (Elt F) fr
          [⟨Rect.unit ![384, 0] S128x128.size inb_S512x128_S128x128_384_0, SparseCore.gatherPayload gathers_S100000x128_S128x128 ((xAllK).view.read (Elt F) (m (xLoc d))) (SparseCore.rows ((offK3 k).view.read (Elt F) fi) hn hin3)⟩,
           ⟨Rect.unit ![256, 0] S128x128.size inb_S512x128_S128x128_256_0, SparseCore.gatherPayload gathers_S100000x128_S128x128 ((xAllK).view.read (Elt F) (m (xLoc d))) (SparseCore.rows ((offK2 k).view.read (Elt F) fi) hn hin2)⟩,
           ⟨Rect.unit ![128, 0] S128x128.size inb_S512x128_S128x128_128_0, SparseCore.gatherPayload gathers_S100000x128_S128x128 ((xAllK).view.read (Elt F) (m (xLoc d))) (SparseCore.rows ((offK1 k).view.read (Elt F) fi) hn hin1)⟩,
           ⟨Rect.unit ![0, 0] S128x128.size inb_S512x128_S128x128_0_0, SparseCore.gatherPayload gathers_S100000x128_S128x128 ((xAllK).view.read (Elt F) (m (xLoc d))) (SparseCore.rows ((offK0 k).view.read (Elt F) fi) hn hin0)⟩]))⟩]) x = Gmid m d x)
    (hv1 : ∀ (fo : Buf (Elt F) ((oV).view.loc (thrV d L))) (fr : Buf (Elt F) ((rV).view.loc (thrV d L))), ∀ x ∈ (oPc L k 1).view.set, ((oPc L k 1).view.writes (Elt F) fo [⟨Rect.whole S256x128, ReadAs.same.apply ((rH1).view.read (Elt F) ((rV).view.writes (Elt F) fr
          [⟨Rect.unit ![384, 0] S128x128.size inb_S512x128_S128x128_384_0, SparseCore.gatherPayload gathers_S100000x128_S128x128 ((xAllK).view.read (Elt F) (m (xLoc d))) (SparseCore.rows ((offK3 k).view.read (Elt F) fi) hn hin3)⟩,
           ⟨Rect.unit ![256, 0] S128x128.size inb_S512x128_S128x128_256_0, SparseCore.gatherPayload gathers_S100000x128_S128x128 ((xAllK).view.read (Elt F) (m (xLoc d))) (SparseCore.rows ((offK2 k).view.read (Elt F) fi) hn hin2)⟩,
           ⟨Rect.unit ![128, 0] S128x128.size inb_S512x128_S128x128_128_0, SparseCore.gatherPayload gathers_S100000x128_S128x128 ((xAllK).view.read (Elt F) (m (xLoc d))) (SparseCore.rows ((offK1 k).view.read (Elt F) fi) hn hin1)⟩,
           ⟨Rect.unit ![0, 0] S128x128.size inb_S512x128_S128x128_0_0, SparseCore.gatherPayload gathers_S100000x128_S128x128 ((xAllK).view.read (Elt F) (m (xLoc d))) (SparseCore.rows ((offK0 k).view.read (Elt F) fi) hn hin0)⟩]))⟩]) x = Gmid m d x) :
    (iprop(Transfers.MayWaits (thrV d L) (default : HIx 1) O
        ∗ ((sV).view.loc (thrV d L) ↦{fullShare} fi) ∗ ((xV).view.loc (thrV d L) ↦{Transfers.shareTokN q 0} m (xLoc d)) ∗ ((xV).view.loc (thrV d L) ↦{Transfers.shareTokN q 1} m (xLoc d)) ∗ ((xV).view.loc (thrV d L) ↦{Transfers.shareTokN q 2} m (xLoc d)) ∗ ((xV).view.loc (thrV d L) ↦{Transfers.shareTokN q 3} m (xLoc d))
        ∗ semVal ((thrV d L), SemLoc.dma cc0_scratch2.sem) 0 ∗ semVal ((thrV d L), SemLoc.dma cc0_scratch3.sem) 0
        ∗ semVal ((thrV d L), SemLoc.dma cc0_scratch4.sem) 0 ∗ semVal ((thrV d L), SemLoc.dma cc0_scratch5.sem) 0
        ∗ ((rV).view.loc (thrV d L) ↦{fullShare} fr)
        ∗ ((oPc L k 0).view.loc (thrV d L) ↦[(oPc L k 0).view.set]{fullShare} fo) ∗ ((oPc L k 1).view.loc (thrV d L) ↦[(oPc L k 1).view.set]{fullShare} fo)
        ∗ semVal ((thrV d L), SemLoc.dma cc0_scratch6.sem) 0 ∗ semVal ((thrV d L), SemLoc.dma cc0_scratch8.sem) 0
        ∗ owes (thrV d L) O W) : sProp 𝕄)
      ⊢ wp frame (wpE (defs₀ (F := F)) 𝒱₀ (thrV d L) none) Set.univ
          (k0_t1_body L iV (Memref.isWhole_whole _) xV (Memref.isWhole_whole _) oV (Memref.isWhole_whole _)
            sV (Memref.isWhole_whole _) rV (Memref.isWhole_whole _) cc0_scratch2 cc0_scratch3 cc0_scratch4 cc0_scratch5 cc0_scratch6 cc0_scratch7 cc0_scratch8 cc0_scratch9 cc0_scoped0 v2 k ())
          fun _ => iprop(((sV).view.loc (thrV d L) ↦{fullShare} fi) ∗ ((xV).view.loc (thrV d L) ↦{Transfers.shareTokN q 0} m (xLoc d)) ∗ ((xV).view.loc (thrV d L) ↦{Transfers.shareTokN q 1} m (xLoc d)) ∗ ((xV).view.loc (thrV d L) ↦{Transfers.shareTokN q 2} m (xLoc d)) ∗ ((xV).view.loc (thrV d L) ↦{Transfers.shareTokN q 3} m (xLoc d))
        ∗ semVal ((thrV d L), SemLoc.dma cc0_scratch2.sem) 0 ∗ semVal ((thrV d L), SemLoc.dma cc0_scratch3.sem) 0
        ∗ semVal ((thrV d L), SemLoc.dma cc0_scratch4.sem) 0 ∗ semVal ((thrV d L), SemLoc.dma cc0_scratch5.sem) 0
        ∗ (∃ fw, Transfers.Flight countersEmb (thrV d L) (SemLoc.dma cc0_scratch6.sem) (default : HIx 1) 1048576 iprop((oLoc d ↦[pcN (2 * (L 1).val + (L 0).val) (2 * k.val)]{fullShare} Gmid m d) ∗ ((rV).view.loc (thrV d L) ↦[(rH0).view.set]{fullShare} fw)) ∗ Transfers.Flight countersEmb (thrV d L) (SemLoc.dma cc0_scratch8.sem) (default : HIx 1) 1048576 iprop((oLoc d ↦[pcN (2 * (L 1).val + (L 0).val) (2 * k.val + 1)]{fullShare} Gmid m d) ∗ ((rV).view.loc (thrV d L) ↦[(rH1).view.set]{fullShare} fw)) ∗ ((rV).view.loc (thrV d L) ↦[(Finset.univ \ (rH0).view.set) \ (rH1).view.set]{fullShare} fw))
        ∗ (∃ W', ⌜∀ p ∈ W', p ∈ W ∨ p.2 = none⌝ ∗ owes (thrV d L) O W')) := by
  unfold k0_t1_body
  rw [k0_part1_eq_skeleton, k0_part2_eq_skeleton]
  unfold k0_part1_skel k0_part2_skel
  rw [dif_neg hc1, dif_neg hc2]
  iintro ⟨#Hmw, Hs, Hx0, Hx1, Hx2, Hx3, Hc0, Hc1, Hc2, Hc3, Hr, Ho0, Ho1, Hc4, Hc6, HO⟩
  sl_exec
  sl_step
  isplitl [Hs]; · iexact Hs
  isplitl [Hx0]; · iexact Hx0
  isplitl [Hx1]; · iexact Hx1
  isplitl [Hx2]; · iexact Hx2
  isplitl [Hx3]; · iexact Hx3
  isplitl [Hc0]; · iexact Hc0
  isplitl [Hc1]; · iexact Hc1
  isplitl [Hc2]; · iexact Hc2
  isplitl [Hc3]; · iexact Hc3
  isplitl [Hc4 Hc6 Hr]
  · iexists _
    isplitl [Hc4]
    · iapply (flightA_mono m d L k)
      isplitl [Hc4]; · iexact Hc4
      ipureintro; exact ⟨rfl, hv0 fo fr⟩
    isplitl [Hc6]
    · iapply (flightB_mono m d L k)
      isplitl [Hc6]; · iexact Hc6
      ipureintro; exact ⟨rfl, hv1 fo fr⟩
    iexact Hr
  iexists _; isplitr
  swap; · iexact HO
  ipureintro; intro p hp
  simp only [Finset.mem_insert] at hp
  rcases hp with hp | hp | hp | hp | hp
  · exact .inr (hp ▸ rfl)
  · exact .inr (hp ▸ rfl)
  · exact .inr (hp ▸ rfl)
  · exact .inr (hp ▸ rfl)
  · exact .inl hp

set_option maxHeartbeats 4000000 in
/-- A later trip: the previous trip's two stores are waited for before the halves of the scratch they read are
    gathered into again; then as the first trip. -/
theorem trip_next (k : Fin k0_t1_loop.trips) (hc1 : k0_cond1 k = 1#1) (hc2 : k0_cond2 k = 1#1) (O : CellTallies nD τ sig (HIx 1)) (W : Waits sig (HIx 1)) (q : PosShare TreeShare) (v2 : BitVec 32)
    (fi : Buf (Elt F) ((sV).view.loc (thrV d L))) (fw : Buf (Elt F) ((rV).view.loc (thrV d L))) (fo : Buf (Elt F) ((oV).view.loc (thrV d L))) (pa pb : ℕ)
    (hn : S128.numel = S128x128.size gathers_S100000x128_S128x128.axis')
    (hin0 : ∀ x, ((offK0 k).view.read (Elt F) fi x).toNat < S100000x128.size gathers_S100000x128_S128x128.axis)
    (hin1 : ∀ x, ((offK1 k).view.read (Elt F) fi x).toNat < S100000x128.size gathers_S100000x128_S128x128.axis)
    (hin2 : ∀ x, ((offK2 k).view.read (Elt F) fi x).toNat < S100000x128.size gathers_S100000x128_S128x128.axis)
    (hin3 : ∀ x, ((offK3 k).view.read (Elt F) fi x).toNat < S100000x128.size gathers_S100000x128_S128x128.axis)
    (hv0 : ∀ (fo : Buf (Elt F) ((oV).view.loc (thrV d L))) (fr : Buf (Elt F) ((rV).view.loc (thrV d L))), ∀ x ∈ (oPc L k 0).view.set, ((oPc L k 0).view.writes (Elt F) fo [⟨Rect.whole S256x128, ReadAs.same.apply ((rH0).view.read (Elt F) ((rV).view.writes (Elt F) fr
          [⟨Rect.unit ![384, 0] S128x128.size inb_S512x128_S128x128_384_0, SparseCore.gatherPayload gathers_S100000x128_S128x128 ((xAllK).view.read (Elt F) (m (xLoc d))) (SparseCore.rows ((offK3 k).view.read (Elt F) fi) hn hin3)⟩,
           ⟨Rect.unit ![256, 0] S128x128.size inb_S512x128_S128x128_256_0, SparseCore.gatherPayload gathers_S100000x128_S128x128 ((xAllK).view.read (Elt F) (m (xLoc d))) (SparseCore.rows ((offK2 k).view.read (Elt F) fi) hn hin2)⟩,
           ⟨Rect.unit ![128, 0] S128x128.size inb_S512x128_S128x128_128_0, SparseCore.gatherPayload gathers_S100000x128_S128x128 ((xAllK).view.read (Elt F) (m (xLoc d))) (SparseCore.rows ((offK1 k).view.read (Elt F) fi) hn hin1)⟩,
           ⟨Rect.unit ![0, 0] S128x128.size inb_S512x128_S128x128_0_0, SparseCore.gatherPayload gathers_S100000x128_S128x128 ((xAllK).view.read (Elt F) (m (xLoc d))) (SparseCore.rows ((offK0 k).view.read (Elt F) fi) hn hin0)⟩]))⟩]) x = Gmid m d x)
    (hv1 : ∀ (fo : Buf (Elt F) ((oV).view.loc (thrV d L))) (fr : Buf (Elt F) ((rV).view.loc (thrV d L))), ∀ x ∈ (oPc L k 1).view.set, ((oPc L k 1).view.writes (Elt F) fo [⟨Rect.whole S256x128, ReadAs.same.apply ((rH1).view.read (Elt F) ((rV).view.writes (Elt F) fr
          [⟨Rect.unit ![384, 0] S128x128.size inb_S512x128_S128x128_384_0, SparseCore.gatherPayload gathers_S100000x128_S128x128 ((xAllK).view.read (Elt F) (m (xLoc d))) (SparseCore.rows ((offK3 k).view.read (Elt F) fi) hn hin3)⟩,
           ⟨Rect.unit ![256, 0] S128x128.size inb_S512x128_S128x128_256_0, SparseCore.gatherPayload gathers_S100000x128_S128x128 ((xAllK).view.read (Elt F) (m (xLoc d))) (SparseCore.rows ((offK2 k).view.read (Elt F) fi) hn hin2)⟩,
           ⟨Rect.unit ![128, 0] S128x128.size inb_S512x128_S128x128_128_0, SparseCore.gatherPayload gathers_S100000x128_S128x128 ((xAllK).view.read (Elt F) (m (xLoc d))) (SparseCore.rows ((offK1 k).view.read (Elt F) fi) hn hin1)⟩,
           ⟨Rect.unit ![0, 0] S128x128.size inb_S512x128_S128x128_0_0, SparseCore.gatherPayload gathers_S100000x128_S128x128 ((xAllK).view.read (Elt F) (m (xLoc d))) (SparseCore.rows ((offK0 k).view.read (Elt F) fi) hn hin0)⟩]))⟩]) x = Gmid m d x) :
    (iprop(Transfers.MayWaits (thrV d L) (default : HIx 1) O
        ∗ ((sV).view.loc (thrV d L) ↦{fullShare} fi) ∗ ((xV).view.loc (thrV d L) ↦{Transfers.shareTokN q 0} m (xLoc d)) ∗ ((xV).view.loc (thrV d L) ↦{Transfers.shareTokN q 1} m (xLoc d)) ∗ ((xV).view.loc (thrV d L) ↦{Transfers.shareTokN q 2} m (xLoc d)) ∗ ((xV).view.loc (thrV d L) ↦{Transfers.shareTokN q 3} m (xLoc d))
        ∗ semVal ((thrV d L), SemLoc.dma cc0_scratch2.sem) 0 ∗ semVal ((thrV d L), SemLoc.dma cc0_scratch3.sem) 0
        ∗ semVal ((thrV d L), SemLoc.dma cc0_scratch4.sem) 0 ∗ semVal ((thrV d L), SemLoc.dma cc0_scratch5.sem) 0
        ∗ Transfers.Flight countersEmb (thrV d L) (SemLoc.dma cc0_scratch6.sem) (default : HIx 1) 1048576 iprop((oLoc d ↦[pcN (2 * (L 1).val + (L 0).val) (pa)]{fullShare} Gmid m d) ∗ ((rV).view.loc (thrV d L) ↦[(rH0).view.set]{fullShare} fw)) ∗ Transfers.Flight countersEmb (thrV d L) (SemLoc.dma cc0_scratch8.sem) (default : HIx 1) 1048576 iprop((oLoc d ↦[pcN (2 * (L 1).val + (L 0).val) (pb)]{fullShare} Gmid m d) ∗ ((rV).view.loc (thrV d L) ↦[(rH1).view.set]{fullShare} fw)) ∗ ((rV).view.loc (thrV d L) ↦[(Finset.univ \ (rH0).view.set) \ (rH1).view.set]{fullShare} fw)
        ∗ ((oPc L k 0).view.loc (thrV d L) ↦[(oPc L k 0).view.set]{fullShare} fo) ∗ ((oPc L k 1).view.loc (thrV d L) ↦[(oPc L k 1).view.set]{fullShare} fo)
        ∗ owes (thrV d L) O W) : sProp 𝕄)
      ⊢ wp frame (wpE (defs₀ (F := F)) 𝒱₀ (thrV d L) none) Set.univ
          (k0_t1_body L iV (Memref.isWhole_whole _) xV (Memref.isWhole_whole _) oV (Memref.isWhole_whole _)
            sV (Memref.isWhole_whole _) rV (Memref.isWhole_whole _) cc0_scratch2 cc0_scratch3 cc0_scratch4 cc0_scratch5 cc0_scratch6 cc0_scratch7 cc0_scratch8 cc0_scratch9 cc0_scoped0 v2 k ())
          fun _ => iprop(((sV).view.loc (thrV d L) ↦{fullShare} fi) ∗ ((xV).view.loc (thrV d L) ↦{Transfers.shareTokN q 0} m (xLoc d)) ∗ ((xV).view.loc (thrV d L) ↦{Transfers.shareTokN q 1} m (xLoc d)) ∗ ((xV).view.loc (thrV d L) ↦{Transfers.shareTokN q 2} m (xLoc d)) ∗ ((xV).view.loc (thrV d L) ↦{Transfers.shareTokN q 3} m (xLoc d))
        ∗ semVal ((thrV d L), SemLoc.dma cc0_scratch2.sem) 0 ∗ semVal ((thrV d L), SemLoc.dma cc0_scratch3.sem) 0
        ∗ semVal ((thrV d L), SemLoc.dma cc0_scratch4.sem) 0 ∗ semVal ((thrV d L), SemLoc.dma cc0_scratch5.sem) 0
        ∗ (∃ fw, Transfers.Flight countersEmb (thrV d L) (SemLoc.dma cc0_scratch6.sem) (default : HIx 1) 1048576 iprop((oLoc d ↦[pcN (2 * (L 1).val + (L 0).val) (2 * k.val)]{fullShare} Gmid m d) ∗ ((rV).view.loc (thrV d L) ↦[(rH0).view.set]{fullShare} fw)) ∗ Transfers.Flight countersEmb (thrV d L) (SemLoc.dma cc0_scratch8.sem) (default : HIx 1) 1048576 iprop((oLoc d ↦[pcN (2 * (L 1).val + (L 0).val) (2 * k.val + 1)]{fullShare} Gmid m d) ∗ ((rV).view.loc (thrV d L) ↦[(rH1).view.set]{fullShare} fw)) ∗ ((rV).view.loc (thrV d L) ↦[(Finset.univ \ (rH0).view.set) \ (rH1).view.set]{fullShare} fw))
        ∗ (∃ W', ⌜∀ p ∈ W', p ∈ W ∨ p.2 = none⌝ ∗ owes (thrV d L) O W')
        ∗ (oLoc d ↦[pcN (2 * (L 1).val + (L 0).val) pa]{fullShare} Gmid m d) ∗ (oLoc d ↦[pcN (2 * (L 1).val + (L 0).val) pb]{fullShare} Gmid m d)) := by
  unfold k0_t1_body
  rw [k0_part1_eq_skeleton, k0_part2_eq_skeleton]
  unfold k0_part1_skel k0_part2_skel
  rw [dif_pos hc1, dif_pos hc2]
  iintro ⟨#Hmw, Hs, Hx0, Hx1, Hx2, Hx3, Hc0, Hc1, Hc2, Hc3, Hc4, Hc6, Hr, Ho0, Ho1, HO⟩
  sl_exec
  sl_step
  isplitl [Hs]; · iexact Hs
  isplitl [Hx0]; · iexact Hx0
  isplitl [Hx1]; · iexact Hx1
  isplitl [Hx2]; · iexact Hx2
  isplitl [Hx3]; · iexact Hx3
  isplitl [Hc0]; · iexact Hc0
  isplitl [Hc1]; · iexact Hc1
  isplitl [Hc2]; · iexact Hc2
  isplitl [Hc3]; · iexact Hc3
  isplitl [Hc4 Hc6 Hr]
  · iexists _
    isplitl [Hc4]
    · iapply (flightA_mono m d L k)
      isplitl [Hc4]; · iexact Hc4
      ipureintro; exact ⟨rfl, hv0 fo fw⟩
    isplitl [Hc6]
    · iapply (flightB_mono m d L k)
      isplitl [Hc6]; · iexact Hc6
      ipureintro; exact ⟨rfl, hv1 fo fw⟩
    iexact Hr
  isplitl [HO]
  · iexists _; isplitr
    swap; · iexact HO
    ipureintro; intro p hp
    simp only [Finset.mem_insert] at hp
    rcases hp with hp | hp | hp | hp | hp | hp | hp
    · exact .inr (hp ▸ rfl)
    · exact .inr (hp ▸ rfl)
    · exact .inr (hp ▸ rfl)
    · exact .inr (hp ▸ rfl)
    · exact .inr (hp ▸ rfl)
    · exact .inr (hp ▸ rfl)
    · exact .inl hp
  isplitl [Hc4_dst]; · iexact Hc4_dst
  iexact Hc6_dst

end Tile

end Cert.Proof.K

end
-- ==== Proof.K.Glue.lean ====
/-
  Three facts one tile's task uses.

  The task first copies row w = 2·(L 1) + (L 0) of the index words (32 × 200 × 128) over its 200 × 128 index scratch:
  afterwards word (j, l) of the scratch is index word (w, j, l). The 512 × 128 row scratch is its two 256-row halves and
  nothing else, so it can be held as the halves and put back whole. A read share of the table is four read tokens and a
  remainder.
-/
import proofs.«207032_g58884001628331_cont_9to1_m_206_11_alg».proof.Proof.K.Pieces

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_v0_scv : Memref Cert.Kernel.sig Kind.scVector Space.hbm Cert.Kernel.S32x200x128 EltTy.i32)
local notation "xV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S819200x128 EltTy.f32)
local notation "sV" => (Memref.whole Cert.Kernel.cc0_scratch0 : Memref Cert.Kernel.sig Kind.scVector Space.vmem Cert.Kernel.S200x128 EltTy.i32)
local notation "rV" => (Memref.whole Cert.Kernel.cc0_scratch1 : Memref Cert.Kernel.sig Kind.scVector Space.vmem Cert.Kernel.S512x128 EltTy.f32)

variable [FloatOps F]

section Tile

variable (d : Dev nD) (L : grid0.Coords)

/-! ## The index words the tile copied -/

omit [FloatOps F] in
/-- The worker's number is below 32. -/
theorem wid_lt (L : grid0.Coords) : 2 * (L 1).val + (L 0).val < 32 := by
  have h0 : (L 0).val < 2 := (L 0).isLt
  have h1 : (L 1).val < 16 := (L 1).isLt
  omega

omit [FloatOps F] in
/-- Word (j, l) of the row the tile copies is index word (w, j, l). -/
theorem emb_iRowK (L : grid0.Coords) (j : Fin 200) (l : Fin 128) :
    (iRowK L).view.emb (ValueIdx.ix2 j l) = ValueIdx.ix3 (⟨2 * (L 1).val + (L 0).val, wid_lt L⟩ : Fin 32) j l := by
  have hq : Shape.reshapeEquiv (s := S1x200x128) (s' := S200x128) squeezes_S1x200x128_S200x128.numel_eq (ValueIdx.ix2 j l)
      = (ValueIdx.ix3 (0 : Fin 1) j l : S1x200x128.Idx) :=
    Shape.reshapeEquiv_eq_of_rowMajor _ (by rw [Shape.rowMajor_val_three, Shape.rowMajor_val_two]; simp)
  funext a
  refine Fin.ext ?_
  show ((Rect.unit (s := S32x200x128) (k0_off1 L) S1x200x128.size (k0_off1_inb L)).emb
    (Shape.reshapeEquiv (s := S1x200x128) (s' := S200x128) squeezes_S1x200x128_S200x128.numel_eq (ValueIdx.ix2 j l)) a : ℕ) = _
  rw [hq, Rect.emb_apply, Rect.off_unit, Rect.stride_unit]
  have e := k0_off1_eq L
  match a with
  | 0 =>
    have e0 : k0_off1 L 0 = 2 * (L 1).val + (L 0).val := congrFun e 0
    show k0_off1 L 0 + 1 * 0 = 2 * (L 1).val + (L 0).val
    omega
  | 1 =>
    have e1 : k0_off1 L 1 = 0 := congrFun e 1
    show k0_off1 L 1 + 1 * j.val = j.val
    omega
  | 2 =>
    have e2 : k0_off1 L 2 = 0 := congrFun e 2
    show k0_off1 L 2 + 1 * l.val = l.val
    omega

/-- After the copy of its row of index words over the index scratch, word (j, l) of the scratch is index word (w, j, l). -/
theorem hfi_copy (fs : Buf (Elt F) ((sV).view.loc (thrV d L))) :
    ∀ (j : Fin 200) (l : Fin 128),
      (View.write (Elt F) (sV).view fs (ReadAs.same.apply ((iRowK L).view.read (Elt F) (idx3 m d))) Finset.univ) (ValueIdx.ix2 j l)
        = idx3 m d (ValueIdx.ix3 ⟨2 * (L 1).val + (L 0).val, wid_lt L⟩ j l) := by
  intro j l
  rw [View.write_whole_univ]
  show (iRowK L).view.read (Elt F) (idx3 m d) (ValueIdx.ix2 j l) = _
  rw [View.read_apply, cast_eq, emb_iRowK]

/-! ## The row scratch as its two halves -/

omit [FloatOps F] in
theorem mem_rH0 (x : S512x128.Idx) : x ∈ (rH0).view.set ↔ (x 0).val < 256 := by
  show x ∈ ((View.whole (cc0_scratch1 : Ref sig .scVector)).slice (Rect.unit (s := S512x128) ![0, 0] S256x128.size inb_S512x128_S256x128_0_0)).set ↔ _
  rw [View.set_slice_whole, Rect.mem_set_unit]
  have h1 : (x 1).val < 128 := (x 1).isLt
  constructor
  · intro h
    have h0 : 0 ≤ (x 0).val ∧ (x 0).val < 0 + 256 := h 0
    omega
  · intro h a
    match a with
    | 0 => show 0 ≤ (x 0).val ∧ (x 0).val < 0 + 256; omega
    | 1 => show 0 ≤ (x 1).val ∧ (x 1).val < 0 + 128; omega

omit [FloatOps F] in
theorem mem_rH1 (x : S512x128.Idx) : x ∈ (rH1).view.set ↔ 256 ≤ (x 0).val := by
  show x ∈ ((View.whole (cc0_scratch1 : Ref sig .scVector)).slice (Rect.unit (s := S512x128) ![256, 0] S256x128.size inb_S512x128_S256x128_256_0)).set ↔ _
  rw [View.set_slice_whole, Rect.mem_set_unit]
  have h0' : (x 0).val < 512 := (x 0).isLt
  have h1 : (x 1).val < 128 := (x 1).isLt
  constructor
  · intro h
    have h0 : 256 ≤ (x 0).val ∧ (x 0).val < 256 + 256 := h 0
    omega
  · intro h a
    match a with
    | 0 => show 256 ≤ (x 0).val ∧ (x 0).val < 256 + 256; omega
    | 1 => show 0 ≤ (x 1).val ∧ (x 1).val < 0 + 128; omega

omit [FloatOps F] in
/-- The second half lies outside the first. -/
theorem rH1_sub : (rH1).view.set ⊆ Finset.univ \ (rH0).view.set := fun x hx =>
  Finset.mem_sdiff.mpr ⟨Finset.mem_univ _, fun h0 => by rw [mem_rH0] at h0; rw [mem_rH1] at hx; omega⟩

omit [FloatOps F] in
/-- The row scratch held whole is its halves and the rest held at once; -/
theorem rV_split (f : Buf (Elt F) ((rV).view.loc (thrV d L))) :
    ((rV).view.loc (thrV d L) ↦{fullShare} f : sProp 𝕄)
      ⊢ iprop(((rV).view.loc (thrV d L) ↦[(rH0).view.set]{fullShare} f) ∗ ((rV).view.loc (thrV d L) ↦[(rH1).view.set]{fullShare} f)
        ∗ ((rV).view.loc (thrV d L) ↦[(Finset.univ \ (rH0).view.set) \ (rH1).view.set]{fullShare} f)) := by
  iintro H
  ihave H' := (pointsTo_split_subset (ℓ := (rV).view.loc (thrV d L)) (q := fullShare) (f := f) (S := Finset.univ) (Finset.subset_univ (rH0).view.set)).1 $$ H
  icases H' with ⟨H0, Hr⟩
  ihave H'' := (pointsTo_split_subset (ℓ := (rV).view.loc (thrV d L)) (q := fullShare) (f := f) rH1_sub).1 $$ Hr
  icases H'' with ⟨H1, Hr⟩
  isplitl [H0]; · iexact H0
  isplitl [H1]; · iexact H1
  iexact Hr

omit [FloatOps F] in
/-- and those put back are the scratch whole. -/
theorem rV_join (f : Buf (Elt F) ((rV).view.loc (thrV d L))) :
    iprop(((rV).view.loc (thrV d L) ↦[(rH0).view.set]{fullShare} f) ∗ ((rV).view.loc (thrV d L) ↦[(rH1).view.set]{fullShare} f)
        ∗ ((rV).view.loc (thrV d L) ↦[(Finset.univ \ (rH0).view.set) \ (rH1).view.set]{fullShare} f))
      ⊢ ((rV).view.loc (thrV d L) ↦{fullShare} f : sProp 𝕄) := by
  iintro ⟨H0, H1, Hr⟩
  ihave Hr' := (pointsTo_split_subset (ℓ := (rV).view.loc (thrV d L)) (q := fullShare) (f := f) rH1_sub).2 $$ [H1 Hr]
  · isplitl [H1] <;> iassumption
  iapply (pointsTo_split_subset (ℓ := (rV).view.loc (thrV d L)) (q := fullShare) (f := f) (S := Finset.univ) (Finset.subset_univ (rH0).view.set)).2
  isplitl [H0] <;> iassumption

/-! ## Four read tokens of a share of the table -/

omit [FloatOps F] in
/-- A share of the table is what remains after four read tokens, and the four tokens. -/
theorem x_toks (q : PosShare TreeShare) (f : Buf (Elt F) ((xV).view.loc (thrV d L))) :
    ((xV).view.loc (thrV d L) ↦{q} f : sProp 𝕄)
      ⊣⊢ iprop(((xV).view.loc (thrV d L) ↦{Transfers.shareDrop q 4} f) ∗ ((xV).view.loc (thrV d L) ↦{Transfers.shareTokN q 0} f)
        ∗ ((xV).view.loc (thrV d L) ↦{Transfers.shareTokN q 1} f) ∗ ((xV).view.loc (thrV d L) ↦{Transfers.shareTokN q 2} f)
        ∗ ((xV).view.loc (thrV d L) ↦{Transfers.shareTokN q 3} f)) := by
  have h := Transfers.pointsTo_toks_range (Ix := HIx 1) (Name := ℕ) (U := UU) (Lvl := ℕ) (ℓ := (xV).view.loc (thrV d L)) (S := Finset.univ) (f := f) q 4
  rw [show Finset.range 4 = {0, 1, 2, 3} by decide, SparseCore.bigSep_insert' (by decide), SparseCore.bigSep_insert' (by decide),
    SparseCore.bigSep_insert' (by decide), bigSep_singleton] at h
  exact h

end Tile

end Cert.Proof.K

end
-- ==== Proof.K.Loop.lean ====
/-
  A tile's loop of fifty trips, by its invariant.

  A tile's block of 25600 rows is a hundred pieces of 256 rows; trip k writes pieces 2k and 2k+1. Before trip k the pieces
  below 2(k-1) hold the gathered rows (their copies have been waited for), pieces 2(k-1) and 2(k-1)+1 are the destinations
  of the two copies in flight, and the pieces from 2k on hold what they held at entry. Trip k waits for the two copies in
  flight — so the delivered pieces become 2k — takes pieces 2k and 2k+1 from the untouched ones and leaves them in flight.
  Before the first trip nothing is in flight and the row scratch is held whole.
-/
import proofs.«207032_g58884001628331_cont_9to1_m_206_11_alg».proof.Proof.K.Trips
import proofs.«207032_g58884001628331_cont_9to1_m_206_11_alg».proof.Proof.K.Glue

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_v0_scv : Memref Cert.Kernel.sig Kind.scVector Space.hbm Cert.Kernel.S32x200x128 EltTy.i32)
local notation "xV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S819200x128 EltTy.f32)
local notation "sV" => (Memref.whole Cert.Kernel.cc0_scratch0 : Memref Cert.Kernel.sig Kind.scVector Space.vmem Cert.Kernel.S200x128 EltTy.i32)
local notation "rV" => (Memref.whole Cert.Kernel.cc0_scratch1 : Memref Cert.Kernel.sig Kind.scVector Space.vmem Cert.Kernel.S512x128 EltTy.f32)

variable [FloatOps F]

section Tile

variable (d : Dev nD) (L : grid0.Coords)

theorem trips_eq : k0_t1_loop.trips = 50 := by decide
theorem cond_zero : ∀ k : Fin k0_t1_loop.trips, k.val = 0 → k0_cond1 k ≠ 1#1 ∧ k0_cond2 k ≠ 1#1 := by decide +kernel
theorem cond_pos : ∀ k : Fin k0_t1_loop.trips, 0 < k.val → k0_cond1 k = 1#1 ∧ k0_cond2 k = 1#1 := by decide +kernel

/-- The loop's invariant before trip `k`: the pieces whose stores have been waited for hold the gathered rows, the
    pieces not yet written hold what they held, and the two pieces trip `k - 1` stored are in flight (none before the
    first trip, when the row scratch is held whole). -/
def Inv (O : CellTallies nD τ sig (HIx 1)) (W : Waits sig (HIx 1)) (q : PosShare TreeShare) (fi : Buf (Elt F) ((sV).view.loc (thrV d L))) (fr : Buf (Elt F) ((rV).view.loc (thrV d L))) (k : ℕ) (_ : Unit) : sProp 𝕄 :=
  iprop(Transfers.MayWaits (thrV d L) (default : HIx 1) O
      ∗ ((sV).view.loc (thrV d L) ↦{fullShare} fi) ∗ ((xV).view.loc (thrV d L) ↦{Transfers.shareTokN q 0} m (xLoc d)) ∗ ((xV).view.loc (thrV d L) ↦{Transfers.shareTokN q 1} m (xLoc d)) ∗ ((xV).view.loc (thrV d L) ↦{Transfers.shareTokN q 2} m (xLoc d)) ∗ ((xV).view.loc (thrV d L) ↦{Transfers.shareTokN q 3} m (xLoc d))
        ∗ semVal ((thrV d L), SemLoc.dma cc0_scratch2.sem) 0 ∗ semVal ((thrV d L), SemLoc.dma cc0_scratch3.sem) 0
        ∗ semVal ((thrV d L), SemLoc.dma cc0_scratch4.sem) 0 ∗ semVal ((thrV d L), SemLoc.dma cc0_scratch5.sem) 0
      ∗ (∃ W', ⌜∀ p ∈ W', p ∈ W ∨ p.2 = none⌝ ∗ owes (thrV d L) O W')
      ∗ (bigSep (Finset.range (2 * (k - 1))) (fun p => (oLoc d ↦[pcN (2 * (L 1).val + (L 0).val) p]{fullShare} Gmid m d : sProp 𝕄)))
      ∗ (bigSep (Finset.Ico (2 * k) 100) (fun p => (oLoc d ↦[pcN (2 * (L 1).val + (L 0).val) p]{fullShare} m (oLoc d) : sProp 𝕄)))
      ∗ (if k = 0 then iprop(((rV).view.loc (thrV d L) ↦{fullShare} fr) ∗ semVal ((thrV d L), SemLoc.dma cc0_scratch6.sem) 0 ∗ semVal ((thrV d L), SemLoc.dma cc0_scratch8.sem) 0) else iprop(∃ fw, Transfers.Flight countersEmb (thrV d L) (SemLoc.dma cc0_scratch6.sem) (default : HIx 1) 1048576 iprop((oLoc d ↦[pcN (2 * (L 1).val + (L 0).val) (2 * (k - 1))]{fullShare} Gmid m d) ∗ ((rV).view.loc (thrV d L) ↦[(rH0).view.set]{fullShare} fw)) ∗ Transfers.Flight countersEmb (thrV d L) (SemLoc.dma cc0_scratch8.sem) (default : HIx 1) 1048576 iprop((oLoc d ↦[pcN (2 * (L 1).val + (L 0).val) (2 * (k - 1) + 1)]{fullShare} Gmid m d) ∗ ((rV).view.loc (thrV d L) ↦[(rH1).view.set]{fullShare} fw)) ∗ ((rV).view.loc (thrV d L) ↦[(Finset.univ \ (rH0).view.set) \ (rH1).view.set]{fullShare} fw))))

theorem inv_zero (O : CellTallies nD τ sig (HIx 1)) (W : Waits sig (HIx 1)) (q : PosShare TreeShare) (fi : Buf (Elt F) ((sV).view.loc (thrV d L))) (fr : Buf (Elt F) ((rV).view.loc (thrV d L))) (k : ℕ) (hk : k = 0) (u : Unit) : Inv m d L O W q fi fr k u ⊢ iprop(Transfers.MayWaits (thrV d L) (default : HIx 1) O
      ∗ ((sV).view.loc (thrV d L) ↦{fullShare} fi) ∗ ((xV).view.loc (thrV d L) ↦{Transfers.shareTokN q 0} m (xLoc d)) ∗ ((xV).view.loc (thrV d L) ↦{Transfers.shareTokN q 1} m (xLoc d)) ∗ ((xV).view.loc (thrV d L) ↦{Transfers.shareTokN q 2} m (xLoc d)) ∗ ((xV).view.loc (thrV d L) ↦{Transfers.shareTokN q 3} m (xLoc d))
        ∗ semVal ((thrV d L), SemLoc.dma cc0_scratch2.sem) 0 ∗ semVal ((thrV d L), SemLoc.dma cc0_scratch3.sem) 0
        ∗ semVal ((thrV d L), SemLoc.dma cc0_scratch4.sem) 0 ∗ semVal ((thrV d L), SemLoc.dma cc0_scratch5.sem) 0
      ∗ (∃ W', ⌜∀ p ∈ W', p ∈ W ∨ p.2 = none⌝ ∗ owes (thrV d L) O W')
      ∗ (bigSep (Finset.range (2 * (k - 1))) (fun p => (oLoc d ↦[pcN (2 * (L 1).val + (L 0).val) p]{fullShare} Gmid m d : sProp 𝕄)))
      ∗ (bigSep (Finset.Ico (2 * k) 100) (fun p => (oLoc d ↦[pcN (2 * (L 1).val + (L 0).val) p]{fullShare} m (oLoc d) : sProp 𝕄)))
      ∗ iprop(((rV).view.loc (thrV d L) ↦{fullShare} fr) ∗ semVal ((thrV d L), SemLoc.dma cc0_scratch6.sem) 0 ∗ semVal ((thrV d L), SemLoc.dma cc0_scratch8.sem) 0)) := by
  unfold Inv; rw [if_pos hk]

theorem inv_init (O : CellTallies nD τ sig (HIx 1)) (W : Waits sig (HIx 1)) (q : PosShare TreeShare) (fi : Buf (Elt F) ((sV).view.loc (thrV d L))) (fr : Buf (Elt F) ((rV).view.loc (thrV d L))) (u : Unit) : iprop(Transfers.MayWaits (thrV d L) (default : HIx 1) O
      ∗ ((sV).view.loc (thrV d L) ↦{fullShare} fi) ∗ ((xV).view.loc (thrV d L) ↦{Transfers.shareTokN q 0} m (xLoc d)) ∗ ((xV).view.loc (thrV d L) ↦{Transfers.shareTokN q 1} m (xLoc d)) ∗ ((xV).view.loc (thrV d L) ↦{Transfers.shareTokN q 2} m (xLoc d)) ∗ ((xV).view.loc (thrV d L) ↦{Transfers.shareTokN q 3} m (xLoc d))
        ∗ semVal ((thrV d L), SemLoc.dma cc0_scratch2.sem) 0 ∗ semVal ((thrV d L), SemLoc.dma cc0_scratch3.sem) 0
        ∗ semVal ((thrV d L), SemLoc.dma cc0_scratch4.sem) 0 ∗ semVal ((thrV d L), SemLoc.dma cc0_scratch5.sem) 0
      ∗ (∃ W', ⌜∀ p ∈ W', p ∈ W ∨ p.2 = none⌝ ∗ owes (thrV d L) O W')
      ∗ (bigSep (Finset.range (2 * (0 - 1))) (fun p => (oLoc d ↦[pcN (2 * (L 1).val + (L 0).val) p]{fullShare} Gmid m d : sProp 𝕄)))
      ∗ (bigSep (Finset.Ico (2 * 0) 100) (fun p => (oLoc d ↦[pcN (2 * (L 1).val + (L 0).val) p]{fullShare} m (oLoc d) : sProp 𝕄)))
      ∗ iprop(((rV).view.loc (thrV d L) ↦{fullShare} fr) ∗ semVal ((thrV d L), SemLoc.dma cc0_scratch6.sem) 0 ∗ semVal ((thrV d L), SemLoc.dma cc0_scratch8.sem) 0)) ⊢ Inv m d L O W q fi fr 0 u := by
  unfold Inv; rw [if_pos rfl]

theorem inv_pos (O : CellTallies nD τ sig (HIx 1)) (W : Waits sig (HIx 1)) (q : PosShare TreeShare) (fi : Buf (Elt F) ((sV).view.loc (thrV d L))) (fr : Buf (Elt F) ((rV).view.loc (thrV d L))) (k : ℕ) (hk : 0 < k) (u : Unit) : Inv m d L O W q fi fr k u ⊢ iprop(Transfers.MayWaits (thrV d L) (default : HIx 1) O
      ∗ ((sV).view.loc (thrV d L) ↦{fullShare} fi) ∗ ((xV).view.loc (thrV d L) ↦{Transfers.shareTokN q 0} m (xLoc d)) ∗ ((xV).view.loc (thrV d L) ↦{Transfers.shareTokN q 1} m (xLoc d)) ∗ ((xV).view.loc (thrV d L) ↦{Transfers.shareTokN q 2} m (xLoc d)) ∗ ((xV).view.loc (thrV d L) ↦{Transfers.shareTokN q 3} m (xLoc d))
        ∗ semVal ((thrV d L), SemLoc.dma cc0_scratch2.sem) 0 ∗ semVal ((thrV d L), SemLoc.dma cc0_scratch3.sem) 0
        ∗ semVal ((thrV d L), SemLoc.dma cc0_scratch4.sem) 0 ∗ semVal ((thrV d L), SemLoc.dma cc0_scratch5.sem) 0
      ∗ (∃ W', ⌜∀ p ∈ W', p ∈ W ∨ p.2 = none⌝ ∗ owes (thrV d L) O W')
      ∗ (bigSep (Finset.range (2 * (k - 1))) (fun p => (oLoc d ↦[pcN (2 * (L 1).val + (L 0).val) p]{fullShare} Gmid m d : sProp 𝕄)))
      ∗ (bigSep (Finset.Ico (2 * k) 100) (fun p => (oLoc d ↦[pcN (2 * (L 1).val + (L 0).val) p]{fullShare} m (oLoc d) : sProp 𝕄)))
      ∗ iprop(∃ fw, Transfers.Flight countersEmb (thrV d L) (SemLoc.dma cc0_scratch6.sem) (default : HIx 1) 1048576 iprop((oLoc d ↦[pcN (2 * (L 1).val + (L 0).val) (2 * (k - 1))]{fullShare} Gmid m d) ∗ ((rV).view.loc (thrV d L) ↦[(rH0).view.set]{fullShare} fw)) ∗ Transfers.Flight countersEmb (thrV d L) (SemLoc.dma cc0_scratch8.sem) (default : HIx 1) 1048576 iprop((oLoc d ↦[pcN (2 * (L 1).val + (L 0).val) (2 * (k - 1) + 1)]{fullShare} Gmid m d) ∗ ((rV).view.loc (thrV d L) ↦[(rH1).view.set]{fullShare} fw)) ∗ ((rV).view.loc (thrV d L) ↦[(Finset.univ \ (rH0).view.set) \ (rH1).view.set]{fullShare} fw))) := by
  unfold Inv; rw [if_neg (by omega)]

theorem inv_succ (O : CellTallies nD τ sig (HIx 1)) (W : Waits sig (HIx 1)) (q : PosShare TreeShare) (fi : Buf (Elt F) ((sV).view.loc (thrV d L))) (fr : Buf (Elt F) ((rV).view.loc (thrV d L))) (k : ℕ) (u : Unit) : iprop(Transfers.MayWaits (thrV d L) (default : HIx 1) O
      ∗ ((sV).view.loc (thrV d L) ↦{fullShare} fi) ∗ ((xV).view.loc (thrV d L) ↦{Transfers.shareTokN q 0} m (xLoc d)) ∗ ((xV).view.loc (thrV d L) ↦{Transfers.shareTokN q 1} m (xLoc d)) ∗ ((xV).view.loc (thrV d L) ↦{Transfers.shareTokN q 2} m (xLoc d)) ∗ ((xV).view.loc (thrV d L) ↦{Transfers.shareTokN q 3} m (xLoc d))
        ∗ semVal ((thrV d L), SemLoc.dma cc0_scratch2.sem) 0 ∗ semVal ((thrV d L), SemLoc.dma cc0_scratch3.sem) 0
        ∗ semVal ((thrV d L), SemLoc.dma cc0_scratch4.sem) 0 ∗ semVal ((thrV d L), SemLoc.dma cc0_scratch5.sem) 0
      ∗ (∃ W', ⌜∀ p ∈ W', p ∈ W ∨ p.2 = none⌝ ∗ owes (thrV d L) O W')
      ∗ (bigSep (Finset.range (2 * ((k + 1) - 1))) (fun p => (oLoc d ↦[pcN (2 * (L 1).val + (L 0).val) p]{fullShare} Gmid m d : sProp 𝕄)))
      ∗ (bigSep (Finset.Ico (2 * (k + 1)) 100) (fun p => (oLoc d ↦[pcN (2 * (L 1).val + (L 0).val) p]{fullShare} m (oLoc d) : sProp 𝕄)))
      ∗ iprop(∃ fw, Transfers.Flight countersEmb (thrV d L) (SemLoc.dma cc0_scratch6.sem) (default : HIx 1) 1048576 iprop((oLoc d ↦[pcN (2 * (L 1).val + (L 0).val) (2 * (k))]{fullShare} Gmid m d) ∗ ((rV).view.loc (thrV d L) ↦[(rH0).view.set]{fullShare} fw)) ∗ Transfers.Flight countersEmb (thrV d L) (SemLoc.dma cc0_scratch8.sem) (default : HIx 1) 1048576 iprop((oLoc d ↦[pcN (2 * (L 1).val + (L 0).val) (2 * (k) + 1)]{fullShare} Gmid m d) ∗ ((rV).view.loc (thrV d L) ↦[(rH1).view.set]{fullShare} fw)) ∗ ((rV).view.loc (thrV d L) ↦[(Finset.univ \ (rH0).view.set) \ (rH1).view.set]{fullShare} fw))) ⊢ Inv m d L O W q fi fr (k + 1) u := by
  unfold Inv; rw [if_neg (Nat.succ_ne_zero k), Nat.add_sub_cancel]

omit [FloatOps F] in
/-- A piece in the program's spelling is the piece by its rows. -/
theorem pc_eq (k : Fin k0_t1_loop.trips) (r : Fin 2) (f : Buf (Elt F) (oLoc d)) :
    (((oPc L k r).view.loc (thrV d L) ↦[(oPc L k r).view.set]{fullShare} f : sProp 𝕄)) = (oLoc d ↦[pcN (2 * (L 1).val + (L 0).val) (2 * k.val + r.val)]{fullShare} f) := by
  rw [set_oPc]

omit [FloatOps F] in
/-- The pieces not yet written, before trip `k`: the two trip `k` writes and the rest. -/
theorem todo_take (k : Fin k0_t1_loop.trips) (f : Buf (Elt F) (oLoc d)) :
    (bigSep (Finset.Ico (2 * k.val) 100) (fun p => (oLoc d ↦[pcN (2 * (L 1).val + (L 0).val) p]{fullShare} f : sProp 𝕄)))
      = iprop(((oPc L k 0).view.loc (thrV d L) ↦[(oPc L k 0).view.set]{fullShare} f) ∗ ((oPc L k 1).view.loc (thrV d L) ↦[(oPc L k 1).view.set]{fullShare} f)
          ∗ bigSep (Finset.Ico (2 * (k.val + 1)) 100) (fun p => (oLoc d ↦[pcN (2 * (L 1).val + (L 0).val) p]{fullShare} f : sProp 𝕄))) := by
  have hk : k.val < 50 := trips_eq ▸ k.isLt
  rw [Ico_take2 (fun p => (oLoc d ↦[pcN (2 * (L 1).val + (L 0).val) p]{fullShare} f : sProp 𝕄)) (2 * k.val) (by omega), pc_eq, pc_eq]
  rfl

omit [FloatOps F] in
/-- The pieces delivered, after the stores of trip `k - 1` have been waited for. -/
theorem done_put (k : ℕ) (hk : 0 < k) (g : Buf (Elt F) (oLoc d)) :
    iprop((bigSep (Finset.range (2 * (k - 1))) (fun p => (oLoc d ↦[pcN (2 * (L 1).val + (L 0).val) p]{fullShare} g : sProp 𝕄))) ∗ (oLoc d ↦[pcN (2 * (L 1).val + (L 0).val) (2 * (k - 1))]{fullShare} g) ∗ (oLoc d ↦[pcN (2 * (L 1).val + (L 0).val) (2 * (k - 1) + 1)]{fullShare} g))
      = (bigSep (Finset.range (2 * (k + 1 - 1))) (fun p => (oLoc d ↦[pcN (2 * (L 1).val + (L 0).val) p]{fullShare} g : sProp 𝕄)) : sProp 𝕄) := by
  rw [show 2 * (k + 1 - 1) = 2 * (k - 1) + 2 by omega, range_succ2 (fun p => (oLoc d ↦[pcN (2 * (L 1).val + (L 0).val) p]{fullShare} g : sProp 𝕄)) (2 * (k - 1))]

set_option maxHeartbeats 2000000 in
/-- One trip takes the invariant to the invariant of the next. -/
theorem region (O : CellTallies nD τ sig (HIx 1)) (W : Waits sig (HIx 1)) (q : PosShare TreeShare) (fi : Buf (Elt F) ((sV).view.loc (thrV d L))) (fr : Buf (Elt F) ((rV).view.loc (thrV d L))) (v2 : BitVec 32)
    (hin : ∀ k : Fin k0_t1_loop.trips, (∀ x, ((offK0 k).view.read (Elt F) fi x).toNat < S100000x128.size gathers_S100000x128_S128x128.axis) ∧ (∀ x, ((offK1 k).view.read (Elt F) fi x).toNat < S100000x128.size gathers_S100000x128_S128x128.axis) ∧ (∀ x, ((offK2 k).view.read (Elt F) fi x).toNat < S100000x128.size gathers_S100000x128_S128x128.axis) ∧ (∀ x, ((offK3 k).view.read (Elt F) fi x).toNat < S100000x128.size gathers_S100000x128_S128x128.axis))
    (hval0 : ∀ (k : Fin k0_t1_loop.trips) (hn : S128.numel = S128x128.size gathers_S100000x128_S128x128.axis') (hin0 : ∀ x, ((offK0 k).view.read (Elt F) fi x).toNat < S100000x128.size gathers_S100000x128_S128x128.axis) (hin1 : ∀ x, ((offK1 k).view.read (Elt F) fi x).toNat < S100000x128.size gathers_S100000x128_S128x128.axis) (hin2 : ∀ x, ((offK2 k).view.read (Elt F) fi x).toNat < S100000x128.size gathers_S100000x128_S128x128.axis) (hin3 : ∀ x, ((offK3 k).view.read (Elt F) fi x).toNat < S100000x128.size gathers_S100000x128_S128x128.axis) (fo : Buf (Elt F) ((oV).view.loc (thrV d L))) (fr : Buf (Elt F) ((rV).view.loc (thrV d L))), ∀ x ∈ (oPc L k 0).view.set, ((oPc L k 0).view.writes (Elt F) fo [⟨Rect.whole S256x128, ReadAs.same.apply ((rH0).view.read (Elt F) ((rV).view.writes (Elt F) fr
          [⟨Rect.unit ![384, 0] S128x128.size inb_S512x128_S128x128_384_0, SparseCore.gatherPayload gathers_S100000x128_S128x128 ((xAllK).view.read (Elt F) (m (xLoc d))) (SparseCore.rows ((offK3 k).view.read (Elt F) fi) hn hin3)⟩,
           ⟨Rect.unit ![256, 0] S128x128.size inb_S512x128_S128x128_256_0, SparseCore.gatherPayload gathers_S100000x128_S128x128 ((xAllK).view.read (Elt F) (m (xLoc d))) (SparseCore.rows ((offK2 k).view.read (Elt F) fi) hn hin2)⟩,
           ⟨Rect.unit ![128, 0] S128x128.size inb_S512x128_S128x128_128_0, SparseCore.gatherPayload gathers_S100000x128_S128x128 ((xAllK).view.read (Elt F) (m (xLoc d))) (SparseCore.rows ((offK1 k).view.read (Elt F) fi) hn hin1)⟩,
           ⟨Rect.unit ![0, 0] S128x128.size inb_S512x128_S128x128_0_0, SparseCore.gatherPayload gathers_S100000x128_S128x128 ((xAllK).view.read (Elt F) (m (xLoc d))) (SparseCore.rows ((offK0 k).view.read (Elt F) fi) hn hin0)⟩]))⟩]) x = Gmid m d x)
    (hval1 : ∀ (k : Fin k0_t1_loop.trips) (hn : S128.numel = S128x128.size gathers_S100000x128_S128x128.axis') (hin0 : ∀ x, ((offK0 k).view.read (Elt F) fi x).toNat < S100000x128.size gathers_S100000x128_S128x128.axis) (hin1 : ∀ x, ((offK1 k).view.read (Elt F) fi x).toNat < S100000x128.size gathers_S100000x128_S128x128.axis) (hin2 : ∀ x, ((offK2 k).view.read (Elt F) fi x).toNat < S100000x128.size gathers_S100000x128_S128x128.axis) (hin3 : ∀ x, ((offK3 k).view.read (Elt F) fi x).toNat < S100000x128.size gathers_S100000x128_S128x128.axis) (fo : Buf (Elt F) ((oV).view.loc (thrV d L))) (fr : Buf (Elt F) ((rV).view.loc (thrV d L))), ∀ x ∈ (oPc L k 1).view.set, ((oPc L k 1).view.writes (Elt F) fo [⟨Rect.whole S256x128, ReadAs.same.apply ((rH1).view.read (Elt F) ((rV).view.writes (Elt F) fr
          [⟨Rect.unit ![384, 0] S128x128.size inb_S512x128_S128x128_384_0, SparseCore.gatherPayload gathers_S100000x128_S128x128 ((xAllK).view.read (Elt F) (m (xLoc d))) (SparseCore.rows ((offK3 k).view.read (Elt F) fi) hn hin3)⟩,
           ⟨Rect.unit ![256, 0] S128x128.size inb_S512x128_S128x128_256_0, SparseCore.gatherPayload gathers_S100000x128_S128x128 ((xAllK).view.read (Elt F) (m (xLoc d))) (SparseCore.rows ((offK2 k).view.read (Elt F) fi) hn hin2)⟩,
           ⟨Rect.unit ![128, 0] S128x128.size inb_S512x128_S128x128_128_0, SparseCore.gatherPayload gathers_S100000x128_S128x128 ((xAllK).view.read (Elt F) (m (xLoc d))) (SparseCore.rows ((offK1 k).view.read (Elt F) fi) hn hin1)⟩,
           ⟨Rect.unit ![0, 0] S128x128.size inb_S512x128_S128x128_0_0, SparseCore.gatherPayload gathers_S100000x128_S128x128 ((xAllK).view.read (Elt F) (m (xLoc d))) (SparseCore.rows ((offK0 k).view.read (Elt F) fi) hn hin0)⟩]))⟩]) x = Gmid m d x) :
    ∀ (k : Fin k0_t1_loop.trips) (acc : Unit), Inv m d L O W q fi fr k.val acc
      ⊢ wp frame (wpE (defs₀ (F := F)) 𝒱₀ (thrV d L) none) Set.univ
          (k0_t1_body L iV (Memref.isWhole_whole _) xV (Memref.isWhole_whole _) oV (Memref.isWhole_whole _)
            sV (Memref.isWhole_whole _) rV (Memref.isWhole_whole _) cc0_scratch2 cc0_scratch3 cc0_scratch4 cc0_scratch5 cc0_scratch6 cc0_scratch7 cc0_scratch8 cc0_scratch9 cc0_scoped0 v2 k acc)
          (Inv m d L O W q fi fr (k.val + 1)) := by
  intro k acc
  obtain ⟨hin0, hin1, hin2, hin3⟩ := hin k
  have hnn : S128.numel = S128x128.size gathers_S100000x128_S128x128.axis' := by decide
  rcases Nat.eq_zero_or_pos k.val with hk | hk
  · obtain ⟨hc1, hc2⟩ := cond_zero k hk
    refine (inv_zero m d L O W q fi fr k.val hk acc).trans ?_
    iintro ⟨#Hmw, Hs, Hx0, Hx1, Hx2, Hx3, Hc0, Hc1, Hc2, Hc3, ⟨%W1, %hW1, HO⟩, Hdone, Htodo, Hr, Hc4, Hc6⟩
    ihave H2 := (Entails.of_eq (todo_take d L k (m (oLoc d)))) $$ Htodo
    icases H2 with ⟨Ho0, Ho1, Htodo⟩
    iapply (wp_wand_r frame (wpE (defs₀ (F := F)) 𝒱₀ (thrV d L) none) Set.univ)
    isplitl [Hs Hx0 Hx1 Hx2 Hx3 Hc0 Hc1 Hc2 Hc3 Hr Ho0 Ho1 Hc4 Hc6 HO]
    · iapply (trip_first m d L k hc1 hc2 O W1 q v2 fi fr (m (oLoc d)) hnn hin0 hin1 hin2 hin3 (hval0 k hnn hin0 hin1 hin2 hin3) (hval1 k hnn hin0 hin1 hin2 hin3))
      isplitr; · iexact Hmw
      isplitl [Hs]; · iexact Hs
      isplitl [Hx0]; · iexact Hx0
      isplitl [Hx1]; · iexact Hx1
      isplitl [Hx2]; · iexact Hx2
      isplitl [Hx3]; · iexact Hx3
      isplitl [Hc0]; · iexact Hc0
      isplitl [Hc1]; · iexact Hc1
      isplitl [Hc2]; · iexact Hc2
      isplitl [Hc3]; · iexact Hc3
      isplitl [Hr]; · iexact Hr
      isplitl [Ho0]; · iexact Ho0
      isplitl [Ho1]; · iexact Ho1
      isplitl [Hc4]; · iexact Hc4
      isplitl [Hc6]; · iexact Hc6
      iexact HO
    · iintro %u ⟨Hs, Hx0, Hx1, Hx2, Hx3, Hc0, Hc1, Hc2, Hc3, Hfl, ⟨%W2, %hW2, HO⟩⟩
      iapply (inv_succ m d L O W q fi fr k.val u)
      isplitr; · iexact Hmw
      isplitl [Hs]; · iexact Hs
      isplitl [Hx0]; · iexact Hx0
      isplitl [Hx1]; · iexact Hx1
      isplitl [Hx2]; · iexact Hx2
      isplitl [Hx3]; · iexact Hx3
      isplitl [Hc0]; · iexact Hc0
      isplitl [Hc1]; · iexact Hc1
      isplitl [Hc2]; · iexact Hc2
      isplitl [Hc3]; · iexact Hc3
      isplitl [HO]
      · iexists W2; isplitr
        · ipureintro; intro p hp; rcases hW2 p hp with h | h
          · exact hW1 p h
          · exact .inr h
        · iexact HO
      isplitl [Hdone]
      · iapply (Entails.of_eq (show (bigSep (Finset.range (2 * (k.val - 1))) (fun p => (oLoc d ↦[pcN (2 * (L 1).val + (L 0).val) p]{fullShare} Gmid m d : sProp 𝕄))) = bigSep (Finset.range (2 * (k.val + 1 - 1))) (fun p => (oLoc d ↦[pcN (2 * (L 1).val + (L 0).val) p]{fullShare} Gmid m d : sProp 𝕄)) by
          rw [show 2 * (k.val + 1 - 1) = 2 * (k.val - 1) by omega]))
        iexact Hdone
      isplitl [Htodo]; · iexact Htodo
      iexact Hfl
  · obtain ⟨hc1, hc2⟩ := cond_pos k hk
    refine (inv_pos m d L O W q fi fr k.val hk acc).trans ?_
    iintro ⟨#Hmw, Hs, Hx0, Hx1, Hx2, Hx3, Hc0, Hc1, Hc2, Hc3, ⟨%W1, %hW1, HO⟩, Hdone, Htodo, ⟨%fw, Hfa, Hfb, Hrest⟩⟩
    ihave H2 := (Entails.of_eq (todo_take d L k (m (oLoc d)))) $$ Htodo
    icases H2 with ⟨Ho0, Ho1, Htodo⟩
    iapply (wp_wand_r frame (wpE (defs₀ (F := F)) 𝒱₀ (thrV d L) none) Set.univ)
    isplitl [Hs Hx0 Hx1 Hx2 Hx3 Hc0 Hc1 Hc2 Hc3 Hfa Hfb Hrest Ho0 Ho1 HO]
    · iapply (trip_next m d L k hc1 hc2 O W1 q v2 fi fw (m (oLoc d)) (2 * (k.val - 1)) (2 * (k.val - 1) + 1) hnn hin0 hin1 hin2 hin3 (hval0 k hnn hin0 hin1 hin2 hin3) (hval1 k hnn hin0 hin1 hin2 hin3))
      isplitr; · iexact Hmw
      isplitl [Hs]; · iexact Hs
      isplitl [Hx0]; · iexact Hx0
      isplitl [Hx1]; · iexact Hx1
      isplitl [Hx2]; · iexact Hx2
      isplitl [Hx3]; · iexact Hx3
      isplitl [Hc0]; · iexact Hc0
      isplitl [Hc1]; · iexact Hc1
      isplitl [Hc2]; · iexact Hc2
      isplitl [Hc3]; · iexact Hc3
      isplitl [Hfa]; · iexact Hfa
      isplitl [Hfb]; · iexact Hfb
      isplitl [Hrest]; · iexact Hrest
      isplitl [Ho0]; · iexact Ho0
      isplitl [Ho1]; · iexact Ho1
      iexact HO
    · iintro %u ⟨Hs, Hx0, Hx1, Hx2, Hx3, Hc0, Hc1, Hc2, Hc3, Hfl, ⟨%W2, %hW2, HO⟩, Hda, Hdb⟩
      iapply (inv_succ m d L O W q fi fr k.val u)
      isplitr; · iexact Hmw
      isplitl [Hs]; · iexact Hs
      isplitl [Hx0]; · iexact Hx0
      isplitl [Hx1]; · iexact Hx1
      isplitl [Hx2]; · iexact Hx2
      isplitl [Hx3]; · iexact Hx3
      isplitl [Hc0]; · iexact Hc0
      isplitl [Hc1]; · iexact Hc1
      isplitl [Hc2]; · iexact Hc2
      isplitl [Hc3]; · iexact Hc3
      isplitl [HO]
      · iexists W2; isplitr
        · ipureintro; intro p hp; rcases hW2 p hp with h | h
          · exact hW1 p h
          · exact .inr h
        · iexact HO
      isplitl [Hdone Hda Hdb]
      · iapply (Entails.of_eq (done_put d L k.val hk (Gmid m d)))
        isplitl [Hdone]; · iexact Hdone
        isplitl [Hda]; · iexact Hda
        iexact Hdb
      isplitl [Htodo]; · iexact Htodo
      iexact Hfl

end Tile

end Cert.Proof.K

end
-- ==== Proof.K.Value.lean ====
/-
  The value of one 256-row piece of the output as a tile leaves it.

  In trip k the tile's four gathers read rows 4k, 4k+1, 4k+2, 4k+3 of its index words (row w of the index array
  seen as 32 × 200 × 128, w the tile's worker number) and fill the four 128-row quarters of its row scratch: row
  128·b + i of the scratch is the table's row named by word (4k+b, i). Half r of the scratch (rows 256·r …) is then
  copied to rows 25600·w + 512·k + 256·r … of the 819200 × 128 array. Row 25600·w + 512·k + z of that array should
  be the table's row named by the index word at row-major position 25600·w + 512·k + z of the index array, and
  word (w, 4k+b, i) of the 32 × 200 × 128 arrangement sits at row-major position (200·w + 4k + b)·128 + i, which is
  that position for z = 128·b + i.
-/
import proofs.«207032_g58884001628331_cont_9to1_m_206_11_alg».proof.Proof.K.Glue
import Idealize.ShloMosaic.Lib.Pipeline.Value
import Idealize.ShloMosaic.Lib.Writes

noncomputable section

namespace Cert.Proof.K

open Cert.Kernel Cert.Kernel.Gen

open Idealize.ShloMosaic
open Idealize.ShloMosaic.SparseCore (S V T)
open Idealize.ShloMosaic.ValueIdx

variable {F : FTy → Type}

variable (m : (ℓ : Loc nD τ sig) → Buf (Elt F) ℓ)

local notation "iV" => (Memref.whole Cert.Kernel.main_v0_scv : Memref Cert.Kernel.sig Kind.scVector Space.hbm Cert.Kernel.S32x200x128 EltTy.i32)
local notation "xV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S819200x128 EltTy.f32)
local notation "sV" => (Memref.whole Cert.Kernel.cc0_scratch0 : Memref Cert.Kernel.sig Kind.scVector Space.vmem Cert.Kernel.S200x128 EltTy.i32)
local notation "rV" => (Memref.whole Cert.Kernel.cc0_scratch1 : Memref Cert.Kernel.sig Kind.scVector Space.vmem Cert.Kernel.S512x128 EltTy.f32)

variable [FloatOps F]

section Tile

variable (d : Dev nD) (L : grid0.Coords)

/-- There are fifty trips. -/
theorem trips_le : k0_t1_loop.trips ≤ 50 := k0_t1_abs.2.1

/-! ## A row of the tile's index words, as a gather's list reads it -/

/-- Row `4k + b` of the index scratch, squeezed to a vector, reads word `(4k + b, i)` at `i`. -/
theorem off_read (k : Fin k0_t1_loop.trips) (b : Fin 4) (fi : Buf (Elt F) ((sV).view.loc (thrV d L))) (x : S128.Idx) :
    (((sV).slice (Rect.unit (s := S200x128) (k0_off3 k (BitVec.ofNat 32 b.val)) S1x128.size (k0_off3_inb k b)) (fun _ => rfl)).squeeze S128
        squeezes_S1x128_S128).view.read (Elt F) fi x
      = fi (ix2 (⟨4 * k.val + b.val, by have := k.isLt; have := trips_le; have := b.isLt; omega⟩ : Fin 200) (x 0)) := by
  have hre := Shape.reshapeEquiv_cons_one (n := 1) (d := ![128]) squeezes_S1x128_S128.numel_eq x
  have e0 : k0_off3 k (BitVec.ofNat 32 b.val) 0 = 4 * k.val + b.val := by rw [k0_off3_eq k b]; rfl
  have e1 : k0_off3 k (BitVec.ofNat 32 b.val) 1 = 0 := by rw [k0_off3_eq k b]; rfl
  have r0 : ((Shape.reshapeEquiv squeezes_S1x128_S128.numel_eq x) 0).val = 0 := by rw [hre]; rfl
  have r1 : ((Shape.reshapeEquiv squeezes_S1x128_S128.numel_eq x) 1).val = (x 0).val := by rw [hre]; rfl
  rw [View.read_apply]
  show fi _ = fi _
  refine congrArg fi (funext fun a => Fin.ext ?_)
  match a with
  | ⟨0, _⟩ =>
    show k0_off3 k (BitVec.ofNat 32 b.val) 0 + 1 * ((Shape.reshapeEquiv squeezes_S1x128_S128.numel_eq x) 0).val = 4 * k.val + b.val
    omega
  | ⟨1, _⟩ =>
    show k0_off3 k (BitVec.ofNat 32 b.val) 1 + 1 * ((Shape.reshapeEquiv squeezes_S1x128_S128.numel_eq x) 1).val = (x 0).val
    omega

theorem offK0_read (k : Fin k0_t1_loop.trips) (fi : Buf (Elt F) ((sV).view.loc (thrV d L))) (x : S128.Idx) :
    (offK0 k).view.read (Elt F) fi x
      = fi (ix2 (⟨4 * k.val + 0, by have := k.isLt; have := trips_le; omega⟩ : Fin 200) (x 0)) := off_read d L k 0 fi x
theorem offK1_read (k : Fin k0_t1_loop.trips) (fi : Buf (Elt F) ((sV).view.loc (thrV d L))) (x : S128.Idx) :
    (offK1 k).view.read (Elt F) fi x
      = fi (ix2 (⟨4 * k.val + 1, by have := k.isLt; have := trips_le; omega⟩ : Fin 200) (x 0)) := off_read d L k 1 fi x
theorem offK2_read (k : Fin k0_t1_loop.trips) (fi : Buf (Elt F) ((sV).view.loc (thrV d L))) (x : S128.Idx) :
    (offK2 k).view.read (Elt F) fi x
      = fi (ix2 (⟨4 * k.val + 2, by have := k.isLt; have := trips_le; omega⟩ : Fin 200) (x 0)) := off_read d L k 2 fi x
theorem offK3_read (k : Fin k0_t1_loop.trips) (fi : Buf (Elt F) ((sV).view.loc (thrV d L))) (x : S128.Idx) :
    (offK3 k).view.read (Elt F) fi x
      = fi (ix2 (⟨4 * k.val + 3, by have := k.isLt; have := trips_le; omega⟩ : Fin 200) (x 0)) := off_read d L k 3 fi x

/-! ## The index words -/

/-- Every index word names a row of the table, under the 32 × 200 × 128 arrangement too. -/
theorem idx3_lt (hpre : PreOK m) (z : S32x200x128.Idx) : (idx3 m d z).toNat < 100000 := hpre d _

/-- Word `(w, j, l)` of the 32 × 200 × 128 arrangement is the word at row-major position `(200·w + j)·128 + l`. -/
theorem word_eq (w : Fin 32) (j : Fin 200) (l : Fin 128) (R : Fin 819200) (hR : R.val = (200 * w.val + j.val) * 128 + l.val) :
    idx3 m d (ix3 w j l) = shapeCast Cert.Spec.SFlat (m (aLoc d)) Cert.Spec.casts_flat (ix1 R) := by
  unfold idx3 shapeCast
  refine congrArg (m (aLoc d)) (Shape.reshapeEquiv_eq_of_rowMajor _ ?_)
  rw [Shape.rowMajor_reshapeEquiv, Shape.rowMajor_val_three, Shape.rowMajor_val_one]
  show R.val = ((w.val * 200 + j.val) * 128 + l.val)
  omega

/-! ## One gather's payload at an index -/

/-- All of the table, read through the task's whole-array slice, is the table. -/
theorem xAll_read (tab : Buf (Elt F) ((xV).view.loc (thrV d L))) : (xAllK).view.read (Elt F) tab = tab := by
  funext i
  rw [View.read_apply]
  show tab _ = tab i
  refine congrArg tab (funext fun a => Fin.ext ?_)
  match a with
  | ⟨0, _⟩ => show 0 + 1 * (i 0).val = (i 0).val; omega
  | ⟨1, _⟩ => show 0 + 1 * (i 1).val = (i 1).val; omega

/-- Position `q` of a 128-vector in row-major order is index `q`. -/
theorem rowMajor_symm_S128 (q : Fin S128.numel) (hq : q.val < 128) : S128.rowMajor.symm q = ix1 (⟨q.val, hq⟩ : Fin 128) :=
  (Equiv.symm_apply_eq _).2 (Fin.ext (by rw [Shape.rowMajor_val_one]))

/-- The payload of a gather of 128 rows at row `i`, column `c`: the source at the row the list's word `i` names, column `c`. -/
theorem payload_apply (g : S100000x128.Idx → Elt F .f32) (idx : S128.Idx → Elt F .i32)
    (hn : S128.numel = S128x128.size gathers_S100000x128_S128x128.axis')
    (hin : ∀ x, (idx x).toNat < S100000x128.size gathers_S100000x128_S128x128.axis) (x' : S128x128.Idx) :
    SparseCore.gatherPayload gathers_S100000x128_S128x128 g (SparseCore.rows idx hn hin) x'
      = g (ix2 (⟨(idx (ix1 (x' 0))).toNat, hin _⟩ : Fin 100000) (x' 1)) := by
  unfold SparseCore.gatherPayload
  refine congrArg g (funext fun a => Fin.ext ?_)
  match a with
  | ⟨0, _⟩ =>
    show ((SparseCore.rows idx hn hin (x' 0)) : Fin _).val = (idx (ix1 (x' 0))).toNat
    unfold SparseCore.rows
    show (idx (S128.rowMajor.symm _)).toNat = _
    exact congrArg (fun j => (idx j).toNat) (rowMajor_symm_S128 _ (x' 0).isLt)
  | ⟨1, _⟩ => rfl

/-! ## The tile's list words are its row of the index words -/

/-- The tile's index scratch holds row `w` of the index words, `w` its worker number. -/
abbrev Hfi (fi : Buf (Elt F) ((sV).view.loc (thrV d L))) : Prop :=
  ∀ (j : Fin 200) (l : Fin 128), fi (ix2 j l) = idx3 m d (ix3 (⟨2 * (L 1).val + (L 0).val, wid_lt L⟩ : Fin 32) j l)

/-- Word `i` of the list gather `b` of trip `k` reads is index word `(w, 4k + b, i)`. -/
theorem off_word (fi : Buf (Elt F) ((sV).view.loc (thrV d L))) (hfi : Hfi m d L fi) (k : Fin k0_t1_loop.trips) (b : Fin 4) (x : S128.Idx) :
    (((sV).slice (Rect.unit (s := S200x128) (k0_off3 k (BitVec.ofNat 32 b.val)) S1x128.size (k0_off3_inb k b)) (fun _ => rfl)).squeeze S128
        squeezes_S1x128_S128).view.read (Elt F) fi x
      = idx3 m d (ix3 (⟨2 * (L 1).val + (L 0).val, wid_lt L⟩ : Fin 32)
          (⟨4 * k.val + b.val, by have := k.isLt; have := trips_le; have := b.isLt; omega⟩ : Fin 200) (x 0)) :=
  (off_read d L k b fi x).trans (hfi _ _)

/-- Every word a gather's list reads names a row of the table. -/
theorem hin_ok (hpre : PreOK m) (fi : Buf (Elt F) ((sV).view.loc (thrV d L))) (hfi : Hfi m d L fi) (k : Fin k0_t1_loop.trips) :
    (∀ x, ((offK0 k).view.read (Elt F) fi x).toNat < S100000x128.size gathers_S100000x128_S128x128.axis)
    ∧ (∀ x, ((offK1 k).view.read (Elt F) fi x).toNat < S100000x128.size gathers_S100000x128_S128x128.axis)
    ∧ (∀ x, ((offK2 k).view.read (Elt F) fi x).toNat < S100000x128.size gathers_S100000x128_S128x128.axis)
    ∧ (∀ x, ((offK3 k).view.read (Elt F) fi x).toNat < S100000x128.size gathers_S100000x128_S128x128.axis) :=
  ⟨fun x => by rw [show (offK0 k).view.read (Elt F) fi x = _ from off_word m d L fi hfi k 0 x]; exact idx3_lt m d hpre _,
   fun x => by rw [show (offK1 k).view.read (Elt F) fi x = _ from off_word m d L fi hfi k 1 x]; exact idx3_lt m d hpre _,
   fun x => by rw [show (offK2 k).view.read (Elt F) fi x = _ from off_word m d L fi hfi k 2 x]; exact idx3_lt m d hpre _,
   fun x => by rw [show (offK3 k).view.read (Elt F) fi x = _ from off_word m d L fi hfi k 3 x]; exact idx3_lt m d hpre _⟩

/-! ## The row scratch after a trip's four gathers -/

/-- What the row scratch holds after trip `k`'s gathers: row `z` is the gathered row for output row
    `25600·w + 512·k + z`. -/
def Grow (k : Fin k0_t1_loop.trips) : S512x128.Idx → Elt F .f32 := fun z =>
  Gmid m d (ix2 (⟨(25600 * (2 * (L 1).val + (L 0).val) + 512 * k.val + (z 0).val) % 819200, Nat.mod_lt _ (by norm_num)⟩ : Fin 819200) (z 1))

/-- Quarter `b` of the row scratch, as gather `b` of trip `k` fills it, is that function on the quarter. -/
theorem piece_eq (hpre : PreOK m) (fi : Buf (Elt F) ((sV).view.loc (thrV d L))) (hfi : Hfi m d L fi) (k : Fin k0_t1_loop.trips) (b : Fin 4)
    (off : Fin 2 → Nat) (inb : ∀ a, off a + S128x128.size a ≤ S512x128.size a) (h0 : off 0 = 128 * b.val) (h1 : off 1 = 0)
    (hn : S128.numel = S128x128.size gathers_S100000x128_S128x128.axis')
    (hin : ∀ x, ((((sV).slice (Rect.unit (s := S200x128) (k0_off3 k (BitVec.ofNat 32 b.val)) S1x128.size (k0_off3_inb k b)) (fun _ => rfl)).squeeze S128
        squeezes_S1x128_S128).view.read (Elt F) fi x).toNat < S100000x128.size gathers_S100000x128_S128x128.axis)
    (x' : S128x128.Idx) :
    SparseCore.gatherPayload gathers_S100000x128_S128x128 ((xAllK).view.read (Elt F) (m (xLoc d)))
        (SparseCore.rows ((((sV).slice (Rect.unit (s := S200x128) (k0_off3 k (BitVec.ofNat 32 b.val)) S1x128.size (k0_off3_inb k b)) (fun _ => rfl)).squeeze S128
          squeezes_S1x128_S128).view.read (Elt F) fi) hn hin) x'
      = Grow m d L k ((Rect.unit (s := S512x128) off S128x128.size inb).emb x') := by
  rw [payload_apply, xAll_read d L (m (xLoc d))]
  unfold Grow Gmid Cert.Spec.mid
  refine congrArg (m (xLoc d)) (funext fun a => Fin.ext ?_)
  match a with
  | ⟨0, _⟩ =>
    have hx0 : (x' 0).val < 128 := (x' 0).isLt
    have hk := k.isLt
    have htr := trips_le
    have hb := b.isLt
    have hw := wid_lt L
    have hR : ((25600 * (2 * (L 1).val + (L 0).val) + 512 * k.val + (off 0 + 1 * (x' 0).val)) % 819200)
        = (200 * (2 * (L 1).val + (L 0).val) + (4 * k.val + b.val)) * 128 + (x' 0).val := by omega
    have e1 := off_word m d L fi hfi k b (ix1 (x' 0))
    have e2 := word_eq m d (⟨2 * (L 1).val + (L 0).val, wid_lt L⟩ : Fin 32)
      (⟨4 * k.val + b.val, by omega⟩ : Fin 200) (x' 0)
      (⟨(25600 * (2 * (L 1).val + (L 0).val) + 512 * k.val + (off 0 + 1 * (x' 0).val)) % 819200, Nat.mod_lt _ (by norm_num)⟩ : Fin 819200) hR
    have e3 := congrArg BitVec.toNat (e1.trans e2)
    exact e3.trans (Nat.mod_eq_of_lt (hpre d _)).symm
  | ⟨1, _⟩ =>
    show (x' 1).val = off 1 + 1 * (x' 1).val
    omega

/-! ## A half of the row scratch, copied out -/

omit [FloatOps F] in
/-- Four writes, one per quarter of the row scratch, each agreeing with one function `G` of the scratch's shape on
    its quarter, leave `G` at every row, whatever the scratch held before. -/
theorem quarters_read (G : S512x128.Idx → Elt F .f32) (fr : Buf (Elt F) ((rV).view.loc (thrV d L)))
    (g0 g1 g2 g3 : S128x128.Idx → Elt F .f32)
    (h0 : ∀ x', g0 x' = G ((Rect.unit (s := S512x128) ![0, 0] S128x128.size inb_S512x128_S128x128_0_0).emb x'))
    (h1 : ∀ x', g1 x' = G ((Rect.unit (s := S512x128) ![128, 0] S128x128.size inb_S512x128_S128x128_128_0).emb x'))
    (h2 : ∀ x', g2 x' = G ((Rect.unit (s := S512x128) ![256, 0] S128x128.size inb_S512x128_S128x128_256_0).emb x'))
    (h3 : ∀ x', g3 x' = G ((Rect.unit (s := S512x128) ![384, 0] S128x128.size inb_S512x128_S128x128_384_0).emb x'))
    (z : S512x128.Idx) :
    (rV).view.read (Elt F) ((rV).view.writes (Elt F) fr
        [⟨Rect.unit (s := S512x128) ![384, 0] S128x128.size inb_S512x128_S128x128_384_0, g3⟩, ⟨Rect.unit (s := S512x128) ![256, 0] S128x128.size inb_S512x128_S128x128_256_0, g2⟩, ⟨Rect.unit (s := S512x128) ![128, 0] S128x128.size inb_S512x128_S128x128_128_0, g1⟩, ⟨Rect.unit (s := S512x128) ![0, 0] S128x128.size inb_S512x128_S128x128_0_0, g0⟩]) z = G z := by
  refine View.read_writes_apply_of_pieces (rV).view fr G _ ?_ z ?_
  · intro p hp
    simp only [List.mem_cons, List.not_mem_nil, or_false] at hp
    rcases hp with rfl | rfl | rfl | rfl
    · exact h3
    · exact h2
    · exact h1
    · exact h0
  · have hz0 : (z 0).val < 512 := (z 0).isLt
    have hz1 : (z 1).val < 128 := (z 1).isLt
    by_cases c1 : (z 0).val < 128
    · exact ⟨⟨Rect.unit (s := S512x128) ![0, 0] S128x128.size inb_S512x128_S128x128_0_0, g0⟩, List.mem_cons_of_mem _ (List.mem_cons_of_mem _ (List.mem_cons_of_mem _ List.mem_cons_self)), (Rect.mem_set_unit (inb := inb_S512x128_S128x128_0_0)).mpr (Fin.forall_fin_two.mpr
        ⟨⟨by show 0 ≤ (z 0).val; omega, by show (z 0).val < 0 + 128; omega⟩, ⟨Nat.zero_le _, by show (z 1).val < 0 + 128; omega⟩⟩)⟩
    by_cases c2 : (z 0).val < 256
    · exact ⟨⟨Rect.unit (s := S512x128) ![128, 0] S128x128.size inb_S512x128_S128x128_128_0, g1⟩, List.mem_cons_of_mem _ (List.mem_cons_of_mem _ List.mem_cons_self), (Rect.mem_set_unit (inb := inb_S512x128_S128x128_128_0)).mpr (Fin.forall_fin_two.mpr
        ⟨⟨by show 128 ≤ (z 0).val; omega, by show (z 0).val < 128 + 128; omega⟩, ⟨Nat.zero_le _, by show (z 1).val < 0 + 128; omega⟩⟩)⟩
    by_cases c3 : (z 0).val < 384
    · exact ⟨⟨Rect.unit (s := S512x128) ![256, 0] S128x128.size inb_S512x128_S128x128_256_0, g2⟩, List.mem_cons_of_mem _ List.mem_cons_self, (Rect.mem_set_unit (inb := inb_S512x128_S128x128_256_0)).mpr (Fin.forall_fin_two.mpr
        ⟨⟨by show 256 ≤ (z 0).val; omega, by show (z 0).val < 256 + 128; omega⟩, ⟨Nat.zero_le _, by show (z 1).val < 0 + 128; omega⟩⟩)⟩
    · exact ⟨⟨Rect.unit (s := S512x128) ![384, 0] S128x128.size inb_S512x128_S128x128_384_0, g3⟩, List.mem_cons_self, (Rect.mem_set_unit (inb := inb_S512x128_S128x128_384_0)).mpr (Fin.forall_fin_two.mpr
        ⟨⟨by show 384 ≤ (z 0).val; omega, by show (z 0).val < 384 + 128; omega⟩, ⟨Nat.zero_le _, by show (z 1).val < 0 + 128; omega⟩⟩)⟩

/-- After trip `k`'s four gathers every row of the row scratch is the gathered row of its output row, whatever the
    scratch held before. -/
theorem scratch_read (hpre : PreOK m) (fi : Buf (Elt F) ((sV).view.loc (thrV d L))) (hfi : Hfi m d L fi) (k : Fin k0_t1_loop.trips)
    (fr : Buf (Elt F) ((rV).view.loc (thrV d L)))
    (hn : S128.numel = S128x128.size gathers_S100000x128_S128x128.axis')
    (hin0 : ∀ x, ((offK0 k).view.read (Elt F) fi x).toNat < S100000x128.size gathers_S100000x128_S128x128.axis)
    (hin1 : ∀ x, ((offK1 k).view.read (Elt F) fi x).toNat < S100000x128.size gathers_S100000x128_S128x128.axis)
    (hin2 : ∀ x, ((offK2 k).view.read (Elt F) fi x).toNat < S100000x128.size gathers_S100000x128_S128x128.axis)
    (hin3 : ∀ x, ((offK3 k).view.read (Elt F) fi x).toNat < S100000x128.size gathers_S100000x128_S128x128.axis)
    (z : S512x128.Idx) :
    (rV).view.read (Elt F) ((rV).view.writes (Elt F) fr
          [⟨Rect.unit ![384, 0] S128x128.size inb_S512x128_S128x128_384_0, SparseCore.gatherPayload gathers_S100000x128_S128x128 ((xAllK).view.read (Elt F) (m (xLoc d))) (SparseCore.rows ((offK3 k).view.read (Elt F) fi) hn hin3)⟩,
           ⟨Rect.unit ![256, 0] S128x128.size inb_S512x128_S128x128_256_0, SparseCore.gatherPayload gathers_S100000x128_S128x128 ((xAllK).view.read (Elt F) (m (xLoc d))) (SparseCore.rows ((offK2 k).view.read (Elt F) fi) hn hin2)⟩,
           ⟨Rect.unit ![128, 0] S128x128.size inb_S512x128_S128x128_128_0, SparseCore.gatherPayload gathers_S100000x128_S128x128 ((xAllK).view.read (Elt F) (m (xLoc d))) (SparseCore.rows ((offK1 k).view.read (Elt F) fi) hn hin1)⟩,
           ⟨Rect.unit ![0, 0] S128x128.size inb_S512x128_S128x128_0_0, SparseCore.gatherPayload gathers_S100000x128_S128x128 ((xAllK).view.read (Elt F) (m (xLoc d))) (SparseCore.rows ((offK0 k).view.read (Elt F) fi) hn hin0)⟩]) z
      = Grow m d L k z :=
  quarters_read d L (Grow m d L k) fr _ _ _ _
    (fun x' => piece_eq m d L hpre fi hfi k 0 ![0, 0] inb_S512x128_S128x128_0_0 rfl rfl hn hin0 x')
    (fun x' => piece_eq m d L hpre fi hfi k 1 ![128, 0] inb_S512x128_S128x128_128_0 rfl rfl hn hin1 x')
    (fun x' => piece_eq m d L hpre fi hfi k 2 ![256, 0] inb_S512x128_S128x128_256_0 rfl rfl hn hin2 x')
    (fun x' => piece_eq m d L hpre fi hfi k 3 ![384, 0] inb_S512x128_S128x128_384_0 rfl rfl hn hin3 x') z

/-- A 256-row piece of the output, written whole with a half of the row scratch read after trip `k`'s four gathers,
    holds the gathered rows: the half at rows `256·r …` of the scratch lands on rows `25600·w + 512·k + 256·r …`. -/
theorem val_piece (hpre : PreOK m) (fi : Buf (Elt F) ((sV).view.loc (thrV d L))) (hfi : Hfi m d L fi) (k : Fin k0_t1_loop.trips) (r : Fin 2)
    (offH : Fin 2 → Nat) (inbH : ∀ a, offH a + S256x128.size a ≤ S512x128.size a) (hH0 : offH 0 = 256 * r.val) (hH1 : offH 1 = 0)
    (fo : Buf (Elt F) ((oV).view.loc (thrV d L))) (fr : Buf (Elt F) ((rV).view.loc (thrV d L)))
    (hn : S128.numel = S128x128.size gathers_S100000x128_S128x128.axis')
    (hin0 : ∀ x, ((offK0 k).view.read (Elt F) fi x).toNat < S100000x128.size gathers_S100000x128_S128x128.axis)
    (hin1 : ∀ x, ((offK1 k).view.read (Elt F) fi x).toNat < S100000x128.size gathers_S100000x128_S128x128.axis)
    (hin2 : ∀ x, ((offK2 k).view.read (Elt F) fi x).toNat < S100000x128.size gathers_S100000x128_S128x128.axis)
    (hin3 : ∀ x, ((offK3 k).view.read (Elt F) fi x).toNat < S100000x128.size gathers_S100000x128_S128x128.axis) :
    ∀ x ∈ (oPc L k r).view.set,
      (oPc L k r).view.writes (Elt F) fo [⟨Rect.whole S256x128, ReadAs.same.apply (((rV).slice (Rect.unit (s := S512x128) offH S256x128.size inbH) (fun _ => rfl)).view.read (Elt F) ((rV).view.writes (Elt F) fr
          [⟨Rect.unit ![384, 0] S128x128.size inb_S512x128_S128x128_384_0, SparseCore.gatherPayload gathers_S100000x128_S128x128 ((xAllK).view.read (Elt F) (m (xLoc d))) (SparseCore.rows ((offK3 k).view.read (Elt F) fi) hn hin3)⟩,
           ⟨Rect.unit ![256, 0] S128x128.size inb_S512x128_S128x128_256_0, SparseCore.gatherPayload gathers_S100000x128_S128x128 ((xAllK).view.read (Elt F) (m (xLoc d))) (SparseCore.rows ((offK2 k).view.read (Elt F) fi) hn hin2)⟩,
           ⟨Rect.unit ![128, 0] S128x128.size inb_S512x128_S128x128_128_0, SparseCore.gatherPayload gathers_S100000x128_S128x128 ((xAllK).view.read (Elt F) (m (xLoc d))) (SparseCore.rows ((offK1 k).view.read (Elt F) fi) hn hin1)⟩,
           ⟨Rect.unit ![0, 0] S128x128.size inb_S512x128_S128x128_0_0, SparseCore.gatherPayload gathers_S100000x128_S128x128 ((xAllK).view.read (Elt F) (m (xLoc d))) (SparseCore.rows ((offK0 k).view.read (Elt F) fi) hn hin0)⟩]))⟩] x = Gmid m d x := by
  intro x hx
  obtain ⟨y, -, rfl⟩ := Finset.mem_map.mp hx
  rw [View.writes_singleton]
  have hw := View.write_emb_of_mem (v := (oPc L k r).view.slice (Rect.whole S256x128)) (Val := Elt F) fo
    (ReadAs.same.apply (((rV).slice (Rect.unit (s := S512x128) offH S256x128.size inbH) (fun _ => rfl)).view.read (Elt F) ((rV).view.writes (Elt F) fr
          [⟨Rect.unit ![384, 0] S128x128.size inb_S512x128_S128x128_384_0, SparseCore.gatherPayload gathers_S100000x128_S128x128 ((xAllK).view.read (Elt F) (m (xLoc d))) (SparseCore.rows ((offK3 k).view.read (Elt F) fi) hn hin3)⟩,
           ⟨Rect.unit ![256, 0] S128x128.size inb_S512x128_S128x128_256_0, SparseCore.gatherPayload gathers_S100000x128_S128x128 ((xAllK).view.read (Elt F) (m (xLoc d))) (SparseCore.rows ((offK2 k).view.read (Elt F) fi) hn hin2)⟩,
           ⟨Rect.unit ![128, 0] S128x128.size inb_S512x128_S128x128_128_0, SparseCore.gatherPayload gathers_S100000x128_S128x128 ((xAllK).view.read (Elt F) (m (xLoc d))) (SparseCore.rows ((offK1 k).view.read (Elt F) fi) hn hin1)⟩,
           ⟨Rect.unit ![0, 0] S128x128.size inb_S512x128_S128x128_0_0, SparseCore.gatherPayload gathers_S100000x128_S128x128 ((xAllK).view.read (Elt F) (m (xLoc d))) (SparseCore.rows ((offK0 k).view.read (Elt F) fi) hn hin0)⟩])))
    (M := Finset.univ) (x := y) (Finset.mem_univ _)
  rw [show ((oPc L k r).view.slice (Rect.whole S256x128)).emb y = (oPc L k r).view.emb y from
    congrArg (oPc L k r).view.emb (Rect.emb_whole_apply S256x128 y)] at hw
  refine hw.trans ?_
  refine (cast_eq _ _).trans ?_
  show (rV).view.read (Elt F) _ ((Rect.unit (s := S512x128) offH S256x128.size inbH).emb y) = _
  rw [scratch_read m d L hpre fi hfi k fr hn hin0 hin1 hin2 hin3]
  unfold Grow
  refine congrArg (Gmid m d) (funext fun a => Fin.ext ?_)
  have hy0 : (y 0).val < 256 := (y 0).isLt
  have hk := k.isLt
  have htr := trips_le
  have hr := r.isLt
  have hL1 : (L 1).val < 16 := (L 1).isLt
  have hL0 : (L 0).val < 2 := (L 0).isLt
  have e5 := k0_off5_eq L k r
  match a with
  | ⟨0, _⟩ =>
    show (25600 * (2 * (L 1).val + (L 0).val) + 512 * k.val + (offH 0 + 1 * (y 0).val)) % 819200
        = (k0_off5 L k (BitVec.ofNat 32 (1 + 2 * r.val))) 0 + 1 * (y 0).val
    rw [e5]
    show _ = (51200 * (L 1).val + 25600 * (L 0).val + 512 * k.val + 256 * r.val) + 1 * (y 0).val
    omega
  | ⟨1, _⟩ =>
    show offH 1 + 1 * (y 1).val = (k0_off5 L k (BitVec.ofNat 32 (1 + 2 * r.val))) 1 + 1 * (y 1).val
    rw [e5]
    show _ = 0 + 1 * (y 1).val
    omega

/-- The first piece of trip `k`: the scratch's rows 0 … 255. -/
theorem val_piece0 (hpre : PreOK m) (fi : Buf (Elt F) ((sV).view.loc (thrV d L))) (hfi : Hfi m d L fi) (k : Fin k0_t1_loop.trips)
    (fo : Buf (Elt F) ((oV).view.loc (thrV d L))) (fr : Buf (Elt F) ((rV).view.loc (thrV d L)))
    (hn : S128.numel = S128x128.size gathers_S100000x128_S128x128.axis')
    (hin0 : ∀ x, ((offK0 k).view.read (Elt F) fi x).toNat < S100000x128.size gathers_S100000x128_S128x128.axis)
    (hin1 : ∀ x, ((offK1 k).view.read (Elt F) fi x).toNat < S100000x128.size gathers_S100000x128_S128x128.axis)
    (hin2 : ∀ x, ((offK2 k).view.read (Elt F) fi x).toNat < S100000x128.size gathers_S100000x128_S128x128.axis)
    (hin3 : ∀ x, ((offK3 k).view.read (Elt F) fi x).toNat < S100000x128.size gathers_S100000x128_S128x128.axis) :
    ∀ x ∈ (oPc L k 0).view.set,
      (oPc L k 0).view.writes (Elt F) fo [⟨Rect.whole S256x128, ReadAs.same.apply ((rH0).view.read (Elt F) ((rV).view.writes (Elt F) fr
          [⟨Rect.unit ![384, 0] S128x128.size inb_S512x128_S128x128_384_0, SparseCore.gatherPayload gathers_S100000x128_S128x128 ((xAllK).view.read (Elt F) (m (xLoc d))) (SparseCore.rows ((offK3 k).view.read (Elt F) fi) hn hin3)⟩,
           ⟨Rect.unit ![256, 0] S128x128.size inb_S512x128_S128x128_256_0, SparseCore.gatherPayload gathers_S100000x128_S128x128 ((xAllK).view.read (Elt F) (m (xLoc d))) (SparseCore.rows ((offK2 k).view.read (Elt F) fi) hn hin2)⟩,
           ⟨Rect.unit ![128, 0] S128x128.size inb_S512x128_S128x128_128_0, SparseCore.gatherPayload gathers_S100000x128_S128x128 ((xAllK).view.read (Elt F) (m (xLoc d))) (SparseCore.rows ((offK1 k).view.read (Elt F) fi) hn hin1)⟩,
           ⟨Rect.unit ![0, 0] S128x128.size inb_S512x128_S128x128_0_0, SparseCore.gatherPayload gathers_S100000x128_S128x128 ((xAllK).view.read (Elt F) (m (xLoc d))) (SparseCore.rows ((offK0 k).view.read (Elt F) fi) hn hin0)⟩]))⟩] x = Gmid m d x :=
  val_piece m d L hpre fi hfi k 0 ![0, 0] inb_S512x128_S256x128_0_0 rfl rfl fo fr hn hin0 hin1 hin2 hin3

/-- The second piece of trip `k`: the scratch's rows 256 … 511. -/
theorem val_piece1 (hpre : PreOK m) (fi : Buf (Elt F) ((sV).view.loc (thrV d L))) (hfi : Hfi m d L fi) (k : Fin k0_t1_loop.trips)
    (fo : Buf (Elt F) ((oV).view.loc (thrV d L))) (fr : Buf (Elt F) ((rV).view.loc (thrV d L)))
    (hn : S128.numel = S128x128.size gathers_S100000x128_S128x128.axis')
    (hin0 : ∀ x, ((offK0 k).view.read (Elt F) fi x).toNat < S100000x128.size gathers_S100000x128_S128x128.axis)
    (hin1 : ∀ x, ((offK1 k).view.read (Elt F) fi x).toNat < S100000x128.size gathers_S100000x128_S128x128.axis)
    (hin2 : ∀ x, ((offK2 k).view.read (Elt F) fi x).toNat < S100000x128.size gathers_S100000x128_S128x128.axis)
    (hin3 : ∀ x, ((offK3 k).view.read (Elt F) fi x).toNat < S100000x128.size gathers_S100000x128_S128x128.axis) :
    ∀ x ∈ (oPc L k 1).view.set,
      (oPc L k 1).view.writes (Elt F) fo [⟨Rect.whole S256x128, ReadAs.same.apply ((rH1).view.read (Elt F) ((rV).view.writes (Elt F) fr
          [⟨Rect.unit ![384, 0] S128x128.size inb_S512x128_S128x128_384_0, SparseCore.gatherPayload gathers_S100000x128_S128x128 ((xAllK).view.read (Elt F) (m (xLoc d))) (SparseCore.rows ((offK3 k).view.read (Elt F) fi) hn hin3)⟩,
           ⟨Rect.unit ![256, 0] S128x128.size inb_S512x128_S128x128_256_0, SparseCore.gatherPayload gathers_S100000x128_S128x128 ((xAllK).view.read (Elt F) (m (xLoc d))) (SparseCore.rows ((offK2 k).view.read (Elt F) fi) hn hin2)⟩,
           ⟨Rect.unit ![128, 0] S128x128.size inb_S512x128_S128x128_128_0, SparseCore.gatherPayload gathers_S100000x128_S128x128 ((xAllK).view.read (Elt F) (m (xLoc d))) (SparseCore.rows ((offK1 k).view.read (Elt F) fi) hn hin1)⟩,
           ⟨Rect.unit ![0, 0] S128x128.size inb_S512x128_S128x128_0_0, SparseCore.gatherPayload gathers_S100000x128_S128x128 ((xAllK).view.read (Elt F) (m (xLoc d))) (SparseCore.rows ((offK0 k).view.read (Elt F) fi) hn hin0)⟩]))⟩] x = Gmid m d x :=
  val_piece m d L hpre fi hfi k 1 ![256, 0] inb_S512x128_S256x128_256_0 rfl rfl fo fr hn hin0 hin1 hin2 hin3

end Tile

end Cert.Proof.K

end
-- ==== Proof.K.Body.lean ====
/-
  One tile's task, and the obligation the launch asks of every tile.

  Tile (c, i), worker w = 2·i + c, copies row w of the index words into its index scratch, runs the loop of fifty trips
  (its invariant is in the module on the loop), waits for the last trip's two copies, and is done: its block of the
  output then holds the gathered rows on every one of its hundred pieces, that is, the restriction of the one
  whole-array function; its shares of the index words and of the table, its scratch buffers and its semaphores (all at
  zero) go back as they came. The index words the gathers read are the tile's own row of the index array, every one of
  them a row number of the table by the precondition, so no gather is abandoned.
-/
import proofs.«207032_g58884001628331_cont_9to1_m_206_11_alg».proof.Proof.K.Loop
import proofs.«207032_g58884001628331_cont_9to1_m_206_11_alg».proof.Proof.K.Value

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_v0_scv : Memref Cert.Kernel.sig Kind.scVector Space.hbm Cert.Kernel.S32x200x128 EltTy.i32)
local notation "xV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S819200x128 EltTy.f32)
local notation "sV" => (Memref.whole Cert.Kernel.cc0_scratch0 : Memref Cert.Kernel.sig Kind.scVector Space.vmem Cert.Kernel.S200x128 EltTy.i32)
local notation "rV" => (Memref.whole Cert.Kernel.cc0_scratch1 : Memref Cert.Kernel.sig Kind.scVector Space.vmem Cert.Kernel.S512x128 EltTy.f32)

variable [FloatOps F]

section Tile

variable (d : Dev nD) (L : grid0.Coords)

set_option maxHeartbeats 4000000 in
theorem tile_body (hF : (K (F := F)).Facts) (O : CellTallies nD τ sig (HIx 1)) (W : Waits sig (HIx 1)) (hO : ∀ g, O g none = 0) (hpre : PreOK m) :
    iprop(levAts (K (F := F)).L (K (F := F)).lev ∗ emp
        ∗ (iSh m d (tileShare (cL L) (jL L)) ∗ xSh m d (tileShare (cL L) (jL L)) ∗ oBlk d (cL L) (jL L) (m (oLoc d)))
        ∗ scopedBufs (thrV d L) ∗ scopedSems0 (thrV d L) ∗ owes (thrV d L) O W)
      ⊢ wp frame (wpE (defs₀ (F := F)) 𝒱₀ (thrV d L) none) Set.univ
          (cc0__gather_kernel L iV (Memref.isWhole_whole _) xV (Memref.isWhole_whole _) oV (Memref.isWhole_whole _)
            sV (Memref.isWhole_whole _) rV (Memref.isWhole_whole _) cc0_scratch2 cc0_scratch3 cc0_scratch4 cc0_scratch5 cc0_scratch6 cc0_scratch7 cc0_scratch8 cc0_scratch9 cc0_scoped0)
          fun _ => iprop((iSh m d (tileShare (cL L) (jL L)) ∗ xSh m d (tileShare (cL L) (jL L)) ∗ oBlk d (cL L) (jL L) (Gmid m d))
            ∗ scopedBufs (thrV d L) ∗ scopedSems0 (thrV d L)
            ∗ ∃ W', ⌜∀ p ∈ W', p ∈ W ∨ p.2 = none⌝ ∗ owes (thrV d L) O W') := by
  simp only [cc0__gather_kernel_eq_skeleton]; unfold cc0__gather_kernel_skel
  rw [(K (F := F)).scopedBufs_V hF d (cV L) (jV L), SparseCore.Cfg.scopedSems0_V (Val := Elt F) d (cV L) (jV L), ownSems0_V, ownBufs_V]
  iintro ⟨#Hlv, Hemp, ⟨Hi, Hx, Ho⟩, ⟨⟨%fs, Hs⟩, ⟨%fr, Hr⟩, Hbufs⟩, ⟨Hc0, Hc1, Hc2, Hc3, Hc4, Hc5, Hc6, Hc7, Hc8, Hsems⟩, HO⟩
  ihave Hmw := (show levAts (K (F := F)).L (K (F := F)).lev ⊢ Transfers.MayWaits (thrV d L) (default : HIx 1) O from
    (K (F := F)).mayWaits_none (thr := (thrV d L)) hO) $$ Hlv
  ihave Hi2 := (pointsTo_split_subset (q := tileShare (cL L) (jL L)) (f := idx3 m d) (S := Finset.univ) (Finset.subset_univ (iRowK L).view.set)).1 $$ Hi
  icases Hi2 with ⟨HiA, HiB⟩
  ihave Hs' := (Entails.of_eq (show ((thrV d L).loc cc0_scratch0 ↦{fullShare} fs : sProp 𝕄) = ((sV).view.loc (thrV d L) ↦{fullShare} fs) from rfl)) $$ Hs
  ihave Hr' := (Entails.of_eq (show ((thrV d L).loc cc0_scratch1 ↦{fullShare} fr : sProp 𝕄) = ((rV).view.loc (thrV d L) ↦{fullShare} fr) from rfl)) $$ Hr
  ihave HiC := (Entails.of_eq (show (iLoc d ↦[(iRowK L).view.set]{tileShare (cL L) (jL L)} idx3 m d : sProp 𝕄)
      = ((iRowK L).view.loc (thrV d L) ↦[(iRowK L).view.set]{tileShare (cL L) (jL L)} idx3 m d) from rfl)) $$ HiA
  ihave Hc8' := (Entails.of_eq (show (semVal (cell d L 8) 0 : sProp 𝕄) = semVal ((thrV d L), SemLoc.dma cc0_scoped0.sem) 0 from rfl)) $$ Hc8
  sl_exec
  have hfi := hfi_copy m d L fs
  have hin := fun k => hin_ok m d L hpre (View.write (Elt F) (sV).view fs (tile_body.sl.dma0 m d L) Finset.univ) hfi k
  have hval0 := fun k hn h0 h1 h2 h3 fo fr => val_piece0 m d L hpre (View.write (Elt F) (sV).view fs (tile_body.sl.dma0 m d L) Finset.univ) hfi k fo fr hn h0 h1 h2 h3
  have hval1 := fun k hn h0 h1 h2 h3 fo fr => val_piece1 m d L hpre (View.write (Elt F) (sV).view fs (tile_body.sl.dma0 m d L) Finset.univ) hfi k fo fr hn h0 h1 h2 h3
  ihave Hx' := (Entails.of_eq (show (xSh m d (tileShare (cL L) (jL L)) : sProp 𝕄) = ((xV).view.loc (thrV d L) ↦{tileShare (cL L) (jL L)} m (xLoc d)) from rfl)) $$ Hx
  ihave Hxt := (x_toks d L (tileShare (cL L) (jL L)) (m (xLoc d))).1 $$ Hx'
  icases Hxt with ⟨Hxd, Hx0, Hx1, Hx2, Hx3⟩
  ihave Hc0' := (Entails.of_eq (show (semVal (cell d L 0) 0 : sProp 𝕄) = semVal ((thrV d L), SemLoc.dma cc0_scratch2.sem) 0 from rfl)) $$ Hc0
  ihave Hc1' := (Entails.of_eq (show (semVal (cell d L 1) 0 : sProp 𝕄) = semVal ((thrV d L), SemLoc.dma cc0_scratch3.sem) 0 from rfl)) $$ Hc1
  ihave Hc2' := (Entails.of_eq (show (semVal (cell d L 2) 0 : sProp 𝕄) = semVal ((thrV d L), SemLoc.dma cc0_scratch4.sem) 0 from rfl)) $$ Hc2
  ihave Hc3' := (Entails.of_eq (show (semVal (cell d L 3) 0 : sProp 𝕄) = semVal ((thrV d L), SemLoc.dma cc0_scratch5.sem) 0 from rfl)) $$ Hc3
  ihave Hc4' := (Entails.of_eq (show (semVal (cell d L 4) 0 : sProp 𝕄) = semVal ((thrV d L), SemLoc.dma cc0_scratch6.sem) 0 from rfl)) $$ Hc4
  ihave Hc6' := (Entails.of_eq (show (semVal (cell d L 6) 0 : sProp 𝕄) = semVal ((thrV d L), SemLoc.dma cc0_scratch8.sem) 0 from rfl)) $$ Hc6
  ihave Ht := (Entails.of_eq ((blk_pieces d (cL L) (jL L) (m (oLoc d))).trans (show _ = bigSep (Finset.Ico (2 * 0) 100) (fun p => (oLoc d ↦[pcN (2 * (L 1).val + (L 0).val) p]{fullShare} m (oLoc d) : sProp 𝕄)) by rw [← Ico_full]; rfl))) $$ Ho
  sl_for (Inv m d L O W (tileShare (cL L) (jL L)) (View.write (Elt F) (sV).view fs (tile_body.sl.dma0 m d L) Finset.univ) fr) $$ [Hs' Hx0 Hx1 Hx2 Hx3 Hc0' Hc1' Hc2' Hc3' HO Ht Hr' Hc4' Hc6' Hemp]
  case region => exact region m d L O W (tileShare (cL L) (jL L)) (View.write (Elt F) (sV).view fs (tile_body.sl.dma0 m d L) Finset.univ) fr _ hin hval0 hval1
  · -- the invariant before the first trip
    iapply (inv_init m d L O W (tileShare (cL L) (jL L)) (View.write (Elt F) (sV).view fs (tile_body.sl.dma0 m d L) Finset.univ) fr PUnit.unit)
    isplitr; · iexact Hmw
    isplitl [Hs']; · iexact Hs'
    isplitl [Hx0]; · iexact Hx0
    isplitl [Hx1]; · iexact Hx1
    isplitl [Hx2]; · iexact Hx2
    isplitl [Hx3]; · iexact Hx3
    isplitl [Hc0']; · iexact Hc0'
    isplitl [Hc1']; · iexact Hc1'
    isplitl [Hc2']; · iexact Hc2'
    isplitl [Hc3']; · iexact Hc3'
    isplitl [HO]
    · iexists _; isplitr
      swap; · iexact HO
      ipureintro; intro p hp
      rcases Finset.mem_insert.mp hp with hp | hp
      · exact .inr (hp ▸ rfl)
      · exact .inl hp
    isplitl [Hemp]
    · iapply (Entails.of_eq (show (bigSep (Finset.range (2 * (0 - 1))) (fun p => (oLoc d ↦[pcN (2 * (L 1).val + (L 0).val) p]{fullShare} Gmid m d : sProp 𝕄))) = iprop(emp) by
        rw [show 2 * (0 - 1) = 0 from rfl, Finset.range_zero, bigSep_empty]; rfl).symm)
      iexact Hemp
    isplitl [Ht]; · iexact Ht
    isplitl [Hr']; · iexact Hr'
    isplitl [Hc4']; · iexact Hc4'
    iexact Hc6'
  · -- after the loop: the last two stores are waited for
    iintro %acc HI
    have ht : Scf.trips k0_t1_loop.lb k0_t1_loop.ub k0_t1_loop.st = 50 := by decide
    have hk50 : 0 < Scf.trips k0_t1_loop.lb k0_t1_loop.ub k0_t1_loop.st := by rw [ht]; decide
    ihave HI' := (inv_pos m d L O W (tileShare (cL L) (jL L)) (View.write (Elt F) (sV).view fs (tile_body.sl.dma0 m d L) Finset.univ) fr _ hk50 acc) $$ HI
    icases HI' with ⟨-, Hs', Hx0, Hx1, Hx2, Hx3, Hc0', Hc1', Hc2', Hc3', ⟨%W1, %hW1, HO⟩, Hdone, -, ⟨%fw, Hfa, Hfb, Hrest⟩⟩
    sl_exec
    sl_step
    isplitl [HiB Hxd Hx0 Hx1 Hx2 Hx3 Hdone Hfa_dst Hfb_dst]
    · isplitl [HiB]
      · iapply (Entails.of_eq (show ((iRowK L).view.loc (thrV d L) ↦{(tileShare (cL L) (jL L))} idx3 m d : sProp 𝕄) = iSh m d (tileShare (cL L) (jL L)) from rfl))
        iexact HiB
      isplitl [Hxd Hx0 Hx1 Hx2 Hx3]
      · iapply (Entails.of_eq (show ((xV).view.loc (thrV d L) ↦{(tileShare (cL L) (jL L))} m (xLoc d) : sProp 𝕄) = xSh m d (tileShare (cL L) (jL L)) from rfl))
        iapply (x_toks d L (tileShare (cL L) (jL L)) (m (xLoc d))).2
        isplitl [Hxd]; · iexact Hxd
        isplitl [Hx0]; · iexact Hx0
        isplitl [Hx1]; · iexact Hx1
        isplitl [Hx2]; · iexact Hx2
        iexact Hx3
      · iapply (Entails.of_eq ((done_put d L _ hk50 (Gmid m d)).trans (by rw [ht]; exact (blk_pieces d (cL L) (jL L) (Gmid m d)).symm)))
        isplitl [Hdone]; · iexact Hdone
        isplitl [Hfa_dst]; · iexact Hfa_dst
        iexact Hfb_dst
    isplitl [Hs' Hrest Hbufs]
    · isplitl [Hs']; · iexists _; iexact Hs'
      isplitl [Hrest]; · iexists _; iexact Hrest
      iexact Hbufs
    isplitl [Hc0' Hc1' Hc2' Hc3' Hfa Hc5 Hfb Hc7 Hc8' Hsems]
    · isplitl [Hc0']; · iexact Hc0'
      isplitl [Hc1']; · iexact Hc1'
      isplitl [Hc2']; · iexact Hc2'
      isplitl [Hc3']; · iexact Hc3'
      isplitl [Hfa]; · iexact Hfa
      isplitl [Hc5]; · iexact Hc5
      isplitl [Hfb]; · iexact Hfb
      isplitl [Hc7]; · iexact Hc7
      isplitl [Hc8']; · iexact Hc8'
      iexact Hsems
    iexists _; isplitr
    swap; · iexact HO
    ipureintro; intro p hp
    rcases Finset.mem_insert.mp hp with hp | hp
    · exact .inr (hp ▸ rfl)
    rcases Finset.mem_insert.mp hp with hp | hp
    · exact .inr (hp ▸ rfl)
    exact hW1 p hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_kernel (coordsV c s)
          iV (Memref.isWhole_whole _) xV (Memref.isWhole_whole _) oV (Memref.isWhole_whole _)
          sV (Memref.isWhole_whole _) rV (Memref.isWhole_whole _) cc0_scratch2 cc0_scratch3 cc0_scratch4 cc0_scratch5 cc0_scratch6 cc0_scratch7 cc0_scratch8 cc0_scratch9 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO hpre).trans (wp_mono frame _ _ fun _ => obl_post)

end Tile

end Cert.Proof.K

end
-- ==== Proof.PreRange.lean ====
/-
  The precondition decoded: when the printed predicate of the input arrays is all ones, every index word, read as a
  natural number, is below the table's height.

  The predicate is the conjunction of two reductions by "and" over all axes. The second is over the elementwise
  conjunction of two signed comparisons of the index array, with 0 from below and with 99999 from above; a
  reduction by "and" that is one had a one at every element, so every word w has 0 ≤ w ≤ 99999 as a signed
  number. A word that is non-negative as a signed number reads the same unsigned, hence is at most 99999.
-/
import proofs.«207032_g58884001628331_cont_9to1_m_206_11_alg».proof.Pre_input_domain
import Idealize.ShloMosaic.Lib.ReduceAll
import Idealize.ShloMosaic.Lib.ValueIdx

namespace Cert.Proof.Ref

open Idealize.ShloMosaic Idealize.ShloMosaic.ValueIdx

/-- The scalar shape has one index. -/
instance scalarIdx_subsingleton : Subsingleton Cert.Pre_input_domain.S_.Idx :=
  ⟨fun _ _ => funext fun d => d.elim0⟩

/-- Under the precondition every index word is below 100000 as a natural number. -/
theorem range_of_pre {F : FTy → Type} [FloatOps F] [hF : Cert.Pre_input_domain.Facts]
    (a0 : IVec Cert.Pre_input_domain.S4096x200 32) (a1 : FVec F Cert.Pre_input_domain.S100000x128 .f32)
    (h : Cert.Pre_input_domain.fn (F := F) a0 a1 = fun _ => 1#1) : ∀ j, (a0 j).toNat < 100000 := by
  intro j
  have h0 := congrFun h ix0
  dsimp only [Cert.Pre_input_domain.fn] at h0
  have h1 := (IntOp.andi_eq_one.1 h0).2
  have h2 := Host.reduce_andi_all _ _ _ _ _ h1 j
  obtain ⟨hge, hle⟩ := IntOp.andi_eq_one.1 h2
  have hge' : (0#32 : BitVec 32).toInt ≤ (a0 j).toInt := IntOp.cmpi_sge.1 hge
  have hle' : (a0 j).toInt ≤ (99999#32 : BitVec 32).toInt := IntOp.cmpi_sle.1 hle
  have e0 : (0#32 : BitVec 32).toInt = 0 := by decide
  have e1 : (99999#32 : BitVec 32).toInt = 99999 := by decide
  rw [e0] at hge'
  rw [e1] at hle'
  have hpos : 2 * (a0 j).toNat < 2 ^ 32 := BitVec.toInt_pos_iff.1 hge'
  have hnat := BitVec.toInt_eq_toNat_of_lt hpos
  omega

end Cert.Proof.Ref
-- ==== Proof.RefTerm.lean ====
/-
  What the reference program computes of its two argument arrays, as a pure term: the index array flattened to a
  vector; negative index words wrapped by the table's height; the wrapped words, as one-component start indices,
  tested for lying between 0 and 99999; the table's rows gathered at the start indices; the gathered row kept
  where the test holds and a fill value elsewhere; the rows reshaped under the index array's shape.
-/
import proofs.«207032_g58884001628331_cont_9to1_m_206_11_alg».proof.Proof.Gen.ReferenceIdeal

noncomputable section

namespace Cert.Proof.Ref

open Cert.ReferenceIdeal Cert.ReferenceIdeal.Gen Idealize.ShloMosaic

variable {F : FTy → Type} [FloatOps F]

/-- Negative index words wrapped: a word below zero (read signed) has the table's height added, any other is kept. -/
def wrapped (flat : IVec S819200 32) : IVec S819200 32 :=
  select (cmpi .slt flat (broadcastInDim S819200 ![] bcast_S_S819200 (constantI S_ 32 0#32)))
    (addi flat (broadcastInDim S819200 ![] bcast_S_S819200 (constantI S_ 32 100000#32))) flat

/-- The wrapped words as a column of one-component start indices. -/
def starts (flat : IVec S819200 32) : IVec S819200x1 32 :=
  broadcastInDim S819200x1 ![0] bcast_S819200_S819200x1_0 (wrapped flat)

/-- Per row, whether its start index lies between 0 and 99999 (signed): the conjunction over the unit axis of the
    two comparisons. -/
def inRange (st : IVec S819200x1 32) : IVec S819200 1 :=
  Host.reduce IntOp.andi
    (andi (cmpi .sge st (broadcastInDim S819200x1 ![] bcast_S_S819200x1 (constantI S_ 32 0#32)))
      (cmpi .sle st (broadcastInDim S819200x1 ![0, 1] bcast_S1x1_S819200x1_0_1
        (broadcastInDim S1x1 ![1] bcast_S1_S1x1_1 (constantI S1 32 99999#32)))))
    (constantI S_ 1 1#1) reducesTo_S819200x1_S819200_d1 h_S_

/-- The rows taken: the gathered row where the start index is in range, the fill value elsewhere. -/
def taken (tab : FVec F S100000x128 .f32) (flat : IVec S819200 32) : FVec F S819200x128 .f32 :=
  select (broadcastInDim S819200x128 ![0] bcast_S819200_S819200x128_0 (inRange (starts flat)))
    (Host.gather gather_S100000x128_S819200x1_S819200x128_1_0_n_n_0_1_1128 tab (starts flat))
    (broadcastInDim S819200x128 ![] bcast_S_S819200x128 (constant S_ .f32 0x7FC00000#32))

/-- What the operations compute of the two argument arrays: the index array flattened, the rows taken, the rows
    reshaped under the index array's shape. -/
def refTerm (idx : IVec S4096x200 32) (tab : FVec F S100000x128 .f32) : FVec F S4096x200x128 .f32 :=
  shapeCast S4096x200x128 (taken tab (shapeCast S819200 idx shapeCasts_S4096x200_S819200))
    shapeCasts_S819200x128_S4096x200x128

end Cert.Proof.Ref

end
-- ==== Proof.RefRun.lean ====
/-
  The reference program's @main as one straight line of host operations, and its run read back.

  The program reshapes the index array to a vector, takes rows of the table at those indices (an outlined
  function whose body wraps negative indices, masks the indices out of range, gathers, and selects against a
  fill value), and reshapes the rows. Unfolding the outlined functions at their calls gives twenty-five
  operations, each writing a buffer of its own; the run of such a line ends with every buffer at the fold of
  the operations over the launch contents, and the fold at the result buffer is the composed pure term.
-/
import proofs.«207032_g58884001628331_cont_9to1_m_206_11_alg».proof.Proof.RefTerm
import Idealize.ShloMosaic.Lib.StableHlo.Run

noncomputable section

namespace Cert.Proof.Ref

open Cert.ReferenceIdeal Cert.ReferenceIdeal.Gen Idealize.ShloMosaic Idealize.ShloMosaic.TcCoe Idealize.SL.Sem
  Idealize.ShloMosaic.StableHlo

variable {F : FTy → Type} [FloatOps F]

/-- @main's operations in order, the two outlined functions unfolded at their calls: the reshape of the index
    array, the twenty-three operations of the row-taking function (the seventh the select of the function that
    wraps negative indices) over the buffers of its one call, the reshape of the rows. -/
abbrev ops : List (HloOp τ sig (Elt F)) :=
  [ reshape main_arg0 main_v0 rfl shapeCasts_S4096x200_S819200,
    TRef.nullary main_call0.c (constantI S_ 32 0#32),
    TRef.unary main_call0.c main_call0.v0 (broadcastInDim S819200 ![] bcast_S_S819200),
    TRef.binary (.of main_v0) main_call0.v0 main_call0.v1 (cmpi .slt),
    TRef.nullary main_call0.c_0 (constantI S_ 32 100000#32),
    TRef.unary main_call0.c_0 main_call0.v2 (broadcastInDim S819200 ![] bcast_S_S819200),
    TRef.binary (.of main_v0) main_call0.v2 main_call0.v3 addi,
    TRef.ternary main_call0.v1 main_call0.v3 (.of main_v0) main_call0.call0.v0 select,
    TRef.unary main_call0.call0.v0 main_call0.v5 (broadcastInDim S819200x1 ![0] bcast_S819200_S819200x1_0),
    TRef.nullary main_call0.c_1 (constantI S1 32 99999#32),
    TRef.nullary main_call0.c_2 (constantI S_ 32 0#32),
    TRef.unary main_call0.c_2 main_call0.v6 (broadcastInDim S819200x1 ![] bcast_S_S819200x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S819200x1 ![0, 1] bcast_S1x1_S819200x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S819200x1_S819200_d1 h_S_),
    TRef.binary (.of main_arg1) main_call0.v5 main_call0.v13 (fun x i => Host.gather gather_S100000x128_S819200x1_S819200x128_1_0_n_n_0_1_1128 x i),
    TRef.unary main_call0.v12 main_call0.v14 (broadcastInDim S819200x128 ![0] bcast_S819200_S819200x128_0),
    TRef.nullary main_call0.cst (constant S_ .f32 0x7FC00000#32),
    TRef.unary main_call0.cst main_call0.v15 (broadcastInDim S819200x128 ![] bcast_S_S819200x128),
    TRef.ternary main_call0.v14 main_call0.v13 main_call0.v15 main_call0.v16 select,
    reshape main_v1 main_v2 rfl shapeCasts_S819200x128_S4096x200x128 ]

/-- @main is that straight line: the outlined functions' definitions unfolded at their calls, both sides are
    one chain of operation steps once sequencing is reassociated. -/
theorem main_eq (c : Dev nD) : main (F := F) c = seq ops := by
  simp only [main, fn_take.body, fn_where.body, seq, bind_assoc, pure_bind]

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    reshape_bufs_sub ..⟩

attribute [local irreducible] Host.reduce Host.gather in
/-- The fold of the operations at the result buffer is the composed term of the contents of the two argument
    buffers: each operation's result is read at its own buffer and passed over at every other. -/
theorem out_eq (V : Valuation τ sig (Elt F)) :
    after ops V (main_v2 : DevRef τ sig) = refTerm (V (main_arg0 : DevRef τ sig)) (V (main_arg1 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- On every device, for any float values, from any memory with zero counters: every weakly fair execution of
    @main terminates, nothing faulting, with the result buffer at the composed term of the two argument arrays
    and the argument arrays unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v2)
        = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (out_eq _), (h c main_arg0).trans (arg0_eq _),
      (h c main_arg1).trans (arg1_eq _)⟩)
    (run_seq scopedRefs_eq scopedSems_eq defs main (fun _ => ops) main_eq (fun _ => ops_sub) m ρ)

end Cert.Proof.Ref

end
-- ==== Proof.RefValue.lean ====
/-
  The reference's value on the claim's domain: when every index word, read as a natural number, is below the
  table's height, the composed term of the reference's operations is the function stated once for both programs.

  A word below 100000 is non-negative as a signed number, so the wrap of negative words keeps it, both range
  tests hold of it, and the select keeps the gathered value. The gather reads, for result row r and column c, the
  table at the row named by start index r (clamped into the table, which is the identity on such a word) and at
  column c. The two reshapes are the same on both sides.
-/
import proofs.«207032_g58884001628331_cont_9to1_m_206_11_alg».proof.Proof.RefTerm
import proofs.«207032_g58884001628331_cont_9to1_m_206_11_alg».proof.Proof.Spec
import Idealize.ShloMosaic.Lib.ValueIdx
import Idealize.ShloMosaic.Lib.ReduceAll
import Idealize.ShloMosaic.Lib.Pipeline.Value

noncomputable section

namespace Cert.Proof.Ref

open Cert.ReferenceIdeal Cert.ReferenceIdeal.Gen Idealize.ShloMosaic Idealize.ShloMosaic.ValueIdx

/-! ## Words below the table's height -/

section Words
variable {w : BitVec 32}

/-- Such a word reads the same signed and unsigned. -/
theorem toInt_of_lt (hw : w.toNat < 100000) : w.toInt = w.toNat :=
  BitVec.toInt_eq_toNat_of_lt (by omega)

/-- It is not below zero … -/
theorem slt_zero_of_lt (hw : w.toNat < 100000) : IntOp.cmpi .slt w 0#32 = 0#1 := by
  refine eq_zero_of_ne_one fun h => ?_
  have h' := IntOp.cmpi_slt.1 h
  rw [toInt_of_lt hw, show (0#32 : BitVec 32).toInt = 0 from by decide] at h'
  omega

/-- … it is at least zero … -/
theorem sge_zero_of_lt (hw : w.toNat < 100000) : IntOp.cmpi .sge w 0#32 = 1#1 := by
  refine IntOp.cmpi_sge.2 ?_
  rw [toInt_of_lt hw, show (0#32 : BitVec 32).toInt = 0 from by decide]
  omega

/-- … and at most 99999. -/
theorem sle_max_of_lt (hw : w.toNat < 100000) : IntOp.cmpi .sle w 99999#32 = 1#1 := by
  refine IntOp.cmpi_sle.2 ?_
  rw [toInt_of_lt hw, show (99999#32 : BitVec 32).toInt = 99999 from by decide]
  omega

end Words

/-- A left fold by "and" from one over words that are all one is one. -/
theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, h =>
    foldl_andi_one f l _ (IntOp.andi_eq_one.2 ⟨hi, h a List.mem_cons_self⟩) fun n hn => h n (List.mem_cons_of_mem _ hn)

/-! ## The stages at an index -/

/-- The wrap at a position: the select between the word plus the table's height and the word. -/
theorem wrapped_apply (flat : IVec S819200 32) (r : S819200.Idx) :
    wrapped flat r = Scalar.select (IntOp.cmpi .slt (flat r) 0#32) (IntOp.addi (flat r) 100000#32) (flat r) := rfl

/-- A word below the table's height is kept by the wrap. -/
theorem wrapped_of_lt (flat : IVec S819200 32) (r : S819200.Idx) (hw : (flat r).toNat < 100000) : wrapped flat r = flat r := by
  rw [wrapped_apply, slt_zero_of_lt hw, select_zero]

/-- Start index `(r, 0)` is the wrapped word at position `r`. -/
theorem starts_apply (flat : IVec S819200 32) (k : S819200x1.Idx) : starts flat k = wrapped flat (ix1 (k 0)) := by
  unfold starts
  refine broadcastInDim_apply _ _ _ _ _ fun a => ?_
  match a with
  | ⟨0, _⟩ => rfl

/-- When both range tests hold of every start index, every row is in range. -/
theorem inRange_eq_one (st : IVec S819200x1 32)
    (h : ∀ k, IntOp.cmpi .sge (st k) 0#32 = 1#1 ∧ IntOp.cmpi .sle (st k) 99999#32 = 1#1) (r : S819200.Idx) :
    inRange st r = 1#1 := by
  unfold inRange
  rw [Host.reduce_eq_foldl]
  exact foldl_andi_one _ _ _ rfl fun i _ => IntOp.andi_eq_one.2 (h i)

/-- The gather at row `r` and column `c`: the table at the row start index `(r, 0)` names — read signed and
    clamped into the table — and at column `c`. -/
theorem gather_apply {α : Type} (tab : S100000x128.Idx → α) (st : IVec S819200x1 32) (x : S819200x128.Idx) :
    Host.gather gather_S100000x128_S819200x1_S819200x128_1_0_n_n_0_1_1128 tab st x
      = tab (ix2 (⟨min (st (ix2 (x 0) (0 : Fin 1))).toInt.toNat 99999, by omega⟩ : Fin 100000) (x 1)) := by
  unfold Host.gather
  congr 1
  funext a
  refine Fin.ext ?_
  match a with
  | ⟨0, _⟩ =>
    show gather_S100000x128_S819200x1_S819200x128_1_0_n_n_0_1_1128.start x st 0
        + gather_S100000x128_S819200x1_S819200x128_1_0_n_n_0_1_1128.batchCoord x 0
        + gather_S100000x128_S819200x1_S819200x128_1_0_n_n_0_1_1128.offCoord x 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S819200x1_S819200x128_1_0_n_n_0_1_1128.startIndexMap from
      List.mem_singleton.mpr rfl)]
    have hsi : gather_S100000x128_S819200x1_S819200x128_1_0_n_n_0_1_1128.siIdx x
        ⟨List.idxOf (0 : Fin 2) gather_S100000x128_S819200x1_S819200x128_1_0_n_n_0_1_1128.startIndexMap,
          List.idxOf_lt_length_iff.2 (List.mem_singleton.mpr rfl)⟩ = ix2 (x 0) (0 : Fin 1) := by
      funext b; refine Fin.ext ?_
      match b with
      | ⟨0, _⟩ => rfl
      | ⟨1, _⟩ => rfl
    rw [hsi]
    rfl
  | ⟨1, _⟩ =>
    show gather_S100000x128_S819200x1_S819200x128_1_0_n_n_0_1_1128.start x st 1
        + gather_S100000x128_S819200x1_S819200x128_1_0_n_n_0_1_1128.batchCoord x 1
        + gather_S100000x128_S819200x1_S819200x128_1_0_n_n_0_1_1128.offCoord x 1 = (x 1).val
    rw [GatherDims.batchCoord_eq_zero _ _ _ List.not_mem_nil]
    unfold GatherDims.start
    rw [dif_neg (show (1 : Fin 2) ∉ gather_S100000x128_S819200x1_S819200x128_1_0_n_n_0_1_1128.startIndexMap from by decide)]
    unfold GatherDims.offCoord
    rw [dif_pos (show (1 : Fin 2) ∈ gather_S100000x128_S819200x1_S819200x128_1_0_n_n_0_1_1128.sKept from by decide)]
    simp only [Nat.zero_add]
    rfl

/-! ## The value -/

section Value
variable {F : FTy → Type} [FloatOps F]

/-- When every word of the index vector is below the table's height, row `r` of the rows taken is the table's
    row named by word `r`. -/
theorem taken_apply (tab : FVec F S100000x128 .f32) (flat : IVec S819200 32) (hflat : ∀ r, (flat r).toNat < 100000)
    (x : S819200x128.Idx) :
    taken tab flat x
      = tab (ix2 (⟨(flat (ix1 (x 0))).toNat % 100000, Nat.mod_lt _ (by norm_num)⟩ : Fin 100000) (x 1)) := by
  have hst : ∀ k, starts flat k = flat (ix1 (k 0)) := fun k => by
    rw [starts_apply, wrapped_of_lt flat _ (hflat _)]
  have hc : broadcastInDim S819200x128 ![0] bcast_S819200_S819200x128_0 (inRange (starts flat)) x = 1#1 :=
    inRange_eq_one (starts flat)
      (fun k => by rw [hst]; exact ⟨sge_zero_of_lt (hflat _), sle_max_of_lt (hflat _)⟩) _
  unfold taken
  rw [select_apply, hc, select_one, gather_apply]
  refine congrArg tab (funext fun a => ?_)
  match a with
  | ⟨0, _⟩ =>
    refine Fin.ext ?_
    show min (starts flat (ix2 (x 0) (0 : Fin 1))).toInt.toNat 99999 = (flat (ix1 (x 0))).toNat % 100000
    rw [hst]
    have hw := hflat (ix1 (x 0))
    show min (flat (ix1 (x 0))).toInt.toNat 99999 = (flat (ix1 (x 0))).toNat % 100000
    rw [toInt_of_lt hw, Int.toNat_natCast]
    omega
  | ⟨1, _⟩ => rfl

/-- On the claim's domain the rows taken are the rows the stated function gathers. -/
theorem taken_eq (idx : IVec S4096x200 32) (tab : FVec F S100000x128 .f32) (h : ∀ j, (idx j).toNat < 100000) :
    taken tab (shapeCast S819200 idx shapeCasts_S4096x200_S819200) = Cert.Spec.mid idx tab := by
  funext x
  rw [taken_apply tab (shapeCast S819200 idx shapeCasts_S4096x200_S819200) (fun r => h _) x]
  rfl

/-- THE VALUE: on the claim's domain the reference's composed term is the stated function of the two arrays. -/
theorem refTerm_eq_out (idx : IVec S4096x200 32) (tab : FVec F S100000x128 .f32) (h : ∀ j, (idx j).toNat < 100000) :
    refTerm idx tab = Cert.Spec.out idx tab := by
  show shapeCast _ (taken tab _) _ = shapeCast _ (Cert.Spec.mid idx tab) _
  rw [taken_eq idx tab h]

end Value

end Cert.Proof.Ref

end
-- ==== Proof.lean ====
/-
  The kernel and the reference compute the same array: row r of the result (rows in row-major order of the 4096 × 200
  index array, each row 128 wide) is the row of the 100000 × 128 table named by the index word at row-major position r.

  The kernel: the index array is reshaped to 32 × 200 × 128; thirty-two workers, two SparseCores of sixteen vector
  subcores each, take one row of it each, 25600 index words, gather the table rows those words name 128 at a time and
  write them to their own 25600 rows of an 819200 × 128 array; that array is reshaped to 4096 × 200 × 128. The
  reference: the index array is flattened; a word below zero would have the table's height added and a word outside
  the table would yield a fill value, neither of which happens on the claim's domain; the table rows the words name
  are gathered and reshaped to 4096 × 200 × 128. Both results are the one function `Cert.Spec.out` of the two argument
  arrays.

  Of the precondition only the range of the index words is used: every word, read as a natural number, is below
  100000. The kernel needs it so that every gathered row exists; the reference so that no word is wrapped or filled.
  The kernel's text is the same at both float instances and nothing in it computes on a float, so its run is proved once
  for any instance and read at the bit-exact one for the first frame and at the exact one for the second and for the
  value.
-/
import proofs.«207032_g58884001628331_cont_9to1_m_206_11_alg».proof.Defs
import proofs.«207032_g58884001628331_cont_9to1_m_206_11_alg».proof.Proof.Gen.Kernel
import proofs.«207032_g58884001628331_cont_9to1_m_206_11_alg».proof.Proof.Gen.Kernel.Skeleton
import proofs.«207032_g58884001628331_cont_9to1_m_206_11_alg».proof.Proof.Gen.KernelIdeal
import proofs.«207032_g58884001628331_cont_9to1_m_206_11_alg».proof.Proof.Gen.KernelIdeal.Skeleton
import proofs.«207032_g58884001628331_cont_9to1_m_206_11_alg».proof.Proof.Gen.ReferenceIdeal
import proofs.«207032_g58884001628331_cont_9to1_m_206_11_alg».proof.Proof.Gen.Pre_input_domain
import proofs.«207032_g58884001628331_cont_9to1_m_206_11_alg».proof.Proof.KI.Launch
import proofs.«207032_g58884001628331_cont_9to1_m_206_11_alg».proof.Proof.K.Launch
import proofs.«207032_g58884001628331_cont_9to1_m_206_11_alg».proof.Proof.KI.Body
import proofs.«207032_g58884001628331_cont_9to1_m_206_11_alg».proof.Proof.K.Body
import proofs.«207032_g58884001628331_cont_9to1_m_206_11_alg».proof.Proof.PreRange
import proofs.«207032_g58884001628331_cont_9to1_m_206_11_alg».proof.Proof.RefRun
import proofs.«207032_g58884001628331_cont_9to1_m_206_11_alg».proof.Proof.RefValue
import Idealize.ShloMosaic.Adequacy
import Idealize.ShloMosaic.Init

noncomputable section

namespace Cert.Proof

open Idealize.ShloMosaic Idealize.SL.Sem

/-! ## One tile's task, at each instance -/

/-- The task of one vector subcore of the kernel read at the exact instance. -/
theorem tileKI (m : (ℓ : Loc Cert.KernelIdeal.nD Cert.KernelIdeal.τ Cert.KernelIdeal.sig) → Buf (Elt Ideal) ℓ) (hpre : Cert.Proof.KI.PreOK (F := Ideal) m) :
    (Cert.Proof.KI.K (F := Ideal)).TileObl (Cert.Proof.KI.D (F := Ideal)) Cert.Proof.KI.𝒱 (Cert.Proof.KI.P m) Cert.Proof.KI.v₀ 0 :=
  Cert.Proof.KI.tileObl m Cert.Proof.KI.facts hpre
/-- The same at the bit-exact instance. -/
theorem tileK (m : (ℓ : Loc Cert.Kernel.nD Cert.Kernel.τ Cert.Kernel.sig) → Buf (Elt Bits) ℓ) (hpre : Cert.Proof.K.PreOK (F := Bits) m) :
    (Cert.Proof.K.K (F := Bits)).TileObl (Cert.Proof.K.D (F := Bits)) Cert.Proof.K.𝒱 (Cert.Proof.K.P m) Cert.Proof.K.v₀ 0 :=
  Cert.Proof.K.tileObl m Cert.Proof.K.facts hpre

/-! ## The precondition: every index word names a row of the table -/

theorem preOK_KI (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) : Cert.Proof.KI.PreOK (F := Ideal) m :=
  fun d => Cert.Proof.Ref.range_of_pre (F := Ideal) _ _ (hpre d)
theorem preOK_K (m : (ℓ : Loc Cert.Kernel.nD Cert.Kernel.τ Cert.Kernel.sig) → Buf (Elt Bits) ℓ)
    (hpre : Cert.Pre_Kernel (hPre_input_domain := Cert.Pre_input_domain.Gen.facts) m) : Cert.Proof.K.PreOK (F := Bits) m :=
  fun d => Cert.Proof.Ref.range_of_pre (F := Bits) _ _ (hpre d)

/-! ## The frames -/

theorem frame_Kernel : Cert.frame_Kernel (hKernel := Cert.Kernel.Gen.facts) (hPre_input_domain := Cert.Pre_input_domain.Gen.facts) :=
  fun m g hpre => (θ_run Cert.Kernel.defs _ _).mono (fun _ h c => (h c).2) (Cert.Proof.K.run_main (F := Bits) m g (tileK m (preOK_K m hpre)))

theorem frame_KernelIdeal : Cert.frame_KernelIdeal (hKernelIdeal := Cert.KernelIdeal.Gen.facts) (hPre_input_domain := Cert.Pre_input_domain.Gen.facts) :=
  fun m g hpre => (θ_run Cert.KernelIdeal.defs _ _).mono (fun _ h c => (h c).2) (Cert.Proof.KI.run_main (F := Ideal) m g (tileKI m (preOK_KI m hpre)))

theorem frame_ReferenceIdeal : Cert.frame_ReferenceIdeal (hReferenceIdeal := Cert.ReferenceIdeal.Gen.facts) (hPre_input_domain := Cert.Pre_input_domain.Gen.facts) :=
  fun m g _ => (θ_run _ _ _).mono (fun _ h c => (h c).2) (Cert.Proof.Ref.run (F := Ideal) m g)

/-! ## The value: both results are the gathered rows under the result's shape -/

theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  refine ⟨fun c => Cert.Proof.KI.Gout m c, ?_, ?_⟩
  · exact (θ_run Cert.KernelIdeal.defs _ _).mono (fun _ h c => h c) (Cert.Proof.KI.run_main (F := Ideal) m g (tileKI m (preOK_KI m hpre)))
  · refine (θ_run _ _ _).mono (fun _ h c => ?_) (Cert.Proof.Ref.run (F := Ideal) m' g')
    obtain ⟨h1, h2, h3⟩ := h c
    have e : Cert.Proof.Ref.refTerm (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        = Cert.Spec.out (m (Cert.Proof.KI.aLoc c)) (m (Cert.Proof.KI.xLoc c)) := by
      rw [(hagree c).1, (hagree c).2]
      exact Cert.Proof.Ref.refTerm_eq_out _ _ (Cert.Proof.Ref.range_of_pre (F := Ideal) _ _ (hpre c))
    exact ⟨h1.trans e, h2, h3⟩

/-! ## The claim -/

theorem claim : Cert.Claim := ⟨Cert.Kernel.Gen.facts, Cert.KernelIdeal.Gen.facts, Cert.ReferenceIdeal.Gen.facts, Cert.Pre_input_domain.Gen.facts,
  frame_Kernel, frame_KernelIdeal, frame_ReferenceIdeal, trivial, algebraic⟩

end Cert.Proof

end
